-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39_1)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v39_0)) (v3 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_1) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v39_0) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S5x128 : Shape := ⟨2, ![5, 128]⟩
abbrev S128x5 : Shape := ⟨2, ![128, 5]⟩
abbrev S5 : Shape := ⟨1, ![5]⟩
abbrev S256x5 : Shape := ⟨2, ![256, 5]⟩
abbrev S256x2 : Shape := ⟨2, ![256, 2]⟩
abbrev S2 : Shape := ⟨1, ![2]⟩
abbrev S2x640000 : Shape := ⟨2, ![2, 640000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_
  bcast_S_S256x5 : S_.BroadcastsInDim S256x5 (![] : Fin 0 → Fin S256x5.rank)
  reducesTo_S256x5_S_d0_1 : S256x5.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S256x2 .f32) (main_arg8 : FVec F S2 .f32) (main_v33 : IVec S_ 1) : IVec S_ 1 :=
  let main_v34 : FVec F S256x2 .f32 := Host.absf main_arg7
  let main_cst_12 : FVec F S_ .f32 := constant S_ .f32 0x7F800000#32
  let main_v35 : FVec F S256x2 .f32 := broadcastInDim S256x2 ![] bcast_S_S256x2 main_cst_12
  let main_v36 : IVec S256x2 1 := cmpf .olt main_v34 main_v35
  let main_c_13 : IVec S_ 1 := constantI S_ 1 1#1
  let main_v37 : IVec S_ 1 := (fun x v => Host.reduce IntOp.andi x v reducesTo_S256x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S5x128 .f32) (main_arg5 : FVec F S256x5 .f32) (main_arg6 : FVec F S5 .f32) (main_arg7 : FVec F S256x2 .f32) (main_arg8 : FVec F S2 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S5x128 .f32 := Host.absf main_arg4
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S256x5 .f32 := Host.absf main_arg5
  let main_cst_8 : FVec F S_ .f32 := constant S_ .f32 0x7F800000#32
  let main_v25 : FVec F S256x5 .f32 := broadcastInDim S256x5 ![] bcast_S_S256x5 main_cst_8
  let main_v26 : IVec S256x5 1 := cmpf .olt main_v24 main_v25
  let main_c_9 : IVec S_ 1 := constantI S_ 1 1#1
  let main_v27 : IVec S_ 1 := (fun x v => Host.reduce IntOp.andi x v reducesTo_S256x5_S_d0_1 h_S_) main_v26 main_c_9
  let main_v28 : IVec S_ 1 := andi main_v23 main_v27
  let main_v29 : FVec F S5 .f32 := Host.absf main_arg6
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S5x128 .f32) (main_arg2 : FVec F S128x5 .f32) (main_arg3 : FVec F S5 .f32) (main_arg4 : FVec F S5x128 .f32) (main_arg5 : FVec F S256x5 .f32) (main_arg6 : FVec F S5 .f32) (main_arg7 : FVec F S256x2 .f32) (main_arg8 : FVec F S2 .f32) (main_arg9 : IVec S2x640000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5x128 .f32 := Host.absf main_arg1
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S128x5 .f32 := Host.absf main_arg2
  let main_cst_2 : FVec F S_ .f32 := constant S_ .f32 0x7F800000#32
  let main_v10 : FVec F S128x5 .f32 := broadcastInDim S128x5 ![] bcast_S_S128x5 main_cst_2
  let main_v11 : IVec S128x5 1 := cmpf .olt main_v9 main_v10
  let main_c_3 : IVec S_ 1 := constantI S_ 1 1#1
  let main_v12 : IVec S_ 1 := (fun x v => Host.reduce IntOp.andi x v reducesTo_S128x5_S_d0_1 h_S_) main_v11 main_c_3
  let main_v13 : IVec S_ 1 := andi main_v8 main_v12
  let main_v14 : FVec F S5 .f32 := Host.absf main_arg3
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S5x128 : Shape := ⟨2, ![5, 128]⟩
abbrev S128x5 : Shape := ⟨2, ![128, 5]⟩
abbrev S5 : Shape := ⟨1, ![5]⟩
abbrev S256x5 : Shape := ⟨2, ![256, 5]⟩
abbrev S256x2 : Shape := ⟨2, ![256, 2]⟩
abbrev S2 : Shape := ⟨1, ![2]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x5 : Shape := ⟨2, ![1, 5]⟩
abbrev S10000x128 : Shape := ⟨2, ![10000, 128]⟩
abbrev S10000x5 : Shape := ⟨2, ![10000, 5]⟩
abbrev S10000 : Shape := ⟨1, ![10000]⟩
abbrev S10000x1 : Shape := ⟨2, ![10000, 1]⟩
abbrev S1280000 : Shape := ⟨1, ![1280000]⟩
abbrev S1280000x128 : Shape := ⟨2, ![1280000, 128]⟩
abbrev S1280000x1 : Shape := ⟨2, ![1280000, 1]⟩
abbrev S128x2 : Shape := ⟨2, ![128, 2]⟩
abbrev S1x2 : Shape := ⟨2, ![1, 2]⟩
abbrev S5000x128 : Shape := ⟨2, ![5000, 128]⟩
abbrev S5000x5 : Shape := ⟨2, ![5000, 5]⟩
abbrev S5000 : Shape := ⟨1, ![5000]⟩
abbrev S5000x1 : Shape := ⟨2, ![5000, 1]⟩
abbrev S5000x2 : Shape := ⟨2, ![5000, 2]⟩

abbrev nBuf : Space → Nat
  | .hbm => 58
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S5x128, .f32⟩
  | .hbm, ⟨2, _⟩ => ⟨S128x5, .f32⟩
  | .hbm, ⟨3, _⟩ => ⟨S5, .f32⟩
  | .hbm, ⟨4, _⟩ => ⟨S5x128, .f32⟩
  | .hbm, ⟨5, _⟩ => ⟨S256x5, .f32⟩
  | .hbm, ⟨6, _⟩ => ⟨S5, .f32⟩
  | .hbm, ⟨7, _⟩ => ⟨S256x2, .f32⟩
  | .hbm, ⟨8, _⟩ => ⟨S2, .f32⟩
  | .hbm, ⟨9, _⟩ => ⟨S2x640000, .i32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S50000x128, .bf16⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .bf16⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .bf16⟩
  | .hbm, ⟨33, _⟩ => ⟨S128x5, .f32⟩
  | .hbm, ⟨34, _⟩ => ⟨S128x5, .bf16⟩
  | .hbm, ⟨35, _⟩ => ⟨S128x5, .f32⟩
  | .hbm, ⟨36, _⟩ => ⟨S128x5, .bf16⟩
  | .hbm, ⟨37, _⟩ => ⟨S1x5, .f32⟩
  | .hbm, ⟨38, _⟩ => ⟨S640000x128, .f32⟩
  | .hbm, ⟨39, _⟩ => ⟨S1280000, .i32⟩
  | .hbm, ⟨40, _⟩ => ⟨S1280000x128, .f32⟩
  | .hbm, ⟨41, _⟩ => ⟨S_, .f32⟩
  | .hbm, ⟨42, _⟩ => ⟨S50000x128, .f32⟩
  | .hbm, ⟨43, _⟩ => ⟨S_, .i32⟩
  | .hbm, ⟨44, _⟩ => ⟨S1280000, .i32⟩
  | .hbm, ⟨45, _⟩ => ⟨S1280000, .i1⟩
  | .hbm, ⟨46, _⟩ => ⟨S_, .i32⟩
  | .hbm, ⟨47, _⟩ => ⟨S1280000, .i32⟩
  | .hbm, ⟨48, _⟩ => ⟨S1280000, .i32⟩
  | .hbm, ⟨49, _⟩ => ⟨S1280000, .i32⟩
  | .hbm, ⟨50, _⟩ => ⟨S1280000x1, .i32⟩
  | .hbm, ⟨51, _⟩ => ⟨S50000x128, .f32⟩
  | .hbm, ⟨52, _⟩ => ⟨S128x2, .f32⟩
  | .hbm, ⟨53, _⟩ => ⟨S128x2, .f32⟩
  | .hbm, ⟨54, _⟩ => ⟨S1x5, .f32⟩
  | .hbm, ⟨55, _⟩ => ⟨S1x2, .f32⟩
  | .hbm, ⟨56, _⟩ => ⟨S50000x128, .f32⟩
  | .hbm, ⟨57, _⟩ => ⟨S50000x128, .f32⟩
  | .local _ .vmem, ⟨0, _⟩ => ⟨S10000x128, .bf16⟩
  | .local _ .vmem, ⟨1, _⟩ => ⟨S10000x128, .bf16⟩
  | .local _ .vmem, ⟨2, _⟩ => ⟨S10000x128, .bf16⟩
  | .local _ .vmem, ⟨3, _⟩ => ⟨S10000x128, .bf16⟩
  | .local _ .vmem, ⟨4, _⟩ => ⟨S128x5, .bf16⟩
  | .local _ .vmem, ⟨5, _⟩ => ⟨S128x5, .bf16⟩
  | .local _ .vmem, ⟨6, _⟩ => ⟨S1x5, .f32⟩
  | .local _ .vmem, ⟨7, _⟩ => ⟨S5x128, .f32⟩
  | .local _ .vmem, ⟨8, _⟩ => ⟨S10000x128, .f32⟩
  | .local _ .vmem, ⟨9, _⟩ => ⟨S10000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x5, .f32⟩
  | .local _ .vmem, ⟨15, _⟩ => ⟨S1x5, .f32⟩
  | .local _ .vmem, ⟨16, _⟩ => ⟨S5x128, .f32⟩
  | .local _ .vmem, ⟨17, _⟩ => ⟨S128x2, .f32⟩
  | .local _ .vmem, ⟨18, _⟩ => ⟨S128x2, .f32⟩
  | .local _ .vmem, ⟨19, _⟩ => ⟨S1x2, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39_0 : Ref sig .tc := ⟨.hbm, 56, rfl⟩
abbrev main_v39_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x5 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x5 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S5x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  slices_S256x5_S128x5_0_0 : S256x5.Slices ![0, 0] S128x5
  slices_S256x5_S128x5_128_0 : S256x5.Slices ![128, 0] S128x5
  shapeCasts_S5_S1x5 : S5.ShapeCasts S1x5
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x5_S128x5_0_0 : ∀ a, (![0, 0] : Fin 2 → Nat) a + S128x5.size a ≤ S128x5.size a
  h_S128x5 : 0 < S128x5.numel
  shapeCasts_S128x5_S128x5 : S128x5.ShapeCasts S128x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  reduces_S10000x5_S10000 : S10000x5.Reduces [1] S10000
  shapeCasts_S10000_S10000x1 : S10000.ShapeCasts S10000x1
  broadcasts_S10000x1_S10000x5 : S10000x1.Broadcasts S10000x5
  inb_S5x128_S5x128_0_0 : ∀ a, (![0, 0] : Fin 2 → Nat) a + S5x128.size a ≤ S5x128.size a
  h_S5x128 : 0 < S5x128.numel
  concatenates_S640000_S640000_S1280000_d0 : Shape.Concatenates [S640000, S640000] S1280000 0
  concatenates_S640000x128_S640000x128_S1280000x128_d0 : Shape.Concatenates [S640000x128, S640000x128] S1280000x128 0
  bcast_S_S50000x128 : S_.BroadcastsInDim S50000x128 (![] : Fin 0 → Fin S50000x128.rank)
  bcast_S_S1280000 : S_.BroadcastsInDim S1280000 (![] : Fin 0 → Fin S1280000.rank)
  bcast_S1280000_S1280000x1_0 : S1280000.BroadcastsInDim S1280000x1 (![0] : Fin 1 → Fin S1280000x1.rank)
  slices_S256x2_S128x2_0_0 : S256x2.Slices ![0, 0] S128x2
  slices_S256x2_S128x2_128_0 : S256x2.Slices ![128, 0] S128x2
  shapeCasts_S2_S1x2 : S2.ShapeCasts S1x2
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x5_S5000x5 : S1x5.Broadcasts S5000x5
  reduces_S5000x5_S5000 : S5000x5.Reduces [1] S5000
  shapeCasts_S5000_S5000x1 : S5000.ShapeCasts S5000x1
  broadcasts_S5000x1_S5000x5 : S5000x1.Broadcasts S5000x5
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  broadcasts_S5000x1_S5000x2 : S5000x1.Broadcasts S5000x2
  slices_S5000x2_o0_0_S5000x1 : S5000x2.Slices ![0, 0] S5000x1
  broadcasts_S5000x1_S5000x128 : S5000x1.Broadcasts S5000x128
  slices_S5000x2_o0_1_S5000x1 : S5000x2.Slices ![0, 1] S5000x1
  gather_S50000x128_S640000x1_S640000x128_1_0_n_n_0_1_1128_wf : GatherDims.WF S50000x128 S640000x1 S640000x128 [1] [0] [] [0] [] 1 ![1, 128]
  dot_S10000x128_S128x5_S10000x5_1_0_0_1_n_n_wf : DotDims.WF S10000x128 S128x5 S10000x5 [1] [0] [0] [1] [] []
  dot_S10000x5_S5x128_S10000x128_1_0_0_1_n_n_wf : DotDims.WF S10000x5 S5x128 S10000x128 [1] [0] [0] [1] [] []
  scatter_S50000x128_S1280000x1_S1280000x128_1_0_0_1_wf : ScatterDims.WF S50000x128 S1280000x1 S1280000x128 [1] [0] [0] 1
  dot_S5000x128_S128x5_S5000x5_1_0_0_1_n_n_wf : DotDims.WF S5000x128 S128x5 S5000x5 [1] [0] [0] [1] [] []
  dot_S5000x5_S5x128_S5000x128_1_0_0_1_n_n_wf : DotDims.WF S5000x5 S5x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S640000x128.size a
  hwx0_0 : ∀ i : grid0.Coords, EltTy.bits .bf16 = 32 ∨ (Rect.block (s := S640000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S640000x128.size a
  hwx0_1 : ∀ i : grid0.Coords, EltTy.bits .bf16 = 32 ∨ (Rect.block (s := S640000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x5.size a ≤ S128x5.size a
  hwx0_2 : ∀ i : grid0.Coords, EltTy.bits .bf16 = 32 ∨ (Rect.block (s := S128x5) S128x5.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x5.size a ≤ S128x5.size a
  hwx0_3 : ∀ i : grid0.Coords, EltTy.bits .bf16 = 32 ∨ (Rect.block (s := S128x5) S128x5.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5.size a ≤ S1x5.size a
  hwx0_4 : ∀ i : grid0.Coords, EltTy.bits .f32 = 32 ∨ (Rect.block (s := S1x5) S1x5.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128.size a ≤ S5x128.size a
  hwx0_5 : ∀ i : grid0.Coords, EltTy.bits .f32 = 32 ∨ (Rect.block (s := S5x128) S5x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S640000x128.size a
  hwx0_6 : ∀ i : grid0.Coords, EltTy.bits .f32 = 32 ∨ (Rect.block (s := S640000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x5.size a ≤ S128x5.size a
  hwx1_2 : ∀ i : grid1.Coords, EltTy.bits .f32 = 32 ∨ (Rect.block (s := S128x5) S128x5.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x5.size a ≤ S1x5.size a
  hwx1_3 : ∀ i : grid1.Coords, EltTy.bits .f32 = 32 ∨ (Rect.block (s := S1x5) S1x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S5x128.size a ≤ S5x128.size a
  hwx1_4 : ∀ i : grid1.Coords, EltTy.bits .f32 = 32 ∨ (Rect.block (s := S5x128) S5x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x2.size a ≤ S128x2.size a
  hwx1_5 : ∀ i : grid1.Coords, EltTy.bits .f32 = 32 ∨ (Rect.block (s := S128x2) S128x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x2.size a ≤ S128x2.size a
  hwx1_6 : ∀ i : grid1.Coords, EltTy.bits .f32 = 32 ∨ (Rect.block (s := S128x2) S128x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2.size a ≤ S1x2.size a
  hwx1_7 : ∀ i : grid1.Coords, EltTy.bits .f32 = 32 ∨ (Rect.block (s := S1x2) S1x2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S10000x128_S128x5_S10000x5_1_0_0_1_n_n : DotDims S10000x128 S128x5 S10000x5 where
  lhsContracting := [1]
  rhsContracting := [0]
  lhsNonContracting := [0]
  rhsNonContracting := [1]
  lhsBatch := []
  rhsBatch := []
  wf := dot_S10000x128_S128x5_S10000x5_1_0_0_1_n_n_wf
def dot_S10000x5_S5x128_S10000x128_1_0_0_1_n_n : DotDims S10000x5 S5x128 S10000x128 where
  lhsContracting := [1]
  rhsContracting := [0]
  lhsNonContracting := [0]
  rhsNonContracting := [1]
  lhsBatch := []
  rhsBatch := []
  wf := dot_S10000x5_S5x128_S10000x128_1_0_0_1_n_n_wf
def scatter_S50000x128_S1280000x1_S1280000x128_1_0_0_1 : ScatterDims S50000x128 S1280000x1 S1280000x128 where
  updateWindowDims := [1]
  insertedWindowDims := [0]
  scatterDimsToOperandDims := [0]
  indexVectorDim := 1
  wf := scatter_S50000x128_S1280000x1_S1280000x128_1_0_0_1_wf
def dot_S5000x128_S128x5_S5000x5_1_0_0_1_n_n : DotDims S5000x128 S128x5 S5000x5 where
  lhsContracting := [1]
  rhsContracting := [0]
  lhsNonContracting := [0]
  rhsNonContracting := [1]
  lhsBatch := []
  rhsBatch := []
  wf := dot_S5000x128_S128x5_S5000x5_1_0_0_1_n_n_wf
def dot_S5000x5_S5x128_S5000x128_1_0_0_1_n_n : DotDims S5000x5 S5x128 S5000x128 where
  lhsContracting := [1]
  rhsContracting := [0]
  lhsNonContracting := [0]
  rhsNonContracting := [1]
  lhsBatch := []
  rhsBatch := []
  wf := dot_S5000x5_S5x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_v11) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S5x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S5x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S128x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S128x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S1x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39_0) S5000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v39_1) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S5x128 : Shape := ⟨2, ![5, 128]⟩
abbrev S128x5 : Shape := ⟨2, ![128, 5]⟩
abbrev S5 : Shape := ⟨1, ![5]⟩
abbrev S256x5 : Shape := ⟨2, ![256, 5]⟩
abbrev S256x2 : Shape := ⟨2, ![256, 2]⟩
abbrev S2 : Shape := ⟨1, ![2]⟩
abbrev S2x640000 : Shape := ⟨2, ![2, 640000]⟩
abbrev S1x640000 : Shape := ⟨2, ![1, 640000]⟩
abbrev S640000 : Shape := ⟨1, ![640000]⟩
abbrev S50000x5 : Shape := ⟨2, ![50000, 5]⟩
abbrev S1x5 : Shape := ⟨2, ![1, 5]⟩
abbrev S_ : Shape := ⟨0, ![]⟩
abbrev S50000 : Shape := ⟨1, ![50000]⟩
abbrev S50000x1 : Shape := ⟨2, ![50000, 1]⟩
abbrev S640000x1 : Shape := ⟨2, ![640000, 1]⟩
abbrev S640000x128 : Shape := ⟨2, ![640000, 128]⟩
abbrev S640000x256 : Shape := ⟨2, ![640000, 256]⟩
abbrev S640000x5 : Shape := ⟨2, ![640000, 5]⟩
abbrev S50000x256 : Shape := ⟨2, ![50000, 256]⟩
abbrev S50000x2 : Shape := ⟨2, ![50000, 2]⟩
abbrev S1x2 : Shape := ⟨2, ![1, 2]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S5x128, .f32⟩
  | .hbm, ⟨2, _⟩ => ⟨S128x5, .f32⟩
  | .hbm, ⟨3, _⟩ => ⟨S5, .f32⟩
  | .hbm, ⟨4, _⟩ => ⟨S5x128, .f32⟩
  | .hbm, ⟨5, _⟩ => ⟨S256x5, .f32⟩
  | .hbm, ⟨6, _⟩ => ⟨S5, .f32⟩
  | .hbm, ⟨7, _⟩ => ⟨S256x2, .f32⟩
  | .hbm, ⟨8, _⟩ => ⟨S2, .f32⟩
  | .hbm, ⟨9, _⟩ => ⟨S2x640000, .i32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S50000x5, .f32⟩
  | .hbm, ⟨15, _⟩ => ⟨S1x5, .f32⟩
  | .hbm, ⟨16, _⟩ => ⟨S50000x5, .f32⟩
  | .hbm, ⟨17, _⟩ => ⟨S50000x5, .f32⟩
  | .hbm, ⟨18, _⟩ => ⟨S_, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x5, .f32⟩
  | .hbm, ⟨25, _⟩ => ⟨S50000x5, .f32⟩
  | .hbm, ⟨26, _⟩ => ⟨S50000x5, .f32⟩
  | .hbm, ⟨27, _⟩ => ⟨S_, .f32⟩
  | .hbm, ⟨28, _⟩ => ⟨S50000, .f32⟩
  | .hbm, ⟨29, _⟩ => ⟨S50000x1, .f32⟩
  | .hbm, ⟨30, _⟩ => ⟨S50000x5, .f32⟩
  | .hbm, ⟨31, _⟩ => ⟨S50000x5, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S640000x256, .f32⟩
  | .hbm, ⟨53, _⟩ => ⟨S640000x5, .f32⟩
  | .hbm, ⟨54, _⟩ => ⟨S1x5, .f32⟩
  | .hbm, ⟨55, _⟩ => ⟨S640000x5, .f32⟩
  | .hbm, ⟨56, _⟩ => ⟨S640000x5, .f32⟩
  | .hbm, ⟨57, _⟩ => ⟨S_, .f32⟩
  | .hbm, ⟨58, _⟩ => ⟨S640000x5, .f32⟩
  | .hbm, ⟨59, _⟩ => ⟨S640000x5, .i1⟩
  | .hbm, ⟨60, _⟩ => ⟨S_, .f32⟩
  | .hbm, ⟨61, _⟩ => ⟨S640000x5, .f32⟩
  | .hbm, ⟨62, _⟩ => ⟨S640000x5, .f32⟩
  | .hbm, ⟨63, _⟩ => ⟨S640000x5, .f32⟩
  | .hbm, ⟨64, _⟩ => ⟨S_, .f32⟩
  | .hbm, ⟨65, _⟩ => ⟨S640000, .f32⟩
  | .hbm, ⟨66, _⟩ => ⟨S_, .f32⟩
  | .hbm, ⟨67, _⟩ => ⟨S640000, .f32⟩
  | .hbm, ⟨68, _⟩ => ⟨S640000, .f32⟩
  | .hbm, ⟨69, _⟩ => ⟨S640000x1, .f32⟩
  | .hbm, ⟨70, _⟩ => ⟨S640000x5, .f32⟩
  | .hbm, ⟨71, _⟩ => ⟨S640000x5, .f32⟩
  | .hbm, ⟨72, _⟩ => ⟨S640000x5, .f32⟩
  | .hbm, ⟨73, _⟩ => ⟨S_, .f32⟩
  | .hbm, ⟨74, _⟩ => ⟨S640000, .f32⟩
  | .hbm, ⟨75, _⟩ => ⟨S640000x1, .f32⟩
  | .hbm, ⟨76, _⟩ => ⟨S640000x5, .f32⟩
  | .hbm, ⟨77, _⟩ => ⟨S640000x5, .f32⟩
  | .hbm, ⟨78, _⟩ => ⟨S640000x128, .f32⟩
  | .hbm, ⟨79, _⟩ => ⟨S_, .f32⟩
  | .hbm, ⟨80, _⟩ => ⟨S50000x128, .f32⟩
  | .hbm, ⟨81, _⟩ => ⟨S_, .i32⟩
  | .hbm, ⟨82, _⟩ => ⟨S640000, .i32⟩
  | .hbm, ⟨83, _⟩ => ⟨S640000, .i1⟩
  | .hbm, ⟨84, _⟩ => ⟨S_, .i32⟩
  | .hbm, ⟨85, _⟩ => ⟨S640000, .i32⟩
  | .hbm, ⟨86, _⟩ => ⟨S640000, .i32⟩
  | .hbm, ⟨87, _⟩ => ⟨S640000, .i32⟩
  | .hbm, ⟨88, _⟩ => ⟨S640000x1, .i32⟩
  | .hbm, ⟨89, _⟩ => ⟨S50000x128, .f32⟩
  | .hbm, ⟨90, _⟩ => ⟨S_, .i32⟩
  | .hbm, ⟨91, _⟩ => ⟨S640000, .i32⟩
  | .hbm, ⟨92, _⟩ => ⟨S640000, .i1⟩
  | .hbm, ⟨93, _⟩ => ⟨S_, .i32⟩
  | .hbm, ⟨94, _⟩ => ⟨S640000, .i32⟩
  | .hbm, ⟨95, _⟩ => ⟨S640000, .i32⟩
  | .hbm, ⟨96, _⟩ => ⟨S640000, .i32⟩
  | .hbm, ⟨97, _⟩ => ⟨S640000x1, .i32⟩
  | .hbm, ⟨98, _⟩ => ⟨S50000x128, .f32⟩
  | .hbm, ⟨99, _⟩ => ⟨S50000x256, .f32⟩
  | .hbm, ⟨100, _⟩ => ⟨S50000x2, .f32⟩
  | .hbm, ⟨101, _⟩ => ⟨S1x2, .f32⟩
  | .hbm, ⟨102, _⟩ => ⟨S50000x2, .f32⟩
  | .hbm, ⟨103, _⟩ => ⟨S50000x2, .f32⟩
  | .hbm, ⟨104, _⟩ => ⟨S_, .f32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x2, .f32⟩
  | .hbm, ⟨111, _⟩ => ⟨S50000x2, .f32⟩
  | .hbm, ⟨112, _⟩ => ⟨S50000x2, .f32⟩
  | .hbm, ⟨113, _⟩ => ⟨S_, .f32⟩
  | .hbm, ⟨114, _⟩ => ⟨S50000, .f32⟩
  | .hbm, ⟨115, _⟩ => ⟨S50000x1, .f32⟩
  | .hbm, ⟨116, _⟩ => ⟨S50000x2, .f32⟩
  | .hbm, ⟨117, _⟩ => ⟨S50000x2, .f32⟩
  | .hbm, ⟨118, _⟩ => ⟨S50000x1, .f32⟩
  | .hbm, ⟨119, _⟩ => ⟨S50000x128, .f32⟩
  | .hbm, ⟨120, _⟩ => ⟨S50000x128, .f32⟩
  | .hbm, ⟨121, _⟩ => ⟨S50000x1, .f32⟩
  | .hbm, ⟨122, _⟩ => ⟨S50000x128, .f32⟩
  | .hbm, ⟨123, _⟩ => ⟨S50000x128, .f32⟩
  | .hbm, ⟨124, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_cst_0 : Ref sig .tc := ⟨.hbm, 60, rfl⟩
abbrev main_call0_v2 : Ref sig .tc := ⟨.hbm, 61, rfl⟩
abbrev main_call0_v3 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_c_9 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_11 : Ref sig .tc := ⟨.hbm, 90, rfl⟩
abbrev main_v61 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_13 : Ref sig .tc := ⟨.hbm, 104, rfl⟩
abbrev main_v73 : Ref sig .tc := ⟨.hbm, 105, rfl⟩
abbrev main_cst_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_15 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S5_S1x5_1 : S5.BroadcastsInDim S1x5 (![1] : Fin 1 → Fin S1x5.rank)
  bcast_S1x5_S50000x5_0_1 : S1x5.BroadcastsInDim S50000x5 (![0, 1] : Fin 2 → Fin S50000x5.rank)
  reducesTo_S50000x5_S50000_d1 : S50000x5.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x5_0_1 : S50000x1.BroadcastsInDim S50000x5 (![0, 1] : Fin 2 → Fin S50000x5.rank)
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S1x5_S640000x5_0_1 : S1x5.BroadcastsInDim S640000x5 (![0, 1] : Fin 2 → Fin S640000x5.rank)
  bcast_S_S640000x5 : S_.BroadcastsInDim S640000x5 (![] : Fin 0 → Fin S640000x5.rank)
  reducesTo_S640000x5_S640000_d1 : S640000x5.ReducesTo [1] S640000
  bcast_S640000x1_S640000x5_0_1 : S640000x1.BroadcastsInDim S640000x5 (![0, 1] : Fin 2 → Fin S640000x5.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  bcast_S50000x1_S50000x2_0_1 : S50000x1.BroadcastsInDim S50000x2 (![0, 1] : Fin 2 → Fin S50000x2.rank)
  slices_S50000x2_S50000x1_0_0 : S50000x2.Slices ![0, 0] S50000x1
  bcast_S50000x1_S50000x128_0_1 : S50000x1.BroadcastsInDim S50000x128 (![0, 1] : Fin 2 → Fin S50000x128.rank)
  slices_S50000x2_S50000x1_0_1 : S50000x2.Slices ![0, 1] S50000x1
  dot_S50000x128_S128x5_S50000x5_1_0_0_1_n_n_wf : DotDims.WF S50000x128 S128x5 S50000x5 [1] [0] [0] [1] [] []
  dot_S50000x5_S5x128_S50000x128_1_0_0_1_n_n_wf : DotDims.WF S50000x5 S5x128 S50000x128 [1] [0] [0] [1] [] []
  gather_S50000x128_S640000x1_S640000x128_1_0_n_n_0_1_1128_wf : GatherDims.WF S50000x128 S640000x1 S640000x128 [1] [0] [] [0] [] 1 ![1, 128]
  dot_S640000x256_S256x5_S640000x5_1_0_0_1_n_n_wf : DotDims.WF S640000x256 S256x5 S640000x5 [1] [0] [0] [1] [] []
  dot_S640000x5_S5x128_S640000x128_1_0_0_1_n_n_wf : DotDims.WF S640000x5 S5x128 S640000x128 [1] [0] [0] [1] [] []
  scatter_S50000x128_S640000x1_S640000x128_1_0_0_1_wf : ScatterDims.WF S50000x128 S640000x1 S640000x128 [1] [0] [0] 1
  dot_S50000x256_S256x2_S50000x2_1_0_0_1_n_n_wf : DotDims.WF S50000x256 S256x2 S50000x2 [1] [0] [0] [1] [] []

variable [Facts₀]

def dot_S50000x128_S128x5_S50000x5_1_0_0_1_n_n : DotDims S50000x128 S128x5 S50000x5 where
  lhsContracting := [1]
  rhsContracting := [0]
  lhsNonContracting := [0]
  rhsNonContracting := [1]
  lhsBatch := []
  rhsBatch := []
  wf := dot_S50000x128_S128x5_S50000x5_1_0_0_1_n_n_wf
def dot_S50000x5_S5x128_S50000x128_1_0_0_1_n_n : DotDims S50000x5 S5x128 S50000x128 where
  lhsContracting := [1]
  rhsContracting := [0]
  lhsNonContracting := [0]
  rhsNonContracting := [1]
  lhsBatch := []
  rhsBatch := []
  wf := dot_S50000x5_S5x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x256_S256x5_S640000x5_1_0_0_1_n_n : DotDims S640000x256 S256x5 S640000x5 where
  lhsContracting := [1]
  rhsContracting := [0]
  lhsNonContracting := [0]
  rhsNonContracting := [1]
  lhsBatch := []
  rhsBatch := []
  wf := dot_S640000x256_S256x5_S640000x5_1_0_0_1_n_n_wf
def dot_S640000x5_S5x128_S640000x128_1_0_0_1_n_n : DotDims S640000x5 S5x128 S640000x128 where
  lhsContracting := [1]
  rhsContracting := [0]
  lhsNonContracting := [0]
  rhsNonContracting := [1]
  lhsBatch := []
  rhsBatch := []
  wf := dot_S640000x5_S5x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.KernRun.lean ====
/-
  The whole run of the two-pass layer with every buffer named. The program is four stretches in a row: host
  operations, the edge pass, host operations (among them the one scatter-add), the node pass. Folding the contents
  of the unscoped buffers through the four stretches from the launch memory gives one valuation per core; every
  weakly fair execution terminates, and its final memory agrees with that valuation at every unscoped buffer. The
  statements hold over any number format.
-/
import proofs.«162870_j34248069218340_2_alg».proof.Proof.Gen.KernelIdeal.Frame

set_option maxRecDepth 16384

noncomputable section

namespace Cert.KernRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution on the TensorCores terminates, and in every final
    state each unscoped buffer of each core holds what the fold through the four stretches says: the launch over the
    four segments, the last thread state read against the final state, nothing projected away. -/
theorem run_W4 : θ_run defs (onTc (τ := τ) (main (F := F))) ⟨m, fun _ => 0, ρ⟩
      (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run read at the four result buffers — the node pass's two results, the edge pass's result, the
    scatter-add's result — and at the ten argument arrays, which end as launched. -/
theorem run_results : θ_run defs (onTc (τ := τ) (main (F := F))) ⟨m, fun _ => 0, ρ⟩ (fun r => ∀ c : Dev nD,
      r.2.mem ((c.tc : Thread nD τ).loc main_v39_1) = W4 m ρ c (Proc.devRef .tc main_v39_1)
      ∧ r.2.mem ((c.tc : Thread nD τ).loc main_v24) = W4 m ρ c (Proc.devRef .tc main_v24)
      ∧ r.2.mem ((c.tc : Thread nD τ).loc main_v39_0) = W4 m ρ c (Proc.devRef .tc main_v39_0)
      ∧ r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v39_1 (by decide)),
     h c _ (mem_uc main_v24 (by decide)),
     h c _ (mem_uc main_v39_0 (by decide)),
     h c _ (mem_uc main_v34 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩)
    (run_W4 m ρ)

end Cert.KernRun

end
-- ==== Proof.KernChain.lean ====
/-
  Where each result of the two-pass layer sits at the end of the run. The node pass leaves its two result arrays as
  the fold of its write-backs; the scatter-add's result is an input of the node pass, so it ends as the second host
  stretch left it; the edge pass's result is touched by nothing after the edge pass (the second host stretch only
  reads it, the node pass does not see it), so it ends as the fold of the edge pass's write-backs. Structural: any
  number format.
-/
import proofs.«162870_j34248069218340_2_alg».proof.Proof.Gen.KernelIdeal.Frame

set_option maxRecDepth 16384

noncomputable section

namespace Cert.KernChain

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]

variable (m : (ℓ : Loc nD τ sig) → Buf (Elt F) ℓ) (ρ : Dev nD → PrngReg)

/-- The layer's output: the node pass's second result array, the fold of that pass's write-backs. -/
theorem W4_final (c : Dev nD) :
    W4 m ρ c (Proc.devRef .tc main_v39_1) = (dat1 (V3 m ρ) c).arrAt 9 cfg1.N := W4_arr m ρ c 9

/-- The prompted node features: the node pass's first result array. -/
theorem W4_npx (c : Dev nD) :
    W4 m ρ c (Proc.devRef .tc main_v39_0) = (dat1 (V3 m ρ) c).arrAt 8 cfg1.N := W4_arr m ρ c 8

/-- The scatter-add's result is an input array of the node pass: it ends as the node pass found it. -/
theorem W4_eagg (c : Dev nD) :
    W4 m ρ c (Proc.devRef .tc main_v34) = W3 m ρ c (Proc.devRef .tc main_v34) :=
  (W4_arr m ρ c 1).trans (((dat1 (V3 m ρ) c).arrAt_in 1 rfl _).trans (A_eq1 (V3 m ρ) c 1))

/-- The edge prompts when the node pass is entered: no operation of the second host stretch writes them, so they are
    the fold of the edge pass's write-backs. -/
theorem W3_ep (c : Dev nD) :
    W3 m ρ c (Proc.devRef .tc main_v24) = (dat0 (V1 m ρ) c).arrAt 6 cfg0.N :=
  (StableHlo.after_of_forall_not_mem (b := Proc.devRef .tc main_v24) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arr m ρ c 6)

/-- The edge prompts at the end: the node pass has no window on them. -/
theorem W4_ep (c : Dev nD) :
    W4 m ρ c (Proc.devRef .tc main_v24) = (dat0 (V1 m ρ) c).arrAt 6 cfg0.N :=
  (W4_of_ne m ρ c main_v24 (by decide)).trans (W3_ep m ρ c)

end Cert.KernChain

end
-- ==== Proof.LibGatherRows.lean ====
/-
  A gather whose start indices are one column of row numbers, read at an index.

  The start indices have shape [E, 1]: result row e is operand row idx[e, 0], read as a SIGNED integer and clamped
  into [0, N − 1] (a negative number reads row 0, a number past the end reads the last row). For an operand [N, C]
  gathered in whole rows (slice sizes [1, C], the row axis collapsed, the column axis the offset axis) the result at
  (e, k) is the operand at (clamped idx[e, 0], k) (host_gather_rows_apply); for an operand [N] (slice sizes [1]) the
  result at e is the operand at the clamped idx[e, 0] (host_gather_vec_apply). This is what x[idx] lowers to for
  an index vector idx. Both follow from reading the operand index one axis at a time: on the row axis it is the
  clamped start index, on the column axis the result's own column.
-/
import Idealize.ShloMosaic.PureOps
import Idealize.ShloMosaic.Lib.ValueIdx

noncomputable section

namespace Cert.GatherRows

open Idealize.ShloMosaic Idealize.ShloMosaic.ValueIdx

/-- The row a signed row number reads: clamped into [0, N − 1]. -/
def clampRow (N : Nat) (hN : 0 < N) {w : Nat} (b : BitVec w) : Fin N := ⟨min b.toInt.toNat (N - 1), by omega⟩

theorem clampRow_val (N : Nat) (hN : 0 < N) {w : Nat} (b : BitVec w) : (clampRow N hN b).val = min b.toInt.toNat (N - 1) := rfl

/-- A row number already inside [0, N) reads its own row. -/
theorem clampRow_of_toInt (N : Nat) (hN : 0 < N) {w : Nat} (b : BitVec w) (v : Fin N) (h : b.toInt = (v.val : Int)) :
    clampRow N hN b = v := by
  apply Fin.ext
  rw [clampRow_val, h]
  have := v.isLt
  omega

/-! ## Whole rows of width C -/

section Rows
variable {α : Type} {N E C w : Nat}

/-- The dimension numbers of a row gather: operand [N, C], start indices [E, 1], result [E, C]. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![E, 1]⟩ ⟨2, ![E, C]⟩ [1] [0] [] [0] [] 1 ![1, C])

/-- The operand index of result (e, k): the clamped row number, and column k. -/
theorem row_operandIdx (hN : 0 < N) (idx : IVec ⟨2, ![E, 1]⟩ w) (e : Fin E) (k : Fin C) :
    (rowDims N E C wf).operandIdx (ix2 e k) idx = ix2 (clampRow N hN (idx (ix2 e 0))) k := by
  funext a
  refine Fin.ext ?_
  match a with
  | ⟨0, _⟩ =>
    show (rowDims N E C wf).start (ix2 e k) idx 0 + (rowDims N E C wf).batchCoord (ix2 e k) 0 + (rowDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e k) ⟨List.idxOf (0 : Fin 2) (rowDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N E C wf).start (ix2 e k) idx 1 + (rowDims N E C wf).batchCoord (ix2 e k) 1 + (rowDims N E C wf).offCoord (ix2 e k) 1 = k.val
    rw [GatherDims.batchCoord_eq_zero _ _ _ List.not_mem_nil]
    unfold GatherDims.start
    rw [dif_neg (show ¬ (1 : Fin 2) ∈ (rowDims N E C wf).startIndexMap from (show ¬ (1 : Fin 2) ∈ ([0] : List (Fin 2)) by decide))]
    unfold GatherDims.offCoord
    rw [dif_pos (show (1 : Fin 2) ∈ (rowDims N E C wf).sKept from
      (GatherDims.mem_sKept _ _).mpr ⟨(show ¬ (1 : Fin 2) ∈ ([0] : List (Fin 2)) by decide), List.not_mem_nil⟩)]
    simp only [Nat.zero_add]
    rfl

/-- THE ROW GATHER READ AT (e, k): the operand at (clamped idx[e, 0], k), for ANY dimension numbers of a row gather (a
    program's own record: its seven fields are these by unfolding). -/
theorem host_gather_rows_apply (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (k : Fin C) :
    Host.gather d x idx (ix2 e k) = x (ix2 (clampRow N hN (idx (ix2 e 0))) k) := by
  obtain ⟨od, cs, ob, sb, sm, iv, ss, wf⟩ := d
  dsimp only at h1 h2 h3 h4 h5 h6 h7
  subst h1 h2 h3 h4 h5 h6 h7
  unfold Host.gather
  exact congrArg x (row_operandIdx wf hN idx e k)

end Rows

/-! ## Scalars -/

section Vec
variable {α : Type} {N E w : Nat}

/-- The dimension numbers of the rank-1 form: operand [N], start indices [E, 1], result [E]. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

variable (wf : GatherDims.WF ⟨1, ![N]⟩ ⟨2, ![E, 1]⟩ ⟨1, ![E]⟩ [] [0] [] [0] [] 1 ![1])

/-- The operand index of result e: the clamped row number. -/
theorem vec_operandIdx (hN : 0 < N) (idx : IVec ⟨2, ![E, 1]⟩ w) (e : Fin E) :
    (vecDims N E wf).operandIdx (ix1 e) idx = ix1 (clampRow N hN (idx (ix2 e 0))) := by
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE RANK-1 GATHER READ AT e: the operand at the clamped idx[e, 0], for ANY dimension numbers of that form. -/
theorem host_gather_vec_apply (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (clampRow N hN (idx (ix2 e 0)))) := by
  obtain ⟨od, cs, ob, sb, sm, iv, ss, wf⟩ := d
  dsimp only at h1 h2 h3 h4 h5 h6 h7
  subst h1 h2 h3 h4 h5 h6 h7
  unfold Host.gather
  exact congrArg x (vec_operandIdx wf hN idx e)

end Vec

end Cert.GatherRows

end
-- ==== Proof.Spec.lean ====
/-
  The node-and-edge prompt layer as mathematics: every result array as a function of the argument arrays, entry by
  entry, on the extended reals. Rows of attention logits go through jax's softmax (subtract the row's maximum,
  exponentiate, divide by the row's sum); an edge's logits go through a leaky ReLU first; an edge's prompt is added
  into the rows of both of its end points; the two gates of a node weigh its prompted features against what its
  edges brought it.
-/
import Idealize.ShloMosaic.PureOps.Ideal.Laws
import Idealize.ShloMosaic.Lib.ValueIdx
import proofs.«162870_j34248069218340_2_alg».proof.Proof.LibGatherRows

noncomputable section

open scoped BigOperators

namespace Cert.Spec

open Idealize.ShloMosaic Idealize.ShloMosaic.ValueIdx

/-- A matrix and a vector of extended reals, by their extents. -/
abbrev A2 (a b : ℕ) := (⟨2, ![a, b]⟩ : Shape).Idx → EReal
abbrev A1 (a : ℕ) := (⟨1, ![a]⟩ : Shape).Idx → EReal

/-- The three float literals of the layer, kept as their f32 patterns: minus infinity (the start of a running
    maximum), the leaky ReLU's slope, and zero. -/
abbrev ninf : EReal := Ideal.ofBits .f32 0xFF800000#32
abbrev slope : EReal := Ideal.ofBits .f32 0x3C23D70A#32
abbrev zero : EReal := Ideal.ofBits .f32 0x00000000#32

/-- A row's maximum as jax's softmax takes it: the maximum over the row, started from minus infinity, and once more
    against minus infinity. -/
def rmax {A : ℕ} (l : Fin A → EReal) : EReal := max ninf ((Finset.univ : Finset (Fin A)).fold max ninf l)

/-- jax's softmax of one row: exp (l a − max) over the sum of those exponentials. -/
def smax {A : ℕ} (l : Fin A → EReal) (a : Fin A) : EReal :=
  Ideal.div (Ideal.exp (l a - rmax l)) (∑ a' : Fin A, Ideal.exp (l a' - rmax l))

/-- The leaky ReLU: v where v ≥ 0, slope · v elsewhere. -/
def lrelu (v : EReal) : EReal :=
  Scalar.select (FloatOps.cmpf (F := Ideal) (φ := .f32) .oge v zero) v (slope * v)

/-- A row index word as jnp normalises it: a negative word counts from the end. -/
def nrm (b : BitVec 32) : BitVec 32 := Scalar.select (IntOp.cmpi .slt b 0#32) (IntOp.addi b 50000#32) b

/-- The row a gather reads for an index word: the signed word clamped into the table. -/
abbrev row (b : BitVec 32) : Fin 50000 := Cert.GatherRows.clampRow 50000 (by decide) b

/-- The first and the second half of a contraction over 256 = 128 + 128 entries. -/
abbrev lo (k : Fin 128) : Fin 256 := ⟨k.val, by omega⟩
abbrev hi (k : Fin 128) : Fin 256 := ⟨128 + k.val, by omega⟩

theorem sum_halves {M : Type*} [AddCommMonoid M] (f : Fin 256 → M) :
    ∑ k : Fin 256, f k = (∑ k : Fin 128, f (lo k)) + ∑ k : Fin 128, f (hi k) := by
  exact Fin.sum_univ_add (fun k : Fin (128 + 128) => f k)

variable (x : A2 50000 128) (nodeAnchor : A2 5 128) (attW : A2 128 5) (attB : A1 5) (edgeAnchor : A2 5 128)
  (edgeW : A2 256 5) (edgeB : A1 5) (gateW : A2 256 2) (gateB : A1 2)
  (ei : (⟨2, ![2, 640000]⟩ : Shape).Idx → BitVec 32)

/-- An edge's two end points, as normalised index words. -/
def srcW (e : Fin 640000) : BitVec 32 := nrm (ei (ix2 (0 : Fin 2) e))
def dstW (e : Fin 640000) : BitVec 32 := nrm (ei (ix2 (1 : Fin 2) e))

/-- A node's attention logits over the five anchors. -/
def nodeLogit (n : Fin 50000) (a : Fin 5) : EReal := (∑ k : Fin 128, x (ix2 n k) * attW (ix2 k a)) + attB (ix1 a)

/-- The node's prompted features: x plus the softmax-weighted anchors. -/
def npx (n : Fin 50000) (d : Fin 128) : EReal :=
  x (ix2 n d) + ∑ a : Fin 5, smax (nodeLogit x attW attB n) a * nodeAnchor (ix2 a d)

/-- An edge's logits: its two end points' rows against the two halves of the weights, the bias, the leaky ReLU. -/
def edgeLogit (e : Fin 640000) (a : Fin 5) : EReal :=
  lrelu (((∑ k : Fin 128, x (ix2 (row (srcW ei e)) k) * edgeW (ix2 (lo k) a))
      + ∑ k : Fin 128, x (ix2 (row (dstW ei e)) k) * edgeW (ix2 (hi k) a)) + edgeB (ix1 a))

/-- An edge's prompt: the softmax-weighted edge anchors. -/
def ep (e : Fin 640000) (d : Fin 128) : EReal :=
  ∑ a : Fin 5, smax (edgeLogit x edgeW edgeB ei e) a * edgeAnchor (ix2 a d)

/-- What a node's edges bring it: from zero, the prompts of the edges that start at it, then of those that end at it. -/
def eagg (v : Fin 50000) (d : Fin 128) : EReal :=
  (zero + ∑ e ∈ Finset.univ.filter (fun e : Fin 640000 => (srcW ei e).toInt = (v.val : Int)), ep x edgeAnchor edgeW edgeB ei e d)
    + ∑ e ∈ Finset.univ.filter (fun e : Fin 640000 => (dstW ei e).toInt = (v.val : Int)), ep x edgeAnchor edgeW edgeB ei e d

/-- A node's two gate logits: prompted features against the first half of the gate weights, aggregated prompts
    against the second, the bias. -/
def gateLogit (n : Fin 50000) (g : Fin 2) : EReal :=
  ((∑ k : Fin 128, npx x nodeAnchor attW attB n k * gateW (ix2 (lo k) g))
      + ∑ k : Fin 128, eagg x edgeAnchor edgeW edgeB ei n k * gateW (ix2 (hi k) g)) + gateB (ix1 g)

/-- The layer's output: the two softmaxed gates weighing the two feature rows. -/
def final (n : Fin 50000) (d : Fin 128) : EReal :=
  smax (gateLogit x nodeAnchor attW attB edgeAnchor edgeW edgeB gateW gateB ei n) 0 * npx x nodeAnchor attW attB n d
    + smax (gateLogit x nodeAnchor attW attB edgeAnchor edgeW edgeB gateW gateB ei n) 1 * eagg x edgeAnchor edgeW edgeB ei n d

end Cert.Spec

end
-- ==== Proof.LibScatterRows.lean ====
/-
  An accumulating scatter whose scatter indices are one column of row numbers, read at an index over the extended reals.

  The scatter indices have shape [E, 1]: update row e goes to operand row idx[e, 0], read as a SIGNED integer and
  not clamped; a row number outside [0, N) drops the whole update row. With the exact sum as the combiner, the
  result at (v, k) is the operand's entry plus the sum of upd[e, k] over the update rows e with idx[e, 0] = v
  (rowDims, scatterAdd_rows_apply). The rank-1 form — operand [N], updates [E] — is the same sum without the
  column (vecDims, scatterAdd_vec_apply). Both follow from reading the scatter's result index one axis at a time:
  on the row axis it is the start index, on the column axis the update's own column.
-/
import Idealize.ShloMosaic.PureOps.Ideal
import Idealize.ShloMosaic.Lib.ValueIdx

noncomputable section

open scoped BigOperators

namespace Cert.ScatterRows

open Idealize.ShloMosaic Idealize.ShloMosaic.ValueIdx

/-! ## Rows of width C scattered by one index column -/

/-- The dimension numbers of a row scatter: operand [N, C], scatter indices [E, 1], updates [E, C]; the updates'
    axis 1 is the window axis, the operand's axis 0 is inserted and is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- On the row axis the window starts at the row number the index column holds for the update's row. -/
theorem row_start0 (j : (⟨2, ![E, C]⟩ : Shape).Idx) (idx : IVec ⟨2, ![E, 1]⟩ w) :
    (rowDims N E C wf).start j idx 0 = (idx (ix2 (j 0) 0)).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the index names nothing: the window starts at column 0. -/
theorem row_start1 (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    (show ¬ (1 : Fin 2) ∈ ([0] : List (Fin 2)) by decide))]

/-- The row axis is inserted: no window coordinate on it. -/
theorem row_window0 (j : (⟨2, ![E, C]⟩ : Shape).Idx) : (rowDims N E C wf).window j 0 = 0 := by
  unfold ScatterDims.window
  rw [dif_neg (show ¬ (0 : Fin 2) ∈ (rowDims N E C wf).sKept from
    (show ¬ (0 : Fin 2) ∈ ([1] : List (Fin 2)) by decide))]

/-- On the column axis the window coordinate is the update's own column. -/
theorem row_window1 (j : (⟨2, ![E, C]⟩ : Shape).Idx) : (rowDims N E C wf).window j 1 = (j 1).val := by
  unfold ScatterDims.window
  rw [dif_pos (show (1 : Fin 2) ∈ (rowDims N E C wf).sKept from
    (show (1 : Fin 2) ∈ ([1] : List (Fin 2)) by decide))]
  rfl

/-- WHERE AN UPDATE LANDS: update (e, c) lands on operand (v, k) exactly when the index column holds v at e and c = k. -/
theorem row_lands_iff (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) 0)).toInt = ((i 0).val : Int) ∧ (j 1).val = (i 1).val := by
  have hi0 : (i 0).val < N := idx2_lt0 i
  have hi1 : (i 1).val < C := idx2_lt1 i
  have hj1 : (j 1).val < C := idx2_lt1 j
  have hs0 : (⟨2, ![N, C]⟩ : Shape).size 0 = N := rfl
  have hs1 : (⟨2, ![N, C]⟩ : Shape).size 1 = C := rfl
  unfold ScatterDims.resultIdx?
  split
  · rename_i h
    have h0 := h 0
    have h1 := h 1
    rw [row_start0, row_window0] at h0
    rw [row_start1, row_window1] at h1
    rw [Option.some.injEq]
    constructor
    · intro he
      have e0 := congrArg (fun f => (f 0).val) he
      have e1 := congrArg (fun f => (f 1).val) he
      simp only [row_start0, row_window0, row_start1, row_window1] at e0 e1
      constructor <;> omega
    · rintro ⟨e0, e1⟩
      funext a
      refine Fin.ext ?_
      match a with
      | ⟨0, _⟩ =>
        show ((rowDims N E C wf).start j idx 0 + ((rowDims N E C wf).window j 0 : Int)).toNat = (i 0).val
        rw [row_start0, row_window0]; omega
      | ⟨1, _⟩ =>
        show ((rowDims N E C wf).start j idx 1 + ((rowDims N E C wf).window j 1 : Int)).toNat = (i 1).val
        rw [row_start1, row_window1]; omega
  · rename_i h
    constructor
    · intro he; exact absurd he (by simp)
    · rintro ⟨e0, e1⟩
      refine absurd (fun a => ?_) h
      match a with
      | ⟨0, _⟩ =>
        show 0 ≤ (rowDims N E C wf).start j idx 0 + ((rowDims N E C wf).window j 0 : Int) ∧
          (rowDims N E C wf).start j idx 0 + ((rowDims N E C wf).window j 0 : Int) < ((⟨2, ![N, C]⟩ : Shape).size 0 : Int)
        rw [row_start0, row_window0, hs0]; omega
      | ⟨1, _⟩ =>
        show 0 ≤ (rowDims N E C wf).start j idx 1 + ((rowDims N E C wf).window j 1 : Int) ∧
          (rowDims N E C wf).start j idx 1 + ((rowDims N E C wf).window j 1 : Int) < ((⟨2, ![N, C]⟩ : Shape).size 1 : Int)
        rw [row_start1, row_window1, hs1]; omega

/-- THE ROW SCATTER READ AT (v, k): the operand's entry plus the sum of column k of the update rows whose row number is v. -/
theorem scatterAdd_rows_apply (x : (⟨2, ![N, C]⟩ : Shape).Idx → EReal) (idx : IVec ⟨2, ![E, 1]⟩ w)
    (upd : (⟨2, ![E, C]⟩ : Shape).Idx → EReal) (v : Fin N) (k : Fin C) :
    Ideal.hostScatterAdd (rowDims N E C wf) x idx upd (ix2 v k) =
      x (ix2 v k) + ∑ e ∈ Finset.univ.filter (fun e : Fin E => (idx (ix2 e 0)).toInt = (v.val : Int)), upd (ix2 e k) := by
  unfold Ideal.hostScatterAdd
  congr 1
  rw [Finset.sum_filter, sum_idx2, Finset.sum_filter]
  refine Finset.sum_congr rfl fun e _ => ?_
  simp only [row_lands_iff]
  by_cases he : (idx (ix2 e 0)).toInt = (v.val : Int)
  · rw [if_pos he]
    rw [Finset.sum_eq_single k]
    · rw [if_pos ⟨he, rfl⟩]
    · intro b _ hb
      rw [if_neg]
      rintro ⟨_, h1⟩
      exact hb (Fin.ext h1)
    · intro h; exact absurd (Finset.mem_univ k) h
  · rw [if_neg he]
    refine Finset.sum_eq_zero fun b _ => ?_
    rw [if_neg]
    rintro ⟨h0, _⟩
    exact he h0

/-- The same for ANY dimension numbers of a row scatter (a program's own record: its four fields are these by
    unfolding), stated for the host operation at the extended reals. -/
theorem host_scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (v : Fin N) (k : Fin C) :
    Host.scatterAdd d x idx upd (ix2 v k) =
      x (ix2 v k) + ∑ e ∈ Finset.univ.filter (fun e : Fin E => (idx (ix2 e 0)).toInt = (v.val : Int)), upd (ix2 e k) := by
  obtain ⟨uw, iw, sd, iv, wf⟩ := d
  dsimp only at h1 h2 h3 h4
  subst h1 h2 h3 h4
  unfold Host.scatterAdd
  rw [Ideal.hostScatterAdd_def]
  exact scatterAdd_rows_apply wf x idx upd v k

end Rows

/-! ## Scalars scattered by one index column -/

/-- The dimension numbers of the rank-1 form: operand [N], scatter indices [E, 1], updates [E]; no window axis. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

theorem vec_start0 (j : (⟨1, ![E]⟩ : Shape).Idx) (idx : IVec ⟨2, ![E, 1]⟩ w) :
    (vecDims N E wf).start j idx 0 = (idx (ix2 (j 0) 0)).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem vec_window0 (j : (⟨1, ![E]⟩ : Shape).Idx) : (vecDims N E wf).window j 0 = 0 := by
  unfold ScatterDims.window
  rw [dif_neg (show ¬ (0 : Fin 1) ∈ (vecDims N E wf).sKept from
    (show ¬ (0 : Fin 1) ∈ ([] : List (Fin 1)) by decide))]

/-- WHERE AN UPDATE LANDS: update e lands on operand v exactly when the index column holds v at e. -/
theorem vec_lands_iff (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : Int) := by
  have hi0 : (i 0).val < N := (i 0).isLt
  have hs0 : (⟨1, ![N]⟩ : Shape).size 0 = N := rfl
  unfold ScatterDims.resultIdx?
  split
  · rename_i h
    have h0 := h 0
    rw [vec_start0, vec_window0] at h0
    rw [Option.some.injEq]
    constructor
    · intro he
      have e0 := congrArg (fun f => (f 0).val) he
      simp only [vec_start0, vec_window0] at e0
      omega
    · intro e0
      funext a
      refine Fin.ext ?_
      match a with
      | ⟨0, _⟩ =>
        show ((vecDims N E wf).start j idx 0 + ((vecDims N E wf).window j 0 : Int)).toNat = (i 0).val
        rw [vec_start0, vec_window0]; omega
  · rename_i h
    constructor
    · intro he; exact absurd he (by simp)
    · intro e0
      refine absurd (fun a => ?_) h
      match a with
      | ⟨0, _⟩ =>
        show 0 ≤ (vecDims N E wf).start j idx 0 + ((vecDims N E wf).window j 0 : Int) ∧
          (vecDims N E wf).start j idx 0 + ((vecDims N E wf).window j 0 : Int) < ((⟨1, ![N]⟩ : Shape).size 0 : Int)
        rw [vec_start0, vec_window0, hs0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE RANK-1 SCATTER READ AT v: the operand's entry plus the sum of the updates whose row number is v. -/
theorem scatterAdd_vec_apply (x : (⟨1, ![N]⟩ : Shape).Idx → EReal) (idx : IVec ⟨2, ![E, 1]⟩ w)
    (upd : (⟨1, ![E]⟩ : Shape).Idx → EReal) (v : Fin N) :
    Ideal.hostScatterAdd (vecDims N E wf) x idx upd (ix1 v) =
      x (ix1 v) + ∑ e ∈ Finset.univ.filter (fun e : Fin E => (idx (ix2 e 0)).toInt = (v.val : Int)), upd (ix1 e) := by
  unfold Ideal.hostScatterAdd
  congr 1
  rw [Finset.sum_filter, Finset.sum_filter, ← Equiv.sum_comp (idxEquiv1 (n := E)).symm]
  refine Finset.sum_congr rfl fun e _ => ?_
  simp only [vec_lands_iff]
  rfl

/-- The same for ANY dimension numbers of the rank-1 form, stated for the host operation at the extended reals. -/
theorem host_scatterAdd_vec_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![E, 1]⟩ w)
    (upd : FVec Ideal ⟨1, ![E]⟩ φ) (v : Fin N) :
    Host.scatterAdd d x idx upd (ix1 v) =
      x (ix1 v) + ∑ e ∈ Finset.univ.filter (fun e : Fin E => (idx (ix2 e 0)).toInt = (v.val : Int)), upd (ix1 e) := by
  obtain ⟨uw, iw, sd, iv, wf⟩ := d
  dsimp only at h1 h2 h3 h4
  subst h1 h2 h3 h4
  unfold Host.scatterAdd
  rw [Ideal.hostScatterAdd_def]
  exact scatterAdd_vec_apply wf x idx upd v

end Vec

end Cert.ScatterRows

end
-- ==== Proof.KernHostOps.lean ====
/-
  The host operations of the two-pass layer, each read at an index, over arbitrary argument arrays.

  Before the edge pass the program cuts the two rows out of the pair of index rows, normalises each index word as
  jnp does (a negative word counts from the end), and gathers the rows of the feature table the words name; it cuts
  the edge weights into their two halves of 128 rows, and views a bias vector as a one-row matrix. Between the passes
  it sets the two raw index rows end to end, normalises the 1280000 words, sets the edge prompts end to end with
  themselves, and adds every row of that double list into the row of a zero table its word names. Changing the
  float format is the identity on the extended reals.
-/
import proofs.«162870_j34248069218340_2_alg».proof.Proof.Gen.KernelIdeal
import proofs.«162870_j34248069218340_2_alg».proof.Proof.Spec
import proofs.«162870_j34248069218340_2_alg».proof.Proof.LibGatherRows
import proofs.«162870_j34248069218340_2_alg».proof.Proof.LibScatterRows
import Idealize.ShloMosaic.Lib.ValueLayout
import Idealize.ShloMosaic.Lib.Pipeline.Value

set_option maxRecDepth 16384

noncomputable section

namespace Cert.KernHost

open Cert.KernelIdeal Cert.KernelIdeal.Gen
open Idealize.ShloMosaic Idealize.ShloMosaic.ValueIdx
open scoped BigOperators

/-! ## The index rows -/

/-- Row `o` of the pair of index rows, as a vector of 640000 words. -/
def idxRow (X9 : IVec S2x640000 32) (o : ℕ) (h : S2x640000.Slices ![o, 0] S1x640000) : IVec S640000 32 :=
  shapeCast S640000 (extractStridedSlice S1x640000 ![o, 0] X9 h) shapeCasts_S1x640000_S640000

theorem idxRow_apply (X9 : IVec S2x640000 32) (o : ℕ) (h : S2x640000.Slices ![o, 0] S1x640000) (r : Fin 2) (hr : r.val = o)
    (e : Fin 640000) : idxRow X9 o h (ix1 e) = X9 (ix2 r e) := by
  unfold idxRow
  refine (shapeCast_1a_a_apply _ _ e).trans ?_
  exact slice2_axis0_apply o X9 h (0 : Fin 1) e r (by rw [hr]; rfl)

/-- jnp's normalisation of a vector of index words: where a word is negative, the word plus 50000. -/
def nrmVec {s : Shape} (hb : S_.BroadcastsInDim s (![] : Fin 0 → Fin s.rank)) (R : IVec s 32) : IVec s 32 :=
  select (cmpi .slt R (broadcastInDim s ![] hb (constantI S_ 32 0#32)))
    (addi R (broadcastInDim s ![] hb (constantI S_ 32 50000#32))) R

theorem nrmVec_apply {s : Shape} (hb : S_.BroadcastsInDim s (![] : Fin 0 → Fin s.rank)) (R : IVec s 32) (i : s.Idx) :
    nrmVec hb R i = Cert.Spec.nrm (R i) := rfl

/-! ## The row gather -/

/-- The rows of the feature table named by a vector of index words (the table in the shorter float format first). -/
def gatherRows (X0 : FVec Ideal S50000x128 .f32) (I : IVec S640000 32) : FVec Ideal S640000x128 .bf16 :=
  Host.gather gather_S50000x128_S640000x1_S640000x128_1_0_n_n_0_1_1128 (truncf .bf16 X0 bitsLt_bf16_f32)
    (broadcastInDim S640000x1 ![0] bcast_S640000_S640000x1_0 I)

theorem gatherRows_apply (X0 : FVec Ideal S50000x128 .f32) (I : IVec S640000 32) (e : Fin 640000) (k : Fin 128) :
    gatherRows X0 I (ix2 e k) = X0 (ix2 (Cert.Spec.row (I (ix1 e))) k) := by
  unfold gatherRows
  refine (Cert.GatherRows.host_gather_rows_apply (N := 50000) (E := 640000) (C := 128) (by decide)
    gather_S50000x128_S640000x1_S640000x128_1_0_n_n_0_1_1128 rfl rfl rfl rfl rfl rfl rfl _ _ e k).trans ?_
  have hb : broadcastInDim S640000x1 ![0] bcast_S640000_S640000x1_0 I (ix2 e (0 : Fin 1)) = I (ix1 e) :=
    broadcastInDim_apply _ _ I _ _ (fun a => by
      match a with
      | ⟨0, _⟩ => exact (if_neg (show ¬ (640000 : ℕ) = 1 by decide)).symm)
  rw [hb]
  rfl

/-! ## Halves of a weight matrix, and a vector as a one-row matrix -/

theorem half_lo_apply {n : ℕ} (X : (⟨2, ![256, n]⟩ : Shape).Idx → EReal)
    (h : (⟨2, ![256, n]⟩ : Shape).Slices ![0, 0] ⟨2, ![128, n]⟩) (k : Fin 128) (a : Fin n) :
    extractStridedSlice ⟨2, ![128, n]⟩ ![0, 0] X h (ix2 k a) = X (ix2 (Cert.Spec.lo k) a) :=
  slice2_axis0_apply 0 X h k a (Cert.Spec.lo k) (Nat.zero_add _).symm

theorem half_hi_apply {n : ℕ} (X : (⟨2, ![256, n]⟩ : Shape).Idx → EReal)
    (h : (⟨2, ![256, n]⟩ : Shape).Slices ![128, 0] ⟨2, ![128, n]⟩) (k : Fin 128) (a : Fin n) :
    extractStridedSlice ⟨2, ![128, n]⟩ ![128, 0] X h (ix2 k a) = X (ix2 (Cert.Spec.hi k) a) :=
  slice2_axis0_apply 128 X h k a (Cert.Spec.hi k) rfl

end Cert.KernHost

end
-- ==== Proof.KernHostA.lean ====
/-
  What the edge pass finds in its arrays, entry by entry, in terms of the arrays as launched: the gathered feature
  rows of every edge's two end points, the two halves of the edge weights, the edge bias as a one-row matrix, and
  the edge anchors untouched.
-/
import proofs.«162870_j34248069218340_2_alg».proof.Proof.Gen.KernelIdeal.Frame
import proofs.«162870_j34248069218340_2_alg».proof.Proof.KernHostOps

set_option maxRecDepth 16384

noncomputable section

namespace Cert.KernHost

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.ShloMosaic.ValueIdx
open scoped BigOperators

variable (m : (ℓ : Loc nD τ sig) → Buf (Elt Ideal) ℓ) (ρ : Dev nD → PrngReg) (c : Dev nD)

/-- The node features as launched on core `c`. -/
abbrev X0 : Cert.Spec.A2 50000 128 := m ((c.tc : Thread nD τ).loc main_arg0)
/-- The node anchors as launched on core `c`. -/
abbrev X1 : Cert.Spec.A2 5 128 := m ((c.tc : Thread nD τ).loc main_arg1)
/-- The attention weights as launched on core `c`. -/
abbrev X2 : Cert.Spec.A2 128 5 := m ((c.tc : Thread nD τ).loc main_arg2)
/-- The attention bias as launched on core `c`. -/
abbrev X3 : Cert.Spec.A1 5 := m ((c.tc : Thread nD τ).loc main_arg3)
/-- The edge anchors as launched on core `c`. -/
abbrev X4 : Cert.Spec.A2 5 128 := m ((c.tc : Thread nD τ).loc main_arg4)
/-- The edge weights as launched on core `c`. -/
abbrev X5 : Cert.Spec.A2 256 5 := m ((c.tc : Thread nD τ).loc main_arg5)
/-- The edge bias as launched on core `c`. -/
abbrev X6 : Cert.Spec.A1 5 := m ((c.tc : Thread nD τ).loc main_arg6)
/-- The gate weights as launched on core `c`. -/
abbrev X7 : Cert.Spec.A2 256 2 := m ((c.tc : Thread nD τ).loc main_arg7)
/-- The gate bias as launched on core `c`. -/
abbrev X8 : Cert.Spec.A1 2 := m ((c.tc : Thread nD τ).loc main_arg8)
/-- The pair of index rows as launched on core `c`. -/
abbrev X9 : (⟨2, ![2, 640000]⟩ : Shape).Idx → BitVec 32 := m ((c.tc : Thread nD τ).loc main_arg9)

/-! ## The host stretch before the edge pass, as terms -/

theorem V1_v11_eq : (V1 m ρ c main_v11 : S640000x128.Idx → EReal)
    = gatherRows (X0 m c) (nrmVec bcast_S_S640000 (idxRow (X9 m c) 0 slices_S2x640000_S1x640000_0_0)) := by
  dsimp only [V1, W1, hostOps0]
  after_results_simp
  rfl

theorem V1_v18_eq : (V1 m ρ c main_v18 : S640000x128.Idx → EReal)
    = gatherRows (X0 m c) (nrmVec bcast_S_S640000 (idxRow (X9 m c) 1 slices_S2x640000_S1x640000_1_0)) := by
  dsimp only [V1, W1, hostOps0]
  after_results_simp
  rfl

theorem V1_v20_eq : (V1 m ρ c main_v20 : S128x5.Idx → EReal)
    = (truncf .bf16 (extractStridedSlice S128x5 ![0, 0] (X5 m c) slices_S256x5_S128x5_0_0) bitsLt_bf16_f32 : FVec Ideal S128x5 .bf16) := by
  dsimp only [V1, W1, hostOps0]
  after_results_simp

theorem V1_v22_eq : (V1 m ρ c main_v22 : S128x5.Idx → EReal)
    = (truncf .bf16 (extractStridedSlice S128x5 ![128, 0] (X5 m c) slices_S256x5_S128x5_128_0) bitsLt_bf16_f32 : FVec Ideal S128x5 .bf16) := by
  dsimp only [V1, W1, hostOps0]
  after_results_simp

theorem V1_v23_eq : (V1 m ρ c main_v23 : S1x5.Idx → EReal) = shapeCast S1x5 (X6 m c) shapeCasts_S5_S1x5 := by
  dsimp only [V1, W1, hostOps0]
  after_results_simp
  rfl

/-! ## The same, entry by entry -/

/-- Window 0 of the edge pass: edge `e`'s row is the feature row of the node its first index word names. -/
theorem V1_v11 (e : Fin 640000) (k : Fin 128) :
    (V1 m ρ c main_v11 : S640000x128.Idx → EReal) (ix2 e k) = X0 m c (ix2 (Cert.Spec.row (Cert.Spec.srcW (X9 m c) e)) k) := by
  refine (congrFun (V1_v11_eq m ρ c) (ix2 e k)).trans ((gatherRows_apply _ _ e k).trans ?_)
  rw [nrmVec_apply, idxRow_apply _ 0 _ (0 : Fin 2) rfl]
  rfl

/-- Window 1: the feature row of the node the second index word names. -/
theorem V1_v18 (e : Fin 640000) (k : Fin 128) :
    (V1 m ρ c main_v18 : S640000x128.Idx → EReal) (ix2 e k) = X0 m c (ix2 (Cert.Spec.row (Cert.Spec.dstW (X9 m c) e)) k) := by
  refine (congrFun (V1_v18_eq m ρ c) (ix2 e k)).trans ((gatherRows_apply _ _ e k).trans ?_)
  rw [nrmVec_apply, idxRow_apply _ 1 _ (1 : Fin 2) rfl]
  rfl

/-- Windows 2 and 3: the first and the second 128 rows of the edge weights. -/
theorem V1_v20 (k : Fin 128) (a : Fin 5) :
    (V1 m ρ c main_v20 : S128x5.Idx → EReal) (ix2 k a) = X5 m c (ix2 (Cert.Spec.lo k) a) :=
  (congrFun (V1_v20_eq m ρ c) (ix2 k a)).trans (half_lo_apply (X5 m c) slices_S256x5_S128x5_0_0 k a)

theorem V1_v22 (k : Fin 128) (a : Fin 5) :
    (V1 m ρ c main_v22 : S128x5.Idx → EReal) (ix2 k a) = X5 m c (ix2 (Cert.Spec.hi k) a) :=
  (congrFun (V1_v22_eq m ρ c) (ix2 k a)).trans (half_hi_apply (X5 m c) slices_S256x5_S128x5_128_0 k a)

/-- Window 4: the edge bias as a one-row matrix. -/
theorem V1_v23 (a : Fin 5) :
    (V1 m ρ c main_v23 : S1x5.Idx → EReal) (ix2 (0 : Fin 1) a) = X6 m c (ix1 a) :=
  (congrFun (V1_v23_eq m ρ c) (ix2 (0 : Fin 1) a)).trans (shapeCast_a_1a_apply (X6 m c) _ 0 a)

/-- Window 5: the edge anchors, which no host operation writes. -/
theorem V1_arg4 : (V1 m ρ c main_arg4 : S5x128.Idx → EReal) = X4 m c :=
  StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernHost

end
-- ==== Proof.KernHostB.lean ====
/-
  What the node pass finds in its arrays, in terms of the arrays as launched: the node features, the attention
  weights and the node anchors untouched; the attention bias and the gate bias as one-row matrices; the two halves
  of the gate weights.
-/
import proofs.«162870_j34248069218340_2_alg».proof.Proof.Gen.KernelIdeal.Frame
import proofs.«162870_j34248069218340_2_alg».proof.Proof.KernHostOps
import proofs.«162870_j34248069218340_2_alg».proof.Proof.KernHostA

set_option maxRecDepth 16384

noncomputable section

namespace Cert.KernHost

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.ShloMosaic.ValueIdx
open scoped BigOperators

variable (m : (ℓ : Loc nD τ sig) → Buf (Elt Ideal) ℓ) (ρ : Dev nD → PrngReg) (c : Dev nD)

/-! ## Arrays nothing has written when the second host stretch starts: the edge pass has no window on them and no
    operation of the first host stretch writes them -/

theorem W2_arg3 : (W2 m ρ c (Proc.devRef .tc main_arg3) : S5.Idx → EReal) = X3 m c :=
  (W2_of_ne m ρ c main_arg3 (by decide)).trans
    (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W2_arg7 : (W2 m ρ c (Proc.devRef .tc main_arg7) : S256x2.Idx → EReal) = X7 m c :=
  (W2_of_ne m ρ c main_arg7 (by decide)).trans
    (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W2_arg8 : (W2 m ρ c (Proc.devRef .tc main_arg8) : S2.Idx → EReal) = X8 m c :=
  (W2_of_ne m ρ c main_arg8 (by decide)).trans
    (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The node pass's input arrays that no host operation writes -/

theorem V3_arg0 : (V3 m ρ c main_arg0 : S50000x128.Idx → EReal) = X0 m c :=
  (StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg0 (by decide)).trans
      (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

theorem V3_arg2 : (V3 m ρ c main_arg2 : S128x5.Idx → EReal) = X2 m c :=
  (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg2 (by decide)).trans
      (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

theorem V3_arg1 : (V3 m ρ c main_arg1 : S5x128.Idx → EReal) = X1 m c :=
  (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg1 (by decide)).trans
      (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

/-! ## The second host stretch's reshapes and slices, as terms -/

theorem V3_v37_eq : (V3 m ρ c main_v37 : S1x5.Idx → EReal) = shapeCast S1x5 (X3 m c) shapeCasts_S5_S1x5 :=
  (show (V3 m ρ c main_v37 : S1x5.Idx → EReal)
      = shapeCast S1x5 (W2 m ρ c (Proc.devRef .tc main_arg3) : S5.Idx → EReal) shapeCasts_S5_S1x5 by
    dsimp only [V3, W3, hostOps1]
    after_results_simp <;> rfl).trans
    (congrArg (fun t : S5.Idx → EReal => shapeCast S1x5 t shapeCasts_S5_S1x5) (W2_arg3 m ρ c))

theorem V3_v38_eq : (V3 m ρ c main_v38 : S1x2.Idx → EReal) = shapeCast S1x2 (X8 m c) shapeCasts_S2_S1x2 :=
  (show (V3 m ρ c main_v38 : S1x2.Idx → EReal)
      = shapeCast S1x2 (W2 m ρ c (Proc.devRef .tc main_arg8) : S2.Idx → EReal) shapeCasts_S2_S1x2 by
    dsimp only [V3, W3, hostOps1]
    after_results_simp <;> rfl).trans
    (congrArg (fun t : S2.Idx → EReal => shapeCast S1x2 t shapeCasts_S2_S1x2) (W2_arg8 m ρ c))

theorem V3_v35_eq : (V3 m ρ c main_v35 : S128x2.Idx → EReal)
    = extractStridedSlice S128x2 ![0, 0] (X7 m c) slices_S256x2_S128x2_0_0 :=
  (show (V3 m ρ c main_v35 : S128x2.Idx → EReal)
      = extractStridedSlice S128x2 ![0, 0] (W2 m ρ c (Proc.devRef .tc main_arg7) : S256x2.Idx → EReal) slices_S256x2_S128x2_0_0 by
    dsimp only [V3, W3, hostOps1]
    after_results_simp <;> rfl).trans
    (congrArg (fun t : S256x2.Idx → EReal => extractStridedSlice S128x2 ![0, 0] t slices_S256x2_S128x2_0_0) (W2_arg7 m ρ c))

theorem V3_v36_eq : (V3 m ρ c main_v36 : S128x2.Idx → EReal)
    = extractStridedSlice S128x2 ![128, 0] (X7 m c) slices_S256x2_S128x2_128_0 :=
  (show (V3 m ρ c main_v36 : S128x2.Idx → EReal)
      = extractStridedSlice S128x2 ![128, 0] (W2 m ρ c (Proc.devRef .tc main_arg7) : S256x2.Idx → EReal) slices_S256x2_S128x2_128_0 by
    dsimp only [V3, W3, hostOps1]
    after_results_simp <;> rfl).trans
    (congrArg (fun t : S256x2.Idx → EReal => extractStridedSlice S128x2 ![128, 0] t slices_S256x2_S128x2_128_0) (W2_arg7 m ρ c))

/-! ## The same, entry by entry -/

/-- Window 3 of the node pass: the attention bias as a one-row matrix. -/
theorem V3_v37 (a : Fin 5) : (V3 m ρ c main_v37 : S1x5.Idx → EReal) (ix2 (0 : Fin 1) a) = X3 m c (ix1 a) :=
  (congrFun (V3_v37_eq m ρ c) (ix2 (0 : Fin 1) a)).trans (shapeCast_a_1a_apply (X3 m c) _ 0 a)

/-- Window 7: the gate bias as a one-row matrix. -/
theorem V3_v38 (g : Fin 2) : (V3 m ρ c main_v38 : S1x2.Idx → EReal) (ix2 (0 : Fin 1) g) = X8 m c (ix1 g) :=
  (congrFun (V3_v38_eq m ρ c) (ix2 (0 : Fin 1) g)).trans (shapeCast_a_1a_apply (X8 m c) _ 0 g)

/-- Windows 5 and 6: the first and the second 128 rows of the gate weights. -/
theorem V3_v35 (k : Fin 128) (g : Fin 2) :
    (V3 m ρ c main_v35 : S128x2.Idx → EReal) (ix2 k g) = X7 m c (ix2 (Cert.Spec.lo k) g) :=
  (congrFun (V3_v35_eq m ρ c) (ix2 k g)).trans (half_lo_apply (X7 m c) slices_S256x2_S128x2_0_0 k g)

theorem V3_v36 (k : Fin 128) (g : Fin 2) :
    (V3 m ρ c main_v36 : S128x2.Idx → EReal) (ix2 k g) = X7 m c (ix2 (Cert.Spec.hi k) g) :=
  (congrFun (V3_v36_eq m ρ c) (ix2 k g)).trans (half_hi_apply (X7 m c) slices_S256x2_S128x2_128_0 k g)

end Cert.KernHost

end
-- ==== Proof.KernHostCat.lean ====
/-
  The one scatter-add between the two passes, read at an entry.

  The program sets the two raw index rows end to end (1280000 words), normalises every word, sets the edge prompts
  end to end with themselves (1280000 rows), and adds row j of that double list into the row of a zero table that
  word j names. An entry of the result is therefore zero plus the sum, over the positions j whose word names the
  entry's row, of the double list's row j; position j < 640000 is edge j seen from its first end point, position
  640000 + e is edge e seen from its second. Splitting the sum over the 1280000 positions at 640000 gives the sum over
  the edges that start at the node followed by the sum over the edges that end at it; only associativity of the
  addition of extended reals is used.
-/
import proofs.«162870_j34248069218340_2_alg».proof.Proof.KernHostOps

set_option maxRecDepth 16384

noncomputable section

namespace Cert.KernHost

open Cert.KernelIdeal Cert.KernelIdeal.Gen
open Idealize.ShloMosaic Idealize.ShloMosaic.ValueIdx
open scoped BigOperators

/-! ## Two equal-length pieces set end to end along the first axis -/

theorem concat_vec_apply {α : Type} {n N : ℕ} (A B : (⟨1, ![n]⟩ : Shape).Idx → α)
    (h : Shape.Concatenates [⟨1, ![n]⟩, ⟨1, ![n]⟩] ⟨1, ![N]⟩ 0) (hN : N = n + n) (j : Fin N) :
    concatenate ⟨1, ![N]⟩ 0 [⟨⟨1, ![n]⟩, A⟩, ⟨⟨1, ![n]⟩, B⟩] h (ix1 j)
      = if hj : j.val < n then A (ix1 ⟨j.val, hj⟩) else B (ix1 ⟨j.val - n, by have := j.isLt; omega⟩) := by
  split
  · next hj =>
    exact concatenate_pair_apply_left 0 A B h (ix1 j) rfl (ix1 ⟨j.val, hj⟩)
      (fun b => match b with | ⟨0, _⟩ => rfl)
  · next hj =>
    refine concatenate_pair_apply_right 0 A B h (ix1 j) rfl rfl (ix1 ⟨j.val - n, by have := j.isLt; omega⟩)
      (fun b hb => match b, hb with | ⟨0, _⟩, hb => absurd rfl hb) ?_
    show (j.val - n) + n = j.val
    omega

theorem concat_rows_apply {α : Type} {n N C : ℕ} (A B : (⟨2, ![n, C]⟩ : Shape).Idx → α)
    (h : Shape.Concatenates [⟨2, ![n, C]⟩, ⟨2, ![n, C]⟩] ⟨2, ![N, C]⟩ 0) (hN : N = n + n) (j : Fin N) (d : Fin C) :
    concatenate ⟨2, ![N, C]⟩ 0 [⟨⟨2, ![n, C]⟩, A⟩, ⟨⟨2, ![n, C]⟩, B⟩] h (ix2 j d)
      = if hj : j.val < n then A (ix2 ⟨j.val, hj⟩ d) else B (ix2 ⟨j.val - n, by have := j.isLt; omega⟩ d) := by
  split
  · next hj =>
    exact concatenate_pair_apply_left 0 A B h (ix2 j d) rfl (ix2 ⟨j.val, hj⟩ d)
      (fun b => match b with | ⟨0, _⟩ => rfl | ⟨1, _⟩ => rfl)
  · next hj =>
    refine concatenate_pair_apply_right 0 A B h (ix2 j d) rfl rfl (ix2 ⟨j.val - n, by have := j.isLt; omega⟩ d)
      (fun b hb => match b, hb with | ⟨0, _⟩, hb => absurd rfl hb | ⟨1, _⟩, _ => rfl) ?_
    show (j.val - n) + n = j.val
    omega

/-! ## The scatter-add of the double list -/

/-- The scatter-add as the program composes it, over the two raw index rows and the edge prompts. -/
def scatterCat (I1 I3 : IVec S640000 32) (E : FVec Ideal S640000x128 .f32) : FVec Ideal S50000x128 .f32 :=
  Host.scatterAdd scatter_S50000x128_S1280000x1_S1280000x128_1_0_0_1
    (broadcastInDim S50000x128 ![] bcast_S_S50000x128 (constant (F := Ideal) S_ .f32 0x00000000#32))
    (broadcastInDim S1280000x1 ![0] bcast_S1280000_S1280000x1_0
      (nrmVec bcast_S_S1280000
        (concatenate S1280000 0 [⟨S640000, I1⟩, ⟨S640000, I3⟩] concatenates_S640000_S640000_S1280000_d0)))
    (concatenate S1280000x128 0 [⟨S640000x128, E⟩, ⟨S640000x128, E⟩] concatenates_S640000x128_S640000x128_S1280000x128_d0)

theorem scatterCat_apply (I1 I3 : IVec S640000 32) (E : FVec Ideal S640000x128 .f32) (v : Fin 50000) (d : Fin 128) :
    scatterCat I1 I3 E (ix2 v d) = Cert.Spec.zero
      + ∑ j ∈ Finset.univ.filter (fun j : Fin 1280000 =>
            (Cert.Spec.nrm (if hj : j.val < 640000 then I1 (ix1 (⟨j.val, hj⟩ : Fin 640000))
              else I3 (ix1 (⟨j.val - 640000, by have := j.isLt; omega⟩ : Fin 640000)))).toInt = (v.val : Int)),
          (if hj : j.val < 640000 then E (ix2 (⟨j.val, hj⟩ : Fin 640000) d)
            else E (ix2 (⟨j.val - 640000, by have := j.isLt; omega⟩ : Fin 640000) d)) := by
  unfold scatterCat
  refine (Cert.ScatterRows.host_scatterAdd_rows_apply (N := 50000) (E := 1280000) (C := 128)
    scatter_S50000x128_S1280000x1_S1280000x128_1_0_0_1 rfl rfl rfl rfl _ _ _ v d).trans ?_
  have hidx : ∀ e : Fin 1280000,
      broadcastInDim S1280000x1 ![0] bcast_S1280000_S1280000x1_0
        (nrmVec bcast_S_S1280000
          (concatenate S1280000 0 [⟨S640000, I1⟩, ⟨S640000, I3⟩] concatenates_S640000_S640000_S1280000_d0)) (ix2 e (0 : Fin 1))
      = Cert.Spec.nrm (if hj : e.val < 640000 then I1 (ix1 (⟨e.val, hj⟩ : Fin 640000))
          else I3 (ix1 (⟨e.val - 640000, by have := e.isLt; omega⟩ : Fin 640000))) := fun e =>
    (broadcastInDim_apply _ _ _ _ (ix1 e) (fun a => by
      match a with
      | ⟨0, _⟩ => exact (if_neg (show ¬ (1280000 : ℕ) = 1 by decide)).symm)).trans
      ((nrmVec_apply _ _ _).trans (congrArg Cert.Spec.nrm (concat_vec_apply (n := 640000) (N := 1280000) I1 I3 _ rfl e)))
  refine congrArg₂ (· + ·) rfl (Finset.sum_congr (Finset.filter_congr fun e _ => by rw [hidx e]) fun e _ => ?_)
  exact concat_rows_apply (n := 640000) (N := 1280000) (C := 128) E E _ rfl e d

/-! ## The double list by positions, and its sum split at the middle -/

/-- The normalised index word at position `j` of the double list: positions below 640000 run over the first index row,
    the others over the second. -/
def idxcat (X9 : (⟨2, ![2, 640000]⟩ : Shape).Idx → BitVec 32) (j : Fin 1280000) : BitVec 32 :=
  Cert.Spec.nrm (if hj : j.val < 640000 then X9 (ix2 (0 : Fin 2) (⟨j.val, hj⟩ : Fin 640000))
    else X9 (ix2 (1 : Fin 2) (⟨j.val - 640000, by have := j.isLt; omega⟩ : Fin 640000)))

/-- Row `j` of the edge prompts set end to end with themselves. -/
def valcat (EP : Fin 640000 → Fin 128 → EReal) (j : Fin 1280000) (d : Fin 128) : EReal :=
  if hj : j.val < 640000 then EP ⟨j.val, hj⟩ d else EP ⟨j.val - 640000, by have := j.isLt; omega⟩ d

/-- A filtered sum over two runs of `n` positions is the filtered sum over the first run plus that over the second. -/
theorem sum_filter_two_runs {M : Type*} [AddCommMonoid M] {n : ℕ} (P : Fin (n + n) → Prop) [DecidablePred P]
    (f : Fin (n + n) → M) :
    ∑ j ∈ Finset.univ.filter P, f j
      = (∑ e ∈ Finset.univ.filter (fun e : Fin n => P (Fin.castAdd n e)), f (Fin.castAdd n e))
        + ∑ e ∈ Finset.univ.filter (fun e : Fin n => P (Fin.natAdd n e)), f (Fin.natAdd n e) := by
  rw [Finset.sum_filter, Fin.sum_univ_add, Finset.sum_filter, Finset.sum_filter]

theorem idxcat_castAdd (X9 : (⟨2, ![2, 640000]⟩ : Shape).Idx → BitVec 32) (e : Fin 640000) :
    idxcat X9 (Fin.castAdd 640000 e) = Cert.Spec.srcW X9 e := by
  unfold idxcat Cert.Spec.srcW
  rw [dif_pos (show (Fin.castAdd 640000 e).val < 640000 from e.isLt)]
  rfl

theorem idxcat_natAdd (X9 : (⟨2, ![2, 640000]⟩ : Shape).Idx → BitVec 32) (e : Fin 640000) :
    idxcat X9 (Fin.natAdd 640000 e) = Cert.Spec.dstW X9 e := by
  unfold idxcat Cert.Spec.dstW
  rw [dif_neg (show ¬ (Fin.natAdd 640000 e).val < 640000 from by show ¬ 640000 + e.val < 640000; omega)]
  refine congrArg (fun t : Fin 640000 => Cert.Spec.nrm (X9 (ix2 (1 : Fin 2) t))) (Fin.ext ?_)
  show 640000 + e.val - 640000 = e.val
  omega

theorem valcat_castAdd (EP : Fin 640000 → Fin 128 → EReal) (e : Fin 640000) (d : Fin 128) :
    valcat EP (Fin.castAdd 640000 e) d = EP e d := by
  unfold valcat
  rw [dif_pos (show (Fin.castAdd 640000 e).val < 640000 from e.isLt)]
  rfl

theorem valcat_natAdd (EP : Fin 640000 → Fin 128 → EReal) (e : Fin 640000) (d : Fin 128) :
    valcat EP (Fin.natAdd 640000 e) d = EP e d := by
  unfold valcat
  rw [dif_neg (show ¬ (Fin.natAdd 640000 e).val < 640000 from by show ¬ 640000 + e.val < 640000; omega)]
  refine congrArg (fun t : Fin 640000 => EP t d) (Fin.ext ?_)
  show 640000 + e.val - 640000 = e.val
  omega

/-- The sum over the double list, from zero, is what a node's edges bring it: the prompts of the edges that start at
    it, then of those that end at it. -/
theorem sum_cat_eq (X9 : (⟨2, ![2, 640000]⟩ : Shape).Idx → BitVec 32) (EP : Fin 640000 → Fin 128 → EReal)
    (v : Fin 50000) (d : Fin 128) :
    Cert.Spec.zero + ∑ j ∈ Finset.univ.filter (fun j : Fin 1280000 => (idxcat X9 j).toInt = (v.val : Int)), valcat EP j d
      = (Cert.Spec.zero + ∑ e ∈ Finset.univ.filter (fun e : Fin 640000 => (Cert.Spec.srcW X9 e).toInt = (v.val : Int)), EP e d)
        + ∑ e ∈ Finset.univ.filter (fun e : Fin 640000 => (Cert.Spec.dstW X9 e).toInt = (v.val : Int)), EP e d := by
  rw [add_assoc]
  refine congrArg (Cert.Spec.zero + ·) ?_
  refine (sum_filter_two_runs (n := 640000) (fun j => (idxcat X9 j).toInt = (v.val : Int)) (fun j => valcat EP j d)).trans ?_
  simp only [idxcat_castAdd, idxcat_natAdd, valcat_castAdd, valcat_natAdd]

end Cert.KernHost

end
-- ==== Proof.KernHostC.lean ====
/-
  What the node pass finds in the array of aggregated edge prompts: the scatter-add between the passes, entry by
  entry, in terms of the index rows as launched and of whatever the edge pass left in its result array. An entry is
  zero, plus the prompts of the edges that start at the node, plus the prompts of the edges that end at it.
-/
import proofs.«162870_j34248069218340_2_alg».proof.Proof.Gen.KernelIdeal.Frame
import proofs.«162870_j34248069218340_2_alg».proof.Proof.KernHostOps
import proofs.«162870_j34248069218340_2_alg».proof.Proof.KernHostCat
import proofs.«162870_j34248069218340_2_alg».proof.Proof.KernHostA

set_option maxRecDepth 16384

noncomputable section

namespace Cert.KernHost

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.ShloMosaic.ValueIdx
open scoped BigOperators

variable (m : (ℓ : Loc nD τ sig) → Buf (Elt Ideal) ℓ) (ρ : Dev nD → PrngReg) (c : Dev nD)

/-! ## The two raw index rows when the second host stretch starts: written by the first host stretch, and the edge
    pass has no window on them -/

theorem W2_v1 : (W2 m ρ c (Proc.devRef .tc main_v1) : S640000.Idx → BitVec 32)
    = idxRow (X9 m c) 0 slices_S2x640000_S1x640000_0_0 :=
  (W2_of_ne m ρ c main_v1 (by decide)).trans
    (show (W1 m ρ c (Proc.devRef .tc main_v1) : S640000.Idx → BitVec 32) = idxRow (X9 m c) 0 slices_S2x640000_S1x640000_0_0 by
      dsimp only [W1, hostOps0]
      after_results_simp <;> rfl)

theorem W2_v3 : (W2 m ρ c (Proc.devRef .tc main_v3) : S640000.Idx → BitVec 32)
    = idxRow (X9 m c) 1 slices_S2x640000_S1x640000_1_0 :=
  (W2_of_ne m ρ c main_v3 (by decide)).trans
    (show (W1 m ρ c (Proc.devRef .tc main_v3) : S640000.Idx → BitVec 32) = idxRow (X9 m c) 1 slices_S2x640000_S1x640000_1_0 by
      dsimp only [W1, hostOps0]
      after_results_simp <;> rfl)

/-! ## The scatter-add as a term -/

theorem V3_v34_eq : (V3 m ρ c main_v34 : S50000x128.Idx → EReal)
    = scatterCat (idxRow (X9 m c) 0 slices_S2x640000_S1x640000_0_0) (idxRow (X9 m c) 1 slices_S2x640000_S1x640000_1_0)
        (W2 m ρ c (Proc.devRef .tc main_v24)) :=
  (show (V3 m ρ c main_v34 : S50000x128.Idx → EReal)
      = scatterCat (W2 m ρ c (Proc.devRef .tc main_v1)) (W2 m ρ c (Proc.devRef .tc main_v3))
          (W2 m ρ c (Proc.devRef .tc main_v24)) by
    dsimp only [V3, W3, hostOps1]
    after_results_simp <;> rfl).trans
    (congrArg₂ (fun a b : IVec S640000 32 => scatterCat a b (W2 m ρ c (Proc.devRef .tc main_v24))) (W2_v1 m ρ c) (W2_v3 m ρ c))

/-! ## Entry by entry -/

/-- The scatter-add's result over the 1280000 positions of the double list. -/
theorem V3_v34 (EP : Fin 640000 → Fin 128 → EReal)
    (hEP : ∀ e d, (W2 m ρ c (Proc.devRef .tc main_v24) : S640000x128.Idx → EReal) (ix2 e d) = EP e d)
    (v : Fin 50000) (d : Fin 128) :
    (V3 m ρ c main_v34 : S50000x128.Idx → EReal) (ix2 v d)
      = Cert.Spec.zero + ∑ j ∈ Finset.univ.filter (fun j : Fin 1280000 => (idxcat (X9 m c) j).toInt = (v.val : Int)), valcat EP j d := by
  refine (congrFun (V3_v34_eq m ρ c) (ix2 v d)).trans ((scatterCat_apply _ _ _ v d).trans ?_)
  refine congrArg (Cert.Spec.zero + ·) (Finset.sum_congr (Finset.filter_congr fun j _ => ?_) fun j _ => ?_)
  · have hI : Cert.Spec.nrm (if hj : j.val < 640000
          then idxRow (X9 m c) 0 slices_S2x640000_S1x640000_0_0 (ix1 (⟨j.val, hj⟩ : Fin 640000))
          else idxRow (X9 m c) 1 slices_S2x640000_S1x640000_1_0 (ix1 (⟨j.val - 640000, by have := j.isLt; omega⟩ : Fin 640000)))
        = idxcat (X9 m c) j := by
      unfold idxcat
      refine congrArg Cert.Spec.nrm ?_
      by_cases hj : j.val < 640000
      · rw [dif_pos hj, dif_pos hj]; exact idxRow_apply _ 0 _ (0 : Fin 2) rfl _
      · rw [dif_neg hj, dif_neg hj]; exact idxRow_apply _ 1 _ (1 : Fin 2) rfl _
    rw [hI]
  · unfold valcat
    by_cases hj : j.val < 640000
    · rw [dif_pos hj, dif_pos hj]; exact hEP _ _
    · rw [dif_neg hj, dif_neg hj]; exact hEP _ _

/-- The same as what a node's edges bring it: from zero, the prompts of the edges that start at it, then of those
    that end at it. -/
theorem V3_v34_eagg (EP : Fin 640000 → Fin 128 → EReal)
    (hEP : ∀ e d, (W2 m ρ c (Proc.devRef .tc main_v24) : S640000x128.Idx → EReal) (ix2 e d) = EP e d)
    (v : Fin 50000) (d : Fin 128) :
    (V3 m ρ c main_v34 : S50000x128.Idx → EReal) (ix2 v d)
      = (Cert.Spec.zero + ∑ e ∈ Finset.univ.filter (fun e : Fin 640000 => (Cert.Spec.srcW (X9 m c) e).toInt = (v.val : Int)), EP e d)
        + ∑ e ∈ Finset.univ.filter (fun e : Fin 640000 => (Cert.Spec.dstW (X9 m c) e).toInt = (v.val : Int)), EP e d :=
  (V3_v34 m ρ c EP hEP v d).trans (sum_cat_eq (X9 m c) EP v d)

end Cert.KernHost

end
-- ==== Proof.KernForm.lean ====
/-
  The two kernel bodies as mathematics, for a block (or a whole array) of R rows: an edge's prompt from its two end
  points' feature rows, a node's prompted features, its two gate logits and the gated output — the same formulas as the
  specification's, over whatever rows the block holds, with the bias as a one-row matrix and the two halves of a
  contraction as two separate weight matrices.
-/
import proofs.«162870_j34248069218340_2_alg».proof.Proof.Spec

noncomputable section

open scoped BigOperators

namespace Cert.KernForm

open Idealize.ShloMosaic Idealize.ShloMosaic.ValueIdx Cert.Spec

variable {R : ℕ}

/-- An edge block's prompts: the rows' logits against the two weight halves, the bias row, the leaky ReLU, the
    softmax, the anchors. -/
def epF (xs xd : A2 R 128) (ws wd : A2 128 5) (b : A2 1 5) (anchor : A2 5 128) (r : Fin R) (d : Fin 128) : EReal :=
  ∑ a : Fin 5, smax (fun a => lrelu (((∑ k : Fin 128, xs (ix2 r k) * ws (ix2 k a))
      + ∑ k : Fin 128, xd (ix2 r k) * wd (ix2 k a)) + b (ix2 (0 : Fin 1) a))) a * anchor (ix2 a d)

/-- A node block's prompted features. -/
def npxF (x : A2 R 128) (attW : A2 128 5) (attB : A2 1 5) (anchor : A2 5 128) (r : Fin R) (d : Fin 128) : EReal :=
  x (ix2 r d) + ∑ a : Fin 5, smax (fun a => (∑ k : Fin 128, x (ix2 r k) * attW (ix2 k a)) + attB (ix2 (0 : Fin 1) a)) a
    * anchor (ix2 a d)

/-- A node block's two gate logits. -/
def gateF (x ea : A2 R 128) (attW : A2 128 5) (attB : A2 1 5) (anchor : A2 5 128) (g1 g2 : A2 128 2) (gb : A2 1 2)
    (r : Fin R) (g : Fin 2) : EReal :=
  ((∑ k : Fin 128, npxF x attW attB anchor r k * g1 (ix2 k g)) + ∑ k : Fin 128, ea (ix2 r k) * g2 (ix2 k g))
    + gb (ix2 (0 : Fin 1) g)

/-- A node block's gated output. -/
def finalF (x ea : A2 R 128) (attW : A2 128 5) (attB : A2 1 5) (anchor : A2 5 128) (g1 g2 : A2 128 2) (gb : A2 1 2)
    (r : Fin R) (d : Fin 128) : EReal :=
  smax (gateF x ea attW attB anchor g1 g2 gb r) 0 * npxF x attW attB anchor r d
    + smax (gateF x ea attW attB anchor g1 g2 gb r) 1 * ea (ix2 r d)

end Cert.KernForm

end
-- ==== Proof.LibColumns.lean ====
/-
  Columns: three layout operations read at an index, for any extents.

  A reduction over the columns that keeps its axis (`sum(axis = -1, keepdims = True)`) produces a vector that is then
  viewed as a column `[a, 1]`, and a column is broadcast back along the rows to `[a, b]`; and a column is set beside a
  block of `n` columns to make `n + 1` columns. Each is read here at an index `(row, column)` built from its two
  coordinates, so that the coordinates have literal types at a use site.
-/
import Idealize.ShloMosaic.Lib.ValueIdx
import Idealize.ShloMosaic.Lib.Pipeline.Value

namespace Cert.LibColumns

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `n` columns and one more column set side by side (`N = n + 1` columns): at `(r, q)` the block of `n` columns at
    `(r, q)` when `q < n`, the single column at row `r` when `q = n`. -/
theorem concat_col_apply {R n N : ℕ} (hN : N = n + 1) (A : (⟨2, ![R, n]⟩ : Shape).Idx → α) (B : (⟨2, ![R, 1]⟩ : Shape).Idx → α)
    (h : Shape.Concatenates [⟨2, ![R, n]⟩, ⟨2, ![R, 1]⟩] ⟨2, ![R, N]⟩ 1) (r : Fin R) (q : Fin N) :
    concatenate ⟨2, ![R, N]⟩ 1 [⟨⟨2, ![R, n]⟩, A⟩, ⟨⟨2, ![R, 1]⟩, B⟩] h (ix2 r q)
      = if hq : q.val < n then A (ix2 r ⟨q.val, hq⟩) else B (ix2 r (0 : Fin 1)) := by
  split
  · next hq =>
    exact concatenate_pair_apply_left 1 A B h (ix2 r q) rfl (ix2 r ⟨q.val, hq⟩)
      (fun b => match b with | ⟨0, _⟩ => rfl | ⟨1, _⟩ => rfl)
  · next hq =>
    refine concatenate_pair_apply_right 1 A B h (ix2 r q) rfl rfl (ix2 r (0 : Fin 1))
      (fun b hb => match b, hb with | ⟨0, _⟩, _ => rfl | ⟨1, _⟩, hb => absurd rfl hb) ?_
    show 0 + n = q.val
    have := q.isLt; omega

end Cert.LibColumns
-- ==== Proof.LibSoftmaxRows.lean ====
/-
  jax's softmax of the rows of an [R, A] matrix, in the two forms a program spells it — on the host (reduce, broadcast
  in dim, exponential, divide) and inside a kernel body (multi-reduction, shape cast to a column, broadcast, exp,
  divf) — read at an entry (r, a): both are the row's softmax, exp (v(r,a) − M) / ∑ₐ' exp (v(r,a') − M) with M the row's
  maximum taken from minus infinity. And the leaky ReLU in its two spellings, read at an entry. For any extents.
-/
import Idealize.ShloMosaic.PureOps.Ideal.Laws
import Idealize.ShloMosaic.Lib.ValueIdx
import Idealize.ShloMosaic.Lib.Pipeline.Value
import proofs.«162870_j34248069218340_2_alg».proof.Proof.Spec
import proofs.«162870_j34248069218340_2_alg».proof.Proof.LibColumns

noncomputable section

open scoped BigOperators

namespace Cert.SoftmaxRows

open Idealize.ShloMosaic Idealize.ShloMosaic.ValueIdx Cert.Spec

variable {R A : ℕ}

/-- Over row r, the entry whose column is k. -/
theorem lift_row (h : (⟨2, ![R, A]⟩ : Shape).Reduces [1] ⟨1, ![R]⟩) (r : Fin R) (k : Fin A) :
    h.lift (ix1 r) k = ix2 r k := by
  funext c
  apply Fin.ext
  match c with
  | ⟨0, _⟩ => rfl
  | ⟨1, _⟩ => rfl

/-! ## Inside a kernel body -/

/-- The kernel body's softmax of the rows of v. -/
def kernSoftmax (v : FVec Ideal ⟨2, ![R, A]⟩ .f32) (hr : (⟨2, ![R, A]⟩ : Shape).Reduces [1] ⟨1, ![R]⟩)
    (hc : (⟨1, ![R]⟩ : Shape).ShapeCasts ⟨2, ![R, 1]⟩) (hb : (⟨2, ![R, 1]⟩ : Shape).Broadcasts ⟨2, ![R, A]⟩) :
    FVec Ideal ⟨2, ![R, A]⟩ .f32 :=
  divf
    (exp (subf v (broadcastTo ⟨2, ![R, A]⟩ (shapeCast ⟨2, ![R, 1]⟩
      (maximumf (broadcast ⟨1, ![R]⟩ (Scalar.ofBits .f32 0xFF800000#32))
        (multiReduction .maximumf [1] ⟨1, ![R]⟩ v 0xFF800000#32 hr (.inl rfl) rfl)) hc) hb)))
    (broadcastTo ⟨2, ![R, A]⟩ (shapeCast ⟨2, ![R, 1]⟩
      (multiReduction .add [1] ⟨1, ![R]⟩
        (exp (subf v (broadcastTo ⟨2, ![R, A]⟩ (shapeCast ⟨2, ![R, 1]⟩
          (maximumf (broadcast ⟨1, ![R]⟩ (Scalar.ofBits .f32 0xFF800000#32))
            (multiReduction .maximumf [1] ⟨1, ![R]⟩ v 0xFF800000#32 hr (.inl rfl) rfl)) hc) hb)))
        0x00000000#32 hr (.inl rfl) rfl) hc) hb)

theorem kern_rowmax (v : FVec Ideal ⟨2, ![R, A]⟩ .f32) (hr : (⟨2, ![R, A]⟩ : Shape).Reduces [1] ⟨1, ![R]⟩) (r : Fin R) :
    (maximumf (broadcast ⟨1, ![R]⟩ (Scalar.ofBits (F := Ideal) .f32 0xFF800000#32))
        (multiReduction .maximumf [1] ⟨1, ![R]⟩ v 0xFF800000#32 hr (.inl rfl) rfl)) (ix1 r)
      = rmax (fun a' => v (ix2 r a')) := by
  show max (Ideal.ofBits .f32 0xFF800000#32) (multiReduction .maximumf [1] ⟨1, ![R]⟩ v 0xFF800000#32 hr (.inl rfl) rfl (ix1 r)) = _
  rw [Ideal.multiReduction_maximumf_single v 0xFF800000#32 hr (.inl rfl) rfl (ix1 r)]
  unfold rmax
  refine congrArg (max ninf) ?_
  refine congrArg (Finset.fold max ninf · Finset.univ) ?_
  funext k
  exact congrArg v (lift_row hr r k)

theorem kern_exp_apply (v : FVec Ideal ⟨2, ![R, A]⟩ .f32) (hr : (⟨2, ![R, A]⟩ : Shape).Reduces [1] ⟨1, ![R]⟩)
    (hc : (⟨1, ![R]⟩ : Shape).ShapeCasts ⟨2, ![R, 1]⟩) (hb : (⟨2, ![R, 1]⟩ : Shape).Broadcasts ⟨2, ![R, A]⟩) (r : Fin R) (a : Fin A) :
    (exp (subf v (broadcastTo ⟨2, ![R, A]⟩ (shapeCast ⟨2, ![R, 1]⟩
      (maximumf (broadcast ⟨1, ![R]⟩ (Scalar.ofBits (F := Ideal) .f32 0xFF800000#32))
        (multiReduction .maximumf [1] ⟨1, ![R]⟩ v 0xFF800000#32 hr (.inl rfl) rfl)) hc) hb))) (ix2 r a)
      = Ideal.exp (v (ix2 r a) - rmax (fun a' => v (ix2 r a'))) := by
  show Ideal.exp (v (ix2 r a) - broadcastTo ⟨2, ![R, A]⟩ (shapeCast ⟨2, ![R, 1]⟩ _ hc) hb (ix2 r a)) = _
  rw [Cert.LibColumns.broadcastTo_a1_ab_apply, Cert.LibColumns.shapeCast_a_a1_apply, kern_rowmax]

theorem kernSoftmax_apply (v : FVec Ideal ⟨2, ![R, A]⟩ .f32) (hr : (⟨2, ![R, A]⟩ : Shape).Reduces [1] ⟨1, ![R]⟩)
    (hc : (⟨1, ![R]⟩ : Shape).ShapeCasts ⟨2, ![R, 1]⟩) (hb : (⟨2, ![R, 1]⟩ : Shape).Broadcasts ⟨2, ![R, A]⟩) (r : Fin R) (a : Fin A) :
    kernSoftmax v hr hc hb (ix2 r a) = smax (fun a' => v (ix2 r a')) a := by
  unfold kernSoftmax smax
  show Ideal.div _ (broadcastTo ⟨2, ![R, A]⟩ (shapeCast ⟨2, ![R, 1]⟩ _ hc) hb (ix2 r a)) = _
  rw [Cert.LibColumns.broadcastTo_a1_ab_apply, Cert.LibColumns.shapeCast_a_a1_apply, kern_exp_apply]
  refine congrArg (Ideal.div _) ?_
  refine (Ideal.multiReduction_add_single _ 0x00000000#32 hr (.inl rfl) rfl (ix1 r)).trans ?_
  refine Finset.sum_congr rfl fun k _ => ?_
  rw [lift_row hr r k]
  exact kern_exp_apply v hr hc hb r k

/-! ## On the host -/

section Host
variable {α : Type}

/-- A scalar broadcast to a vector reads the scalar. -/
theorem bcast_scalar_apply {n : ℕ} (x : (⟨0, ![]⟩ : Shape).Idx → α)
    (h : (⟨0, ![]⟩ : Shape).BroadcastsInDim ⟨1, ![n]⟩ (![] : Fin 0 → Fin 1)) (i : Fin n) :
    broadcastInDim ⟨1, ![n]⟩ ![] h x (ix1 i) = x ix0 :=
  broadcastInDim_apply _ h x (ix1 i) ix0 fun a => a.elim0

/-- A vector broadcast to a column reads, in row r, the vector at r. -/
theorem bcast_col_apply (x : (⟨1, ![R]⟩ : Shape).Idx → α)
    (h : (⟨1, ![R]⟩ : Shape).BroadcastsInDim ⟨2, ![R, 1]⟩ (![0] : Fin 1 → Fin 2)) (r : Fin R) (u : Fin 1) :
    broadcastInDim ⟨2, ![R, 1]⟩ ![0] h x (ix2 r u) = x (ix1 r) := by
  refine broadcastInDim_apply _ h x (ix2 r u) (ix1 r) fun a => ?_
  match a with
  | ⟨0, _⟩ =>
    show r.val = if R = 1 then 0 else r.val
    split
    · have := r.isLt; omega
    · rfl

/-- A column broadcast across A columns reads, at (r, a), the column's entry of row r. -/
theorem bcast_cols_apply (x : (⟨2, ![R, 1]⟩ : Shape).Idx → α)
    (h : (⟨2, ![R, 1]⟩ : Shape).BroadcastsInDim ⟨2, ![R, A]⟩ (![0, 1] : Fin 2 → Fin 2)) (r : Fin R) (a : Fin A) :
    broadcastInDim ⟨2, ![R, A]⟩ ![0, 1] h x (ix2 r a) = x (ix2 r (0 : Fin 1)) := by
  refine broadcastInDim_apply _ h x (ix2 r a) (ix2 r (0 : Fin 1)) fun ax => ?_
  match ax with
  | ⟨0, _⟩ =>
    show r.val = if R = 1 then 0 else r.val
    split
    · have := r.isLt; omega
    · rfl
  | ⟨1, _⟩ => rfl

end Host

/-- The host's softmax of the rows of v: jax.nn.softmax's operations as a reference program prints them. -/
def hostSoftmax (v : FVec Ideal ⟨2, ![R, A]⟩ .f32) (hr : (⟨2, ![R, A]⟩ : Shape).ReducesTo [1] ⟨1, ![R]⟩)
    (h0 : 0 < (⟨0, ![]⟩ : Shape).numel)
    (hb0 : (⟨0, ![]⟩ : Shape).BroadcastsInDim ⟨1, ![R]⟩ (![] : Fin 0 → Fin 1))
    (hb1 : (⟨1, ![R]⟩ : Shape).BroadcastsInDim ⟨2, ![R, 1]⟩ (![0] : Fin 1 → Fin 2))
    (hb2 : (⟨2, ![R, 1]⟩ : Shape).BroadcastsInDim ⟨2, ![R, A]⟩ (![0, 1] : Fin 2 → Fin 2)) : FVec Ideal ⟨2, ![R, A]⟩ .f32 :=
  Host.divf
    (Host.exp (subf v (broadcastInDim ⟨2, ![R, A]⟩ ![0, 1] hb2 (broadcastInDim ⟨2, ![R, 1]⟩ ![0] hb1
      (maximumf (broadcastInDim ⟨1, ![R]⟩ ![] hb0 (constant (F := Ideal) ⟨0, ![]⟩ .f32 0xFF800000#32))
        (Host.reduce FloatOps.maximumf v (constant (F := Ideal) ⟨0, ![]⟩ .f32 0xFF800000#32) hr h0))))))
    (broadcastInDim ⟨2, ![R, A]⟩ ![0, 1] hb2 (broadcastInDim ⟨2, ![R, 1]⟩ ![0] hb1
      (Host.reduceAdd
        (Host.exp (subf v (broadcastInDim ⟨2, ![R, A]⟩ ![0, 1] hb2 (broadcastInDim ⟨2, ![R, 1]⟩ ![0] hb1
          (maximumf (broadcastInDim ⟨1, ![R]⟩ ![] hb0 (constant (F := Ideal) ⟨0, ![]⟩ .f32 0xFF800000#32))
            (Host.reduce FloatOps.maximumf v (constant (F := Ideal) ⟨0, ![]⟩ .f32 0xFF800000#32) hr h0))))))
        (constant (F := Ideal) ⟨0, ![]⟩ .f32 0x00000000#32) hr h0)))

theorem host_rowmax (v : FVec Ideal ⟨2, ![R, A]⟩ .f32) (hr : (⟨2, ![R, A]⟩ : Shape).ReducesTo [1] ⟨1, ![R]⟩)
    (h0 : 0 < (⟨0, ![]⟩ : Shape).numel)
    (hb0 : (⟨0, ![]⟩ : Shape).BroadcastsInDim ⟨1, ![R]⟩ (![] : Fin 0 → Fin 1))
    (hr' : (⟨2, ![R, A]⟩ : Shape).Reduces [1] ⟨1, ![R]⟩) (r : Fin R) :
    (maximumf (broadcastInDim ⟨1, ![R]⟩ ![] hb0 (constant (F := Ideal) ⟨0, ![]⟩ .f32 0xFF800000#32))
        (Host.reduce FloatOps.maximumf v (constant (F := Ideal) ⟨0, ![]⟩ .f32 0xFF800000#32) hr h0)) (ix1 r)
      = rmax (fun a' => v (ix2 r a')) := by
  rw [maximumf_apply, bcast_scalar_apply, Host.reduce_eq_fold_single FloatOps.maximumf v _ hr hr' h0 (ix1 r)]
  unfold rmax
  refine congrArg (max ninf) ?_
  refine congrArg (Finset.fold max ninf · Finset.univ) ?_
  funext k
  exact congrArg v (lift_row hr' r k)

theorem host_exp_apply (v : FVec Ideal ⟨2, ![R, A]⟩ .f32) (hr : (⟨2, ![R, A]⟩ : Shape).ReducesTo [1] ⟨1, ![R]⟩)
    (h0 : 0 < (⟨0, ![]⟩ : Shape).numel)
    (hb0 : (⟨0, ![]⟩ : Shape).BroadcastsInDim ⟨1, ![R]⟩ (![] : Fin 0 → Fin 1))
    (hb1 : (⟨1, ![R]⟩ : Shape).BroadcastsInDim ⟨2, ![R, 1]⟩ (![0] : Fin 1 → Fin 2))
    (hb2 : (⟨2, ![R, 1]⟩ : Shape).BroadcastsInDim ⟨2, ![R, A]⟩ (![0, 1] : Fin 2 → Fin 2))
    (hr' : (⟨2, ![R, A]⟩ : Shape).Reduces [1] ⟨1, ![R]⟩) (r : Fin R) (a : Fin A) :
    (Host.exp (subf v (broadcastInDim ⟨2, ![R, A]⟩ ![0, 1] hb2 (broadcastInDim ⟨2, ![R, 1]⟩ ![0] hb1
      (maximumf (broadcastInDim ⟨1, ![R]⟩ ![] hb0 (constant (F := Ideal) ⟨0, ![]⟩ .f32 0xFF800000#32))
        (Host.reduce FloatOps.maximumf v (constant (F := Ideal) ⟨0, ![]⟩ .f32 0xFF800000#32) hr h0)))))) (ix2 r a)
      = Ideal.exp (v (ix2 r a) - rmax (fun a' => v (ix2 r a'))) := by
  have e1 : ∀ (x : FVec Ideal ⟨2, ![R, A]⟩ .f32) (i : (⟨2, ![R, A]⟩ : Shape).Idx), Host.exp x i = Ideal.exp (x i) := fun _ _ => rfl
  rw [e1, subf_apply, bcast_cols_apply, bcast_col_apply, host_rowmax v hr h0 hb0 hr' r]

/-- The host's softmax at (r, a) is the row's softmax (hr' : the same reduction as a kernel-side shape fact, which
    decide proves at literal extents, names the row's entries). -/
theorem hostSoftmax_apply (v : FVec Ideal ⟨2, ![R, A]⟩ .f32) (hr : (⟨2, ![R, A]⟩ : Shape).ReducesTo [1] ⟨1, ![R]⟩)
    (h0 : 0 < (⟨0, ![]⟩ : Shape).numel)
    (hb0 : (⟨0, ![]⟩ : Shape).BroadcastsInDim ⟨1, ![R]⟩ (![] : Fin 0 → Fin 1))
    (hb1 : (⟨1, ![R]⟩ : Shape).BroadcastsInDim ⟨2, ![R, 1]⟩ (![0] : Fin 1 → Fin 2))
    (hb2 : (⟨2, ![R, 1]⟩ : Shape).BroadcastsInDim ⟨2, ![R, A]⟩ (![0, 1] : Fin 2 → Fin 2))
    (hr' : (⟨2, ![R, A]⟩ : Shape).Reduces [1] ⟨1, ![R]⟩) (r : Fin R) (a : Fin A) :
    hostSoftmax v hr h0 hb0 hb1 hb2 (ix2 r a) = smax (fun a' => v (ix2 r a')) a := by
  unfold hostSoftmax smax
  have e2 : ∀ (x y : FVec Ideal ⟨2, ![R, A]⟩ .f32) (i : (⟨2, ![R, A]⟩ : Shape).Idx), Host.divf x y i = Ideal.div (x i) (y i) :=
    fun _ _ _ => rfl
  rw [e2, bcast_cols_apply, bcast_col_apply, host_exp_apply v hr h0 hb0 hb1 hb2 hr']
  refine congrArg (Ideal.div _) ?_
  refine (Ideal.hostReduceAdd_single hr hr' _ _ (ix1 r)).trans ?_
  rw [constant_apply, Ideal.ofBits_zero_f32, zero_add]
  refine Finset.sum_congr rfl fun k _ => ?_
  rw [lift_row hr' r k]
  exact host_exp_apply v hr h0 hb0 hb1 hb2 hr' r k

/-! ## The leaky ReLU -/

/-- In a kernel body: compare with a zero splat, multiply by the slope splat, select. -/
theorem kern_lrelu_apply {s : Shape} (v : FVec Ideal s .f32) (i : s.Idx) :
    select (cmpf .oge v (broadcast s (Scalar.ofBits (F := Ideal) .f32 0x00000000#32))) v
      (mulf (broadcast s (Scalar.ofBits (F := Ideal) .f32 0x3C23D70A#32)) v) i = lrelu (v i) := rfl

/-- On the host: the same through a scalar constant broadcast in dim. -/
theorem host_lrelu_apply {s : Shape} (v : FVec Ideal s .f32) (hb : (⟨0, ![]⟩ : Shape).BroadcastsInDim s (![] : Fin 0 → Fin s.rank))
    (i : s.Idx) :
    select (cmpf .oge v (broadcastInDim s ![] hb (constant (F := Ideal) ⟨0, ![]⟩ .f32 0x00000000#32))) v
      (mulf (broadcastInDim s ![] hb (constant (F := Ideal) ⟨0, ![]⟩ .f32 0x3C23D70A#32)) v) i = lrelu (v i) := by
  show Scalar.select (FloatOps.cmpf .oge (v i) (broadcastInDim s ![] hb (constant (F := Ideal) ⟨0, ![]⟩ .f32 0x00000000#32) i)) (v i)
    (broadcastInDim s ![] hb (constant (F := Ideal) ⟨0, ![]⟩ .f32 0x3C23D70A#32) i * v i) = _
  rw [broadcastInDim_apply _ hb _ i ix0 fun a => a.elim0, broadcastInDim_apply _ hb _ i ix0 fun a => a.elim0]
  rfl

end Cert.SoftmaxRows

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.KernPay.lean ====
/-
  The two kernel bodies' stored values read at an entry: what a body computes from its loaded blocks is, row by row,
  the block form of the specification.
-/
import proofs.«162870_j34248069218340_2_alg».proof.Proof.KernForm
import proofs.«162870_j34248069218340_2_alg».proof.Proof.Gen.KernelIdeal.Skeleton
import proofs.«162870_j34248069218340_2_alg».proof.Proof.LibSoftmaxRows
import proofs.«162870_j34248069218340_2_alg».proof.Proof.LibPlainDot
import Idealize.ShloMosaic.Lib.ValueLayout

noncomputable section

open scoped BigOperators

namespace Cert.KernPay

open Idealize.ShloMosaic Idealize.ShloMosaic.ValueIdx Cert.KernelIdeal Cert.KernelIdeal.Gen Cert.KernForm

/-- The edge kernel's stored block at (r, d). -/
theorem pay0_apply (x0 x1 : FVec Ideal S10000x128 .bf16) (x2 x3 : FVec Ideal S128x5 .bf16) (x4 : FVec Ideal S1x5 .f32)
    (x5 : FVec Ideal S5x128 .f32) (r : Fin 10000) (d : Fin 128) :
    k0_pay1 (F := Ideal) x0 x1 x2 x3 x4 x5 (ix2 r d) = epF x0 x1 x2 x3 x4 x5 r d := by
  unfold k0_pay1
  refine (Cert.PlainDot.matmul_zero_apply _ rfl rfl rfl rfl rfl rfl none _ x5 r d).trans ?_
  unfold epF
  refine Finset.sum_congr rfl fun a _ => congrArg (· * x5 (ix2 a d)) ?_
  refine (Cert.SoftmaxRows.kernSoftmax_apply _ _ _ _ r a).trans ?_
  refine congrArg (fun l => Cert.Spec.smax l a) (funext fun a' => ?_)
  refine (Cert.SoftmaxRows.kern_lrelu_apply _ (ix2 r a')).trans (congrArg Cert.Spec.lrelu ?_)
  refine (addf_apply _ _ _).trans (congrArg₂ (· + ·) ((addf_apply _ _ _).trans (congrArg₂ (· + ·) ?_ ?_)) ?_)
  · refine (Cert.PlainDot.matmul_zero_apply _ rfl rfl rfl rfl rfl rfl none _ _ r a').trans ?_
    rw [shapeCast_self, shapeCast_self]
  · refine (Cert.PlainDot.matmul_zero_apply _ rfl rfl rfl rfl rfl rfl none _ _ r a').trans ?_
    rw [shapeCast_self, shapeCast_self]
  · refine (broadcastTo_1b_ab_apply _ _ r a').trans ?_
    rw [shapeCast_self]

/-- The node kernel's first stored block (the prompted features) at (r, d). -/
theorem pay1_npx_apply (x0 : FVec Ideal S5000x128 .f32) (x2 : FVec Ideal S128x5 .f32) (x3 : FVec Ideal S1x5 .f32)
    (x4 : FVec Ideal S5x128 .f32) (r : Fin 5000) (d : Fin 128) :
    k1_pay3 (F := Ideal) x0 x2 x3 x4 (ix2 r d) = npxF x0 x2 x3 x4 r d := by
  unfold k1_pay3
  refine (addf_apply _ _ _).trans ?_
  unfold npxF
  refine congrArg (x0 (ix2 r d) + ·) ?_
  refine (Cert.PlainDot.matmul_zero_apply _ rfl rfl rfl rfl rfl rfl none _ x4 r d).trans ?_
  refine Finset.sum_congr rfl fun a _ => congrArg (· * x4 (ix2 a d)) ?_
  refine (Cert.SoftmaxRows.kernSoftmax_apply _ _ _ _ r a).trans ?_
  refine congrArg (fun l => Cert.Spec.smax l a) (funext fun a' => ?_)
  refine (addf_apply _ _ _).trans (congrArg₂ (· + ·) ?_ ?_)
  · exact Cert.PlainDot.matmul_zero_apply _ rfl rfl rfl rfl rfl rfl none _ _ r a'
  · refine (broadcastTo_1b_ab_apply _ _ r a').trans ?_
    rw [shapeCast_self]

/-- The node kernel's gate logits (the two products and the bias row) at (r, g). -/
theorem gate_apply (x0 x1 : FVec Ideal S5000x128 .f32) (x2 : FVec Ideal S128x5 .f32) (x3 : FVec Ideal S1x5 .f32)
    (x4 : FVec Ideal S5x128 .f32) (x5 x6 : FVec Ideal S128x2 .f32) (x7 : FVec Ideal S1x2 .f32) (r : Fin 5000) (g : Fin 2) :
    addf (k1_pay4 (F := Ideal) x0 x1 x2 x3 x4 x5 x6) (broadcastTo S5000x2 (k1_pay5 x7) broadcasts_S1x2_S5000x2) (ix2 r g)
      = gateF x0 x1 x2 x3 x4 x5 x6 x7 r g := by
  refine (addf_apply _ _ _).trans ?_
  unfold gateF
  refine congrArg₂ (· + ·) ?_ ?_
  · unfold k1_pay4
    refine (addf_apply _ _ _).trans (congrArg₂ (· + ·) ?_ ?_)
    · refine (Cert.PlainDot.matmul_zero_apply _ rfl rfl rfl rfl rfl rfl none _ _ r g).trans ?_
      refine Finset.sum_congr rfl fun k _ => ?_
      rw [pay1_npx_apply, shapeCast_self]
    · refine (Cert.PlainDot.matmul_zero_apply _ rfl rfl rfl rfl rfl rfl none _ _ r g).trans ?_
      refine Finset.sum_congr rfl fun k _ => ?_
      unfold k1_pay2
      rw [shapeCast_self, shapeCast_self]
  · unfold k1_pay5
    refine (broadcastTo_1b_ab_apply _ _ r g).trans ?_
    rw [shapeCast_self]

/-- The node kernel's second stored block (the gated output) at (r, d). -/
theorem pay1_final_apply (x0 x1 : FVec Ideal S5000x128 .f32) (x2 : FVec Ideal S128x5 .f32) (x3 : FVec Ideal S1x5 .f32)
    (x4 : FVec Ideal S5x128 .f32) (x5 x6 : FVec Ideal S128x2 .f32) (x7 : FVec Ideal S1x2 .f32) (r : Fin 5000) (d : Fin 128) :
    k1_pay1 (F := Ideal) (k1_pay2 x1) (k1_pay3 x0 x2 x3 x4) (k1_pay4 x0 x1 x2 x3 x4 x5 x6) (k1_pay5 x7) (ix2 r d)
      = finalF x0 x1 x2 x3 x4 x5 x6 x7 r d := by
  unfold k1_pay1
  refine (addf_apply _ _ _).trans ?_
  unfold finalF
  refine congrArg₂ (· + ·) ?_ ?_
  · refine (mulf_apply _ _ _).trans (congrArg₂ (· * ·) ?_ (pay1_npx_apply x0 x2 x3 x4 r d))
    refine (Cert.LibColumns.broadcastTo_a1_ab_apply _ _ r d).trans ?_
    refine (slice2_axis1_apply 0 _ _ r (0 : Fin 1) (0 : Fin 2) rfl).trans ?_
    refine (Cert.SoftmaxRows.kernSoftmax_apply _ _ _ _ r 0).trans ?_
    exact congrArg (fun l => Cert.Spec.smax l 0) (funext fun g => gate_apply x0 x1 x2 x3 x4 x5 x6 x7 r g)
  · refine (mulf_apply _ _ _).trans (congrArg₂ (· * ·) ?_ ?_)
    · refine (Cert.LibColumns.broadcastTo_a1_ab_apply _ _ r d).trans ?_
      refine (slice2_axis1_apply 1 _ _ r (0 : Fin 1) (1 : Fin 2) rfl).trans ?_
      refine (Cert.SoftmaxRows.kernSoftmax_apply _ _ _ _ r 1).trans ?_
      exact congrArg (fun l => Cert.Spec.smax l 1) (funext fun g => gate_apply x0 x1 x2 x3 x4 x5 x6 x7 r g)
    · unfold k1_pay2
      rw [shapeCast_self]

end Cert.KernPay

end
-- ==== Proof.KernBlocks0.lean ====
/-
  The edge region, from blocks to the array. The region runs over 64 points; at point t the three long windows (the two
  gathered feature arrays and the result) hold rows 10000 t … 10000 t + 9999 of their arrays and the four small windows
  hold their whole arrays. Entry (r, d) of what the body stores depends on row r of the two long blocks and on the small
  operands only, so what point t writes back is block t of one function of the arrays the region finds: the block form
  of an edge's prompt read at row 10000 t + r. The blocks tile the result (row e lies in the block of point e / 10000),
  so the array ends holding that function everywhere.
-/
import proofs.«162870_j34248069218340_2_alg».proof.Proof.KernPay
import proofs.«162870_j34248069218340_2_alg».proof.Proof.Gen.KernelIdeal.Frame
import Idealize.ShloMosaic.Lib.Pipeline.Value

noncomputable section

namespace Cert.KernBlocks

open Cert.KernelIdeal Cert.KernelIdeal.Gen Idealize.ShloMosaic Idealize.ShloMosaic.TcCoe Idealize.SL.Sem
open Idealize.ShloMosaic.Pipeline (Dat)
open Idealize.ShloMosaic.ValueIdx Cert.Spec Cert.KernForm

variable (V : (c : Dev nD) → (b : Ref sig .tc) → Buf (Elt Ideal) ((c : Thread nD τ).loc b))

theorem zeros0 : (![0, 0] : Fin 2 → Nat) = fun _ => 0 := funext fun a => by fin_cases a <;> rfl

/-! ## The edge region: 64 points, point t holds rows 10000 t … 10000 t + 9999 of the three long arrays -/

/-- The printed index maps over the 64 points: the three long windows sit at block (t, 0), the four small ones at (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row r of the first long input block at point t is row 10000 t + r of its array. -/
theorem read0_0 (c : Dev nD) (t : Fin cfg0.N) (r : Fin 10000) (k : Fin 128) (h : 10000 * t.val + r.val < 640000) :
    (iblk0 V c 0 t : FVec Ideal S10000x128 .bf16) (ix2 r k) = (V c main_v11 : A2 640000 128) (ix2 ⟨10000 * t.val + r.val, h⟩ k) := by
  obtain ⟨e0, e1, -⟩ := idx_facts0 t
  unfold iblk0
  rw [View.read_apply]
  show (V c main_v11 : A2 640000 128) _ = (V c main_v11 : A2 640000 128) _
  refine congrArg (V c main_v11 : A2 640000 128) (funext fun a => Fin.ext ?_)
  match a with
  | ⟨0, _⟩ => show win0_0.index t (0 : Fin 2) * 10000 + 1 * r.val = 10000 * t.val + r.val; rw [e0]; omega
  | ⟨1, _⟩ => show win0_0.index t (1 : Fin 2) * 128 + 1 * k.val = k.val; rw [e1]; omega

/-- Row r of the second long input block at point t is row 10000 t + r of its array. -/
theorem read0_1 (c : Dev nD) (t : Fin cfg0.N) (r : Fin 10000) (k : Fin 128) (h : 10000 * t.val + r.val < 640000) :
    (iblk0 V c 1 t : FVec Ideal S10000x128 .bf16) (ix2 r k) = (V c main_v18 : A2 640000 128) (ix2 ⟨10000 * t.val + r.val, h⟩ k) := by
  obtain ⟨-, -, e0, e1, -⟩ := idx_facts0 t
  unfold iblk0
  rw [View.read_apply]
  show (V c main_v18 : A2 640000 128) _ = (V c main_v18 : A2 640000 128) _
  refine congrArg (V c main_v18 : A2 640000 128) (funext fun a => Fin.ext ?_)
  match a with
  | ⟨0, _⟩ => show win0_1.index t (0 : Fin 2) * 10000 + 1 * r.val = 10000 * t.val + r.val; rw [e0]; omega
  | ⟨1, _⟩ => show win0_1.index t (1 : Fin 2) * 128 + 1 * k.val = k.val; rw [e1]; omega

/-- A small window's one block is its whole array, at every point. -/
theorem whole0_2 (c : Dev nD) (t : Fin cfg0.N) : (iblk0 V c 2 t : FVec Ideal S128x5 .bf16) = (V c main_v20 : A2 128 5) := by
  obtain ⟨-, -, -, -, e0, e1, -⟩ := idx_facts0 t
  funext x
  unfold iblk0
  rw [View.read_apply]
  show (V c main_v20 : A2 128 5) _ = (V c main_v20 : A2 128 5) x
  refine congrArg (V c main_v20 : A2 128 5) (funext fun a => Fin.ext ?_)
  match a with
  | ⟨0, _⟩ => show win0_2.index t (0 : Fin 2) * 128 + 1 * (x 0).val = (x 0).val; rw [e0]; omega
  | ⟨1, _⟩ => show win0_2.index t (1 : Fin 2) * 5 + 1 * (x 1).val = (x 1).val; rw [e1]; omega

theorem whole0_3 (c : Dev nD) (t : Fin cfg0.N) : (iblk0 V c 3 t : FVec Ideal S128x5 .bf16) = (V c main_v22 : A2 128 5) := by
  obtain ⟨-, -, -, -, -, -, e0, e1, -⟩ := idx_facts0 t
  funext x
  unfold iblk0
  rw [View.read_apply]
  show (V c main_v22 : A2 128 5) _ = (V c main_v22 : A2 128 5) x
  refine congrArg (V c main_v22 : A2 128 5) (funext fun a => Fin.ext ?_)
  match a with
  | ⟨0, _⟩ => show win0_3.index t (0 : Fin 2) * 128 + 1 * (x 0).val = (x 0).val; rw [e0]; omega
  | ⟨1, _⟩ => show win0_3.index t (1 : Fin 2) * 5 + 1 * (x 1).val = (x 1).val; rw [e1]; omega

theorem whole0_4 (c : Dev nD) (t : Fin cfg0.N) : (iblk0 V c 4 t : FVec Ideal S1x5 .f32) = (V c main_v23 : A2 1 5) := by
  obtain ⟨-, -, -, -, -, -, -, -, e0, e1, -⟩ := idx_facts0 t
  funext x
  unfold iblk0
  rw [View.read_apply]
  show (V c main_v23 : A2 1 5) _ = (V c main_v23 : A2 1 5) x
  refine congrArg (V c main_v23 : A2 1 5) (funext fun a => Fin.ext ?_)
  match a with
  | ⟨0, _⟩ => show win0_4.index t (0 : Fin 2) * 1 + 1 * (x 0).val = (x 0).val; rw [e0]; omega
  | ⟨1, _⟩ => show win0_4.index t (1 : Fin 2) * 5 + 1 * (x 1).val = (x 1).val; rw [e1]; omega

theorem whole0_5 (c : Dev nD) (t : Fin cfg0.N) : (iblk0 V c 5 t : FVec Ideal S5x128 .f32) = (V c main_arg4 : A2 5 128) := by
  obtain ⟨-, -, -, -, -, -, -, -, -, -, e0, e1, -⟩ := idx_facts0 t
  funext x
  unfold iblk0
  rw [View.read_apply]
  show (V c main_arg4 : A2 5 128) _ = (V c main_arg4 : A2 5 128) x
  refine congrArg (V c main_arg4 : A2 5 128) (funext fun a => Fin.ext ?_)
  match a with
  | ⟨0, _⟩ => show win0_5.index t (0 : Fin 2) * 5 + 1 * (x 0).val = (x 0).val; rw [e0]; omega
  | ⟨1, _⟩ => show win0_5.index t (1 : Fin 2) * 128 + 1 * (x 1).val = (x 1).val; rw [e1]; omega

/-- The edge body's stored entry (r, d) reads row r of its two long blocks only: with those rows the rows e of two long
    arrays, it is the whole-array form at (e, d). -/
theorem edge_rows (x0 x1 : FVec Ideal S10000x128 .bf16) (x2 x3 : FVec Ideal S128x5 .bf16) (x4 : FVec Ideal S1x5 .f32)
    (x5 : FVec Ideal S5x128 .f32) (A0 A1 : A2 640000 128) (r : Fin 10000) (d : Fin 128) (e : Fin 640000)
    (h0 : ∀ k : Fin 128, x0 (ix2 r k) = A0 (ix2 e k)) (h1 : ∀ k : Fin 128, x1 (ix2 r k) = A1 (ix2 e k)) :
    k0_pay1 (F := Ideal) x0 x1 x2 x3 x4 x5 (ix2 r d) = epF A0 A1 x2 x3 x4 x5 e d := by
  rw [Cert.KernPay.pay0_apply]
  unfold epF
  simp only [h0, h1]

/-- The edge region's result array as one function of the arrays the region finds. -/
def G0 (c : Dev nD) : S640000x128.Idx → EReal := fun i =>
  epF (V c main_v11 : A2 640000 128) (V c main_v18 : A2 640000 128) (V c main_v20 : A2 128 5) (V c main_v22 : A2 128 5)
    (V c main_v23 : A2 1 5) (V c main_arg4 : A2 5 128) (i 0) (i 1)

/-- Entry (r, d) of the result's block at point t sits at (10000 t + r, d) of the array. -/
theorem out0_emb (t : Fin cfg0.N) (r : Fin 10000) (d : Fin 128) (h : 10000 * t.val + r.val < 640000) :
    (((cfg0.win 6).blk t).view.emb (ix2 r d) : S640000x128.Idx) = ix2 ⟨10000 * t.val + r.val, h⟩ d := by
  obtain ⟨-, -, -, -, -, -, -, -, -, -, -, -, e0, e1⟩ := idx_facts0 t
  funext a
  apply Fin.ext
  match a with
  | ⟨0, _⟩ => show win0_6.index t (0 : Fin 2) * 10000 + 1 * r.val = 10000 * t.val + r.val; rw [e0]; omega
  | ⟨1, _⟩ => show win0_6.index t (1 : Fin 2) * 128 + 1 * d.val = d.val; rw [e1]; omega

/-- What point t leaves in the result's staging buffer is block t of G0. -/
theorem stored0 (c : Dev nD) (t : Fin cfg0.N) :
    (k0_pay1 (F := Ideal) (iblk0 V c 0 t) (iblk0 V c 1 t) (iblk0 V c 2 t) (iblk0 V c 3 t) (iblk0 V c 4 t) (iblk0 V c 5 t)
        : S10000x128.Idx → EReal)
      = fun j : S10000x128.Idx => G0 V c (((cfg0.win 6).blk t).view.emb j) := by
  funext j
  obtain ⟨r, d, rfl⟩ : ∃ (r : Fin 10000) (d : Fin 128), j = ix2 r d := ⟨j 0, j 1, eq_ix2 j⟩
  have hN : grid0.N = 64 := N_0
  have ht : t.val < grid0.N := t.isLt
  have h : 10000 * t.val + r.val < 640000 := by have := r.isLt; omega
  rw [whole0_2 V c t, whole0_3 V c t, whole0_4 V c t, whole0_5 V c t]
  show _ = G0 V c _
  rw [out0_emb t r d h]
  exact edge_rows (iblk0 V c 0 t) (iblk0 V c 1 t) (V c main_v20) (V c main_v22) (V c main_v23) (V c main_arg4)
    (V c main_v11) (V c main_v18) r d ⟨10000 * t.val + r.val, h⟩ (fun k => read0_0 V c t r k h) (fun k => read0_1 V c t r k h)

/-- What point t writes back is block t of G0. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero zeros0]
  simp only [View.ld_unit_zero (S := S10000x128) zeros0, View.ld_unit_zero (S := S128x5) zeros0, View.ld_unit_zero (S := S1x5) zeros0,
    View.ld_unit_zero (S := S5x128) zeros0]
  exact stored0 V c t

/-- An index of the result array is in point t's block iff each coordinate is in the block's range on its axis. -/
theorem mem_blk0 (t : Fin cfg0.N) (i : S640000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v24).slice (win0_6.rect t)).set ↔ _
  rw [View.set_slice_whole, Rect.mem_set_unit]
  exact Iff.rfl

/-- Row e of the result array is in the block of point e / 10000. -/
theorem cover0 (i : S640000x128.Idx) :
    ∃ t : Fin cfg0.N, (cfg0.win 6).flush t = true ∧ i ∈ ((cfg0.win 6).blk t).view.set := by
  have hi0 : (i 0).val < 640000 := idx2_lt0 i
  have hi1 : (i 1).val < 128 := idx2_lt1 i
  have hN : grid0.N = 64 := N_0
  obtain ⟨t, ht⟩ : ∃ t : Fin cfg0.N, t.val = (i 0).val / 10000 := ⟨⟨(i 0).val / 10000, by show _ < grid0.N; omega⟩, rfl⟩
  obtain ⟨-, -, -, -, -, -, -, -, -, -, -, -, e0, e1⟩ := idx_facts0 t
  refine ⟨t, flush0_6 t, ?_⟩
  rw [mem_blk0]
  intro a
  match a with
  | ⟨0, _⟩ =>
    show win0_6.index t (0 : Fin 2) * 10000 ≤ (i 0).val ∧ (i 0).val < win0_6.index t (0 : Fin 2) * 10000 + 10000
    rw [e0, ht]; omega
  | ⟨1, _⟩ =>
    show win0_6.index t (1 : Fin 2) * 128 ≤ (i 1).val ∧ (i 1).val < win0_6.index t (1 : Fin 2) * 128 + 128
    rw [e1]; omega

/-- The edge region's result array, entry by entry, is the whole-array form of the arrays the region finds. -/
theorem region0_value (c : Dev nD) (e : Fin 640000) (d : Fin 128) :
    (dat0 V c).arrAt 6 cfg0.N (ix2 e d)
      = epF (V c main_v11 : A2 640000 128) (V c main_v18 : A2 640000 128) (V c main_v20 : A2 128 5) (V c main_v22 : A2 128 5)
          (V c main_v23 : A2 1 5) (V c main_arg4 : A2 5 128) e d :=
  congrFun ((dat0 V c).arrAt_eq_of_cover 6 (G0 V c) (fun t _ => flushed0_eq V c t) cover0) (ix2 e d)

end Cert.KernBlocks

end
-- ==== Proof.KernBlocks1.lean ====
/-
  The node region, from blocks to the arrays. The region runs over 10 points; at point t the four long windows (the node
  features, what the edges brought, and the two results) hold rows 5000 t … 5000 t + 4999 of their arrays and the six
  small windows hold their whole arrays. Entry (r, d) of either stored block depends on row r of the two long input
  blocks and on the small operands only, so what point t writes back is block t of one function of the arrays the region
  finds: the block forms of a node's prompted features and of its gated output, read at row 5000 t + r. The blocks tile
  each result (row n lies in the block of point n / 5000), so each array ends holding its function everywhere.
-/
import proofs.«162870_j34248069218340_2_alg».proof.Proof.KernPay
import proofs.«162870_j34248069218340_2_alg».proof.Proof.Gen.KernelIdeal.Frame
import Idealize.ShloMosaic.Lib.Pipeline.Value

noncomputable section

namespace Cert.KernBlocks

open Cert.KernelIdeal Cert.KernelIdeal.Gen Idealize.ShloMosaic Idealize.ShloMosaic.TcCoe Idealize.SL.Sem
open Idealize.ShloMosaic.Pipeline (Dat)
open Idealize.ShloMosaic.ValueIdx Cert.Spec Cert.KernForm

variable (V : (c : Dev nD) → (b : Ref sig .tc) → Buf (Elt Ideal) ((c : Thread nD τ).loc b))

theorem zeros1 : (![0, 0] : Fin 2 → Nat) = fun _ => 0 := funext fun a => by fin_cases a <;> rfl

/-! ## The node region: 10 points, point t holds rows 5000 t … 5000 t + 4999 of the four long arrays -/

/-- The printed index maps over the 10 points: the four long windows sit at block (t, 0), the six small ones at (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- Row r of long input block 0 at point t is row 5000 t + r of its array. -/
theorem read1_0 (c : Dev nD) (t : Fin cfg1.N) (r : Fin 5000) (k : Fin 128) (h : 5000 * t.val + r.val < 50000) :
    (iblk1 V c 0 t : FVec Ideal S5000x128 .f32) (ix2 r k) = (V c main_arg0 : A2 50000 128) (ix2 ⟨5000 * t.val + r.val, h⟩ k) := by
  obtain ⟨e0, e1, -⟩ := idx_facts1 t
  unfold iblk1
  rw [View.read_apply]
  show (V c main_arg0 : A2 50000 128) _ = (V c main_arg0 : A2 50000 128) _
  refine congrArg (V c main_arg0 : A2 50000 128) (funext fun a => Fin.ext ?_)
  match a with
  | ⟨0, _⟩ => show win1_0.index t (0 : Fin 2) * 5000 + 1 * r.val = 5000 * t.val + r.val; rw [e0]; omega
  | ⟨1, _⟩ => show win1_0.index t (1 : Fin 2) * 128 + 1 * k.val = k.val; rw [e1]; omega

/-- Row r of long input block 1 at point t is row 5000 t + r of its array. -/
theorem read1_1 (c : Dev nD) (t : Fin cfg1.N) (r : Fin 5000) (k : Fin 128) (h : 5000 * t.val + r.val < 50000) :
    (iblk1 V c 1 t : FVec Ideal S5000x128 .f32) (ix2 r k) = (V c main_v34 : A2 50000 128) (ix2 ⟨5000 * t.val + r.val, h⟩ k) := by
  obtain ⟨-, -, e0, e1, -⟩ := idx_facts1 t
  unfold iblk1
  rw [View.read_apply]
  show (V c main_v34 : A2 50000 128) _ = (V c main_v34 : A2 50000 128) _
  refine congrArg (V c main_v34 : A2 50000 128) (funext fun a => Fin.ext ?_)
  match a with
  | ⟨0, _⟩ => show win1_1.index t (0 : Fin 2) * 5000 + 1 * r.val = 5000 * t.val + r.val; rw [e0]; omega
  | ⟨1, _⟩ => show win1_1.index t (1 : Fin 2) * 128 + 1 * k.val = k.val; rw [e1]; omega

/-! A small window's one block is its whole array, at every point. -/

theorem whole1_2 (c : Dev nD) (t : Fin cfg1.N) : (iblk1 V c 2 t : FVec Ideal S128x5 .f32) = (V c main_arg2 : A2 128 5) := by
  obtain ⟨-, -, -, -, e0, e1, -⟩ := idx_facts1 t
  funext x
  unfold iblk1
  rw [View.read_apply]
  show (V c main_arg2 : A2 128 5) _ = (V c main_arg2 : A2 128 5) x
  refine congrArg (V c main_arg2 : A2 128 5) (funext fun a => Fin.ext ?_)
  match a with
  | ⟨0, _⟩ => show win1_2.index t (0 : Fin 2) * 128 + 1 * (x 0).val = (x 0).val; rw [e0]; omega
  | ⟨1, _⟩ => show win1_2.index t (1 : Fin 2) * 5 + 1 * (x 1).val = (x 1).val; rw [e1]; omega

theorem whole1_3 (c : Dev nD) (t : Fin cfg1.N) : (iblk1 V c 3 t : FVec Ideal S1x5 .f32) = (V c main_v37 : A2 1 5) := by
  obtain ⟨-, -, -, -, -, -, e0, e1, -⟩ := idx_facts1 t
  funext x
  unfold iblk1
  rw [View.read_apply]
  show (V c main_v37 : A2 1 5) _ = (V c main_v37 : A2 1 5) x
  refine congrArg (V c main_v37 : A2 1 5) (funext fun a => Fin.ext ?_)
  match a with
  | ⟨0, _⟩ => show win1_3.index t (0 : Fin 2) * 1 + 1 * (x 0).val = (x 0).val; rw [e0]; omega
  | ⟨1, _⟩ => show win1_3.index t (1 : Fin 2) * 5 + 1 * (x 1).val = (x 1).val; rw [e1]; omega

theorem whole1_4 (c : Dev nD) (t : Fin cfg1.N) : (iblk1 V c 4 t : FVec Ideal S5x128 .f32) = (V c main_arg1 : A2 5 128) := by
  obtain ⟨-, -, -, -, -, -, -, -, e0, e1, -⟩ := idx_facts1 t
  funext x
  unfold iblk1
  rw [View.read_apply]
  show (V c main_arg1 : A2 5 128) _ = (V c main_arg1 : A2 5 128) x
  refine congrArg (V c main_arg1 : A2 5 128) (funext fun a => Fin.ext ?_)
  match a with
  | ⟨0, _⟩ => show win1_4.index t (0 : Fin 2) * 5 + 1 * (x 0).val = (x 0).val; rw [e0]; omega
  | ⟨1, _⟩ => show win1_4.index t (1 : Fin 2) * 128 + 1 * (x 1).val = (x 1).val; rw [e1]; omega

theorem whole1_5 (c : Dev nD) (t : Fin cfg1.N) : (iblk1 V c 5 t : FVec Ideal S128x2 .f32) = (V c main_v35 : A2 128 2) := by
  obtain ⟨-, -, -, -, -, -, -, -, -, -, e0, e1, -⟩ := idx_facts1 t
  funext x
  unfold iblk1
  rw [View.read_apply]
  show (V c main_v35 : A2 128 2) _ = (V c main_v35 : A2 128 2) x
  refine congrArg (V c main_v35 : A2 128 2) (funext fun a => Fin.ext ?_)
  match a with
  | ⟨0, _⟩ => show win1_5.index t (0 : Fin 2) * 128 + 1 * (x 0).val = (x 0).val; rw [e0]; omega
  | ⟨1, _⟩ => show win1_5.index t (1 : Fin 2) * 2 + 1 * (x 1).val = (x 1).val; rw [e1]; omega

theorem whole1_6 (c : Dev nD) (t : Fin cfg1.N) : (iblk1 V c 6 t : FVec Ideal S128x2 .f32) = (V c main_v36 : A2 128 2) := by
  obtain ⟨-, -, -, -, -, -, -, -, -, -, -, -, e0, e1, -⟩ := idx_facts1 t
  funext x
  unfold iblk1
  rw [View.read_apply]
  show (V c main_v36 : A2 128 2) _ = (V c main_v36 : A2 128 2) x
  refine congrArg (V c main_v36 : A2 128 2) (funext fun a => Fin.ext ?_)
  match a with
  | ⟨0, _⟩ => show win1_6.index t (0 : Fin 2) * 128 + 1 * (x 0).val = (x 0).val; rw [e0]; omega
  | ⟨1, _⟩ => show win1_6.index t (1 : Fin 2) * 2 + 1 * (x 1).val = (x 1).val; rw [e1]; omega

theorem whole1_7 (c : Dev nD) (t : Fin cfg1.N) : (iblk1 V c 7 t : FVec Ideal S1x2 .f32) = (V c main_v38 : A2 1 2) := by
  obtain ⟨-, -, -, -, -, -, -, -, -, -, -, -, -, -, e0, e1, -⟩ := idx_facts1 t
  funext x
  unfold iblk1
  rw [View.read_apply]
  show (V c main_v38 : A2 1 2) _ = (V c main_v38 : A2 1 2) x
  refine congrArg (V c main_v38 : A2 1 2) (funext fun a => Fin.ext ?_)
  match a with
  | ⟨0, _⟩ => show win1_7.index t (0 : Fin 2) * 1 + 1 * (x 0).val = (x 0).val; rw [e0]; omega
  | ⟨1, _⟩ => show win1_7.index t (1 : Fin 2) * 2 + 1 * (x 1).val = (x 1).val; rw [e1]; omega

/-- The node body's first stored entry (r, d) reads row r of its long block only: with that row the row n of a long
    array, it is the whole-array form at (n, d). -/
theorem npx_rows (x0 : FVec Ideal S5000x128 .f32) (x2 : FVec Ideal S128x5 .f32) (x3 : FVec Ideal S1x5 .f32)
    (x4 : FVec Ideal S5x128 .f32) (A0 : A2 50000 128) (r : Fin 5000) (d : Fin 128) (n : Fin 50000)
    (h0 : ∀ k : Fin 128, x0 (ix2 r k) = A0 (ix2 n k)) :
    k1_pay3 (F := Ideal) x0 x2 x3 x4 (ix2 r d) = npxF A0 x2 x3 x4 n d := by
  rw [Cert.KernPay.pay1_npx_apply]
  unfold npxF
  simp only [h0]

/-- The node body's second stored entry (r, d) reads row r of its two long blocks only. -/
theorem final_rows (x0 x1 : FVec Ideal S5000x128 .f32) (x2 : FVec Ideal S128x5 .f32) (x3 : FVec Ideal S1x5 .f32)
    (x4 : FVec Ideal S5x128 .f32) (x5 x6 : FVec Ideal S128x2 .f32) (x7 : FVec Ideal S1x2 .f32) (A0 A1 : A2 50000 128)
    (r : Fin 5000) (d : Fin 128) (n : Fin 50000)
    (h0 : ∀ k : Fin 128, x0 (ix2 r k) = A0 (ix2 n k)) (h1 : ∀ k : Fin 128, x1 (ix2 r k) = A1 (ix2 n k)) :
    k1_pay1 (F := Ideal) (k1_pay2 x1) (k1_pay3 x0 x2 x3 x4) (k1_pay4 x0 x1 x2 x3 x4 x5 x6) (k1_pay5 x7) (ix2 r d)
      = finalF A0 A1 x2 x3 x4 x5 x6 x7 n d := by
  rw [Cert.KernPay.pay1_final_apply]
  unfold finalF gateF npxF
  simp only [h0, h1]

/-- The node region's two result arrays as functions of the arrays the region finds. -/
def G1npx (c : Dev nD) : S50000x128.Idx → EReal := fun i =>
  npxF (V c main_arg0 : A2 50000 128) (V c main_arg2 : A2 128 5) (V c main_v37 : A2 1 5) (V c main_arg1 : A2 5 128) (i 0) (i 1)
def G1final (c : Dev nD) : S50000x128.Idx → EReal := fun i =>
  finalF (V c main_arg0 : A2 50000 128) (V c main_v34 : A2 50000 128) (V c main_arg2 : A2 128 5) (V c main_v37 : A2 1 5)
    (V c main_arg1 : A2 5 128) (V c main_v35 : A2 128 2) (V c main_v36 : A2 128 2) (V c main_v38 : A2 1 2) (i 0) (i 1)

/-- Entry (r, d) of result block 8 at point t sits at (5000 t + r, d) of its array. -/
theorem out1_8_emb (t : Fin cfg1.N) (r : Fin 5000) (d : Fin 128) (h : 5000 * t.val + r.val < 50000) :
    (((cfg1.win 8).blk t).view.emb (ix2 r d) : S50000x128.Idx) = ix2 ⟨5000 * t.val + r.val, h⟩ d := by
  obtain ⟨-, -, -, -, -, -, -, -, -, -, -, -, -, -, -, -, e0, e1, -⟩ := idx_facts1 t
  funext a
  apply Fin.ext
  match a with
  | ⟨0, _⟩ => show win1_8.index t (0 : Fin 2) * 5000 + 1 * r.val = 5000 * t.val + r.val; rw [e0]; omega
  | ⟨1, _⟩ => show win1_8.index t (1 : Fin 2) * 128 + 1 * d.val = d.val; rw [e1]; omega

/-- Entry (r, d) of result block 9 at point t sits at (5000 t + r, d) of its array. -/
theorem out1_9_emb (t : Fin cfg1.N) (r : Fin 5000) (d : Fin 128) (h : 5000 * t.val + r.val < 50000) :
    (((cfg1.win 9).blk t).view.emb (ix2 r d) : S50000x128.Idx) = ix2 ⟨5000 * t.val + r.val, h⟩ d := by
  obtain ⟨-, -, -, -, -, -, -, -, -, -, -, -, -, -, -, -, -, -, e0, e1⟩ := idx_facts1 t
  funext a
  apply Fin.ext
  match a with
  | ⟨0, _⟩ => show win1_9.index t (0 : Fin 2) * 5000 + 1 * r.val = 5000 * t.val + r.val; rw [e0]; omega
  | ⟨1, _⟩ => show win1_9.index t (1 : Fin 2) * 128 + 1 * d.val = d.val; rw [e1]; omega

/-- What point t leaves in the first result's staging buffer is block t of G1npx. -/
theorem stored1_8 (c : Dev nD) (t : Fin cfg1.N) :
    (k1_pay3 (F := Ideal) (iblk1 V c 0 t) (iblk1 V c 2 t) (iblk1 V c 3 t) (iblk1 V c 4 t) : S5000x128.Idx → EReal)
      = fun j : S5000x128.Idx => G1npx V c (((cfg1.win 8).blk t).view.emb j) := by
  funext j
  obtain ⟨r, d, rfl⟩ : ∃ (r : Fin 5000) (d : Fin 128), j = ix2 r d := ⟨j 0, j 1, eq_ix2 j⟩
  have hN : grid1.N = 10 := N_1
  have ht : t.val < grid1.N := t.isLt
  have h : 5000 * t.val + r.val < 50000 := by have := r.isLt; omega
  rw [whole1_2 V c t, whole1_3 V c t, whole1_4 V c t]
  show _ = G1npx V c _
  rw [out1_8_emb t r d h]
  exact npx_rows (iblk1 V c 0 t) (V c main_arg2) (V c main_v37) (V c main_arg1) (V c main_arg0) r d ⟨5000 * t.val + r.val, h⟩
    (fun k => read1_0 V c t r k h)

/-- What point t leaves in the second result's staging buffer is block t of G1final. -/
theorem stored1_9 (c : Dev nD) (t : Fin cfg1.N) :
    (k1_pay1 (F := Ideal) (k1_pay2 (iblk1 V c 1 t)) (k1_pay3 (iblk1 V c 0 t) (iblk1 V c 2 t) (iblk1 V c 3 t) (iblk1 V c 4 t))
        (k1_pay4 (iblk1 V c 0 t) (iblk1 V c 1 t) (iblk1 V c 2 t) (iblk1 V c 3 t) (iblk1 V c 4 t) (iblk1 V c 5 t) (iblk1 V c 6 t))
        (k1_pay5 (iblk1 V c 7 t)) : S5000x128.Idx → EReal)
      = fun j : S5000x128.Idx => G1final V c (((cfg1.win 9).blk t).view.emb j) := by
  funext j
  obtain ⟨r, d, rfl⟩ : ∃ (r : Fin 5000) (d : Fin 128), j = ix2 r d := ⟨j 0, j 1, eq_ix2 j⟩
  have hN : grid1.N = 10 := N_1
  have ht : t.val < grid1.N := t.isLt
  have h : 5000 * t.val + r.val < 50000 := by have := r.isLt; omega
  rw [whole1_2 V c t, whole1_3 V c t, whole1_4 V c t, whole1_5 V c t, whole1_6 V c t, whole1_7 V c t]
  show _ = G1final V c _
  rw [out1_9_emb t r d h]
  exact final_rows (iblk1 V c 0 t) (iblk1 V c 1 t) (V c main_arg2) (V c main_v37) (V c main_arg1) (V c main_v35) (V c main_v36)
    (V c main_v38) (V c main_arg0) (V c main_v34) r d ⟨5000 * t.val + r.val, h⟩
    (fun k => read1_0 V c t r k h) (fun k => read1_1 V c t r k h)

/-- What point t writes back to the first result is block t of G1npx. -/
theorem flushed1_8_eq (c : Dev nD) (t : Fin cfg1.N) :
    (dat1 V c).flushed 8 t = ((cfg1.win 8).blk t).view.read (Elt Ideal) (G1npx V c) := by
  show (cfg1.win 8).cut (grid1.coords t) ((dat1 V c).after 8 t) = _
  rw [after1_8]
  unfold out1_8
  rw [View.canon_unit_zero zeros1]
  simp only [View.ld_unit_zero (S := S5000x128) zeros1, View.ld_unit_zero (S := S128x5) zeros1, View.ld_unit_zero (S := S1x5) zeros1,
    View.ld_unit_zero (S := S5x128) zeros1, View.ld_unit_zero (S := S128x2) zeros1, View.ld_unit_zero (S := S1x2) zeros1]
  exact stored1_8 V c t

/-- What point t writes back to the second result is block t of G1final. -/
theorem flushed1_9_eq (c : Dev nD) (t : Fin cfg1.N) :
    (dat1 V c).flushed 9 t = ((cfg1.win 9).blk t).view.read (Elt Ideal) (G1final V c) := by
  show (cfg1.win 9).cut (grid1.coords t) ((dat1 V c).after 9 t) = _
  rw [after1_9]
  unfold out1_9
  rw [View.canon_unit_zero zeros1]
  simp only [View.ld_unit_zero (S := S5000x128) zeros1, View.ld_unit_zero (S := S128x5) zeros1, View.ld_unit_zero (S := S1x5) zeros1,
    View.ld_unit_zero (S := S5x128) zeros1, View.ld_unit_zero (S := S128x2) zeros1, View.ld_unit_zero (S := S1x2) zeros1]
  exact stored1_9 V c t

/-- An index of result array 8 is in point t's block iff each coordinate is in the block's range on its axis. -/
theorem mem_blk1_8 (t : Fin cfg1.N) (i : S50000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v39_0).slice (win1_8.rect t)).set ↔ _
  rw [View.set_slice_whole, Rect.mem_set_unit]
  exact Iff.rfl

/-- Row n of result array 8 is in the block of point n / 5000. -/
theorem cover1_8_rows (i : S50000x128.Idx) :
    ∃ t : Fin cfg1.N, (cfg1.win 8).flush t = true ∧ i ∈ ((cfg1.win 8).blk t).view.set := by
  have hi0 : (i 0).val < 50000 := idx2_lt0 i
  have hi1 : (i 1).val < 128 := idx2_lt1 i
  have hN : grid1.N = 10 := N_1
  obtain ⟨t, ht⟩ : ∃ t : Fin cfg1.N, t.val = (i 0).val / 5000 := ⟨⟨(i 0).val / 5000, by show _ < grid1.N; omega⟩, rfl⟩
  obtain ⟨-, -, -, -, -, -, -, -, -, -, -, -, -, -, -, -, e0, e1, -⟩ := idx_facts1 t
  refine ⟨t, flush1_8 t, ?_⟩
  rw [mem_blk1_8]
  intro a
  match a with
  | ⟨0, _⟩ =>
    show win1_8.index t (0 : Fin 2) * 5000 ≤ (i 0).val ∧ (i 0).val < win1_8.index t (0 : Fin 2) * 5000 + 5000
    rw [e0, ht]; omega
  | ⟨1, _⟩ =>
    show win1_8.index t (1 : Fin 2) * 128 ≤ (i 1).val ∧ (i 1).val < win1_8.index t (1 : Fin 2) * 128 + 128
    rw [e1]; omega

/-- An index of result array 9 is in point t's block iff each coordinate is in the block's range on its axis. -/
theorem mem_blk1_9 (t : Fin cfg1.N) (i : S50000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v39_1).slice (win1_9.rect t)).set ↔ _
  rw [View.set_slice_whole, Rect.mem_set_unit]
  exact Iff.rfl

/-- Row n of result array 9 is in the block of point n / 5000. -/
theorem cover1_9_rows (i : S50000x128.Idx) :
    ∃ t : Fin cfg1.N, (cfg1.win 9).flush t = true ∧ i ∈ ((cfg1.win 9).blk t).view.set := by
  have hi0 : (i 0).val < 50000 := idx2_lt0 i
  have hi1 : (i 1).val < 128 := idx2_lt1 i
  have hN : grid1.N = 10 := N_1
  obtain ⟨t, ht⟩ : ∃ t : Fin cfg1.N, t.val = (i 0).val / 5000 := ⟨⟨(i 0).val / 5000, by show _ < grid1.N; omega⟩, rfl⟩
  obtain ⟨-, -, -, -, -, -, -, -, -, -, -, -, -, -, -, -, -, -, e0, e1⟩ := idx_facts1 t
  refine ⟨t, flush1_9 t, ?_⟩
  rw [mem_blk1_9]
  intro a
  match a with
  | ⟨0, _⟩ =>
    show win1_9.index t (0 : Fin 2) * 5000 ≤ (i 0).val ∧ (i 0).val < win1_9.index t (0 : Fin 2) * 5000 + 5000
    rw [e0, ht]; omega
  | ⟨1, _⟩ =>
    show win1_9.index t (1 : Fin 2) * 128 ≤ (i 1).val ∧ (i 1).val < win1_9.index t (1 : Fin 2) * 128 + 128
    rw [e1]; omega

/-- The node region's first result array, entry by entry: the prompted features of the arrays the region finds. -/
theorem region1_npx (c : Dev nD) (n : Fin 50000) (d : Fin 128) :
    (dat1 V c).arrAt 8 cfg1.N (ix2 n d)
      = npxF (V c main_arg0 : A2 50000 128) (V c main_arg2 : A2 128 5) (V c main_v37 : A2 1 5) (V c main_arg1 : A2 5 128) n d :=
  congrFun ((dat1 V c).arrAt_eq_of_cover 8 (G1npx V c) (fun t _ => flushed1_8_eq V c t) cover1_8_rows) (ix2 n d)

/-- The node region's second result array, entry by entry: the gated output of the arrays the region finds. -/
theorem region1_final (c : Dev nD) (n : Fin 50000) (d : Fin 128) :
    (dat1 V c).arrAt 9 cfg1.N (ix2 n d)
      = finalF (V c main_arg0 : A2 50000 128) (V c main_v34 : A2 50000 128) (V c main_arg2 : A2 128 5) (V c main_v37 : A2 1 5)
    (V c main_arg1 : A2 5 128) (V c main_v35 : A2 128 2) (V c main_v36 : A2 128 2) (V c main_v38 : A2 1 2) n d :=
  congrFun ((dat1 V c).arrAt_eq_of_cover 9 (G1final V c) (fun t _ => flushed1_9_eq V c t) cover1_9_rows) (ix2 n d)

end Cert.KernBlocks

end
-- ==== Proof.KernFormSpec.lean ====
/-
  The block forms of the two kernel bodies, taken over the whole arrays the two passes find, are the specification:
  the edge pass finds the gathered rows of every edge's end points, the two halves of the edge weights and the bias
  as a one-row matrix; the node pass finds the node features, what the scatter-add left, the two halves of the gate
  weights and the two biases as one-row matrices. And one scatter-add over two index lists set end to end is two
  scatter-adds in a row: a sum over 2n positions filtered by a predicate is the sum over the first n plus the sum
  over the last n, and sums associate.
-/
import proofs.«162870_j34248069218340_2_alg».proof.Proof.KernForm

noncomputable section

open scoped BigOperators

namespace Cert.KernForm

open Idealize.ShloMosaic Idealize.ShloMosaic.ValueIdx Cert.Spec

/-- Two matrices that agree at every (p, q) are one. -/
theorem ext_ix2 {α : Type} {a b : ℕ} {f g : (⟨2, ![a, b]⟩ : Shape).Idx → α} (h : ∀ p q, f (ix2 p q) = g (ix2 p q)) : f = g :=
  funext fun i => by rw [eq_ix2 i]; exact h _ _

/-- A filtered sum over 2n positions: the first n positions, then the last n. -/
theorem sum_filter_halves {M : Type*} [AddCommMonoid M] {n : ℕ} (P : Fin (n + n) → Prop) [DecidablePred P] (f : Fin (n + n) → M) :
    ∑ j ∈ Finset.univ.filter P, f j
      = (∑ e ∈ Finset.univ.filter (fun e : Fin n => P (Fin.castAdd n e)), f (Fin.castAdd n e))
        + ∑ e ∈ Finset.univ.filter (fun e : Fin n => P (Fin.natAdd n e)), f (Fin.natAdd n e) := by
  rw [Finset.sum_filter, Fin.sum_univ_add, ← Finset.sum_filter, ← Finset.sum_filter]

variable (x : A2 50000 128) (nodeAnchor : A2 5 128) (attW : A2 128 5) (attB : A1 5) (edgeAnchor : A2 5 128)
  (edgeW : A2 256 5) (edgeB : A1 5) (gateW : A2 256 2) (gateB : A1 2)
  (ei : (⟨2, ![2, 640000]⟩ : Shape).Idx → BitVec 32)

/-- The edge pass over all 640000 edges is the specification's edge prompt. -/
theorem epF_spec (xs xd : A2 640000 128) (ws wd : A2 128 5) (b : A2 1 5) (anchor : A2 5 128)
    (hs : ∀ e k, xs (ix2 e k) = x (ix2 (row (srcW ei e)) k)) (hd : ∀ e k, xd (ix2 e k) = x (ix2 (row (dstW ei e)) k))
    (hws : ∀ k a, ws (ix2 k a) = edgeW (ix2 (lo k) a)) (hwd : ∀ k a, wd (ix2 k a) = edgeW (ix2 (hi k) a))
    (hb : ∀ a, b (ix2 (0 : Fin 1) a) = edgeB (ix1 a)) (ha : anchor = edgeAnchor) (e : Fin 640000) (d : Fin 128) :
    epF xs xd ws wd b anchor e d = ep x edgeAnchor edgeW edgeB ei e d := by
  subst ha
  unfold epF ep edgeLogit
  refine Finset.sum_congr rfl fun a _ => congrArg (· * anchor (ix2 a d)) ?_
  refine congrArg (fun l => smax l a) (funext fun a' => congrArg lrelu ?_)
  refine congrArg₂ (· + ·) (congrArg₂ (· + ·) (Finset.sum_congr rfl fun k _ => ?_) (Finset.sum_congr rfl fun k _ => ?_)) (hb a')
  · rw [hs, hws]
  · rw [hd, hwd]

/-- The node pass's prompted features over all 50000 nodes are the specification's. -/
theorem npxF_spec (x' : A2 50000 128) (w' : A2 128 5) (b' : A2 1 5) (an' : A2 5 128)
    (hx : x' = x) (hw : w' = attW) (hb : ∀ a, b' (ix2 (0 : Fin 1) a) = attB (ix1 a)) (ha : an' = nodeAnchor)
    (n : Fin 50000) (d : Fin 128) :
    npxF x' w' b' an' n d = npx x nodeAnchor attW attB n d := by
  subst hx hw ha
  unfold npxF npx nodeLogit
  refine congrArg (x' (ix2 n d) + ·) (Finset.sum_congr rfl fun a _ => congrArg (· * an' (ix2 a d)) ?_)
  refine congrArg (fun l => smax l a) (funext fun a' => ?_)
  rw [hb]

/-- The node pass's gated output over all 50000 nodes is the specification's. -/
theorem finalF_spec (x' ea' : A2 50000 128) (w' : A2 128 5) (b' : A2 1 5) (an' : A2 5 128) (g1 g2 : A2 128 2) (gb : A2 1 2)
    (hx : x' = x) (hw : w' = attW) (hb : ∀ a, b' (ix2 (0 : Fin 1) a) = attB (ix1 a)) (ha : an' = nodeAnchor)
    (hea : ∀ n d, ea' (ix2 n d) = eagg x edgeAnchor edgeW edgeB ei n d)
    (hg1 : ∀ k g, g1 (ix2 k g) = gateW (ix2 (lo k) g)) (hg2 : ∀ k g, g2 (ix2 k g) = gateW (ix2 (hi k) g))
    (hgb : ∀ g, gb (ix2 (0 : Fin 1) g) = gateB (ix1 g)) (n : Fin 50000) (d : Fin 128) :
    finalF x' ea' w' b' an' g1 g2 gb n d
      = final x nodeAnchor attW attB edgeAnchor edgeW edgeB gateW gateB ei n d := by
  have hn : ∀ n d, npxF x' w' b' an' n d = npx x nodeAnchor attW attB n d :=
    fun n d => npxF_spec x nodeAnchor attW attB x' w' b' an' hx hw hb ha n d
  have hgate : gateF x' ea' w' b' an' g1 g2 gb n = gateLogit x nodeAnchor attW attB edgeAnchor edgeW edgeB gateW gateB ei n := by
    funext g
    unfold gateF gateLogit
    refine congrArg₂ (· + ·) (congrArg₂ (· + ·) (Finset.sum_congr rfl fun k _ => ?_) (Finset.sum_congr rfl fun k _ => ?_)) (hgb g)
    · rw [hn, hg1]
    · rw [hea, hg2]
  unfold finalF final
  rw [hgate, hn, hea]

end Cert.KernForm

end
-- ==== Proof.KernValue.lean ====
/-
  The kernel program's four result arrays, entry by entry, as the specification's functions of the arrays as
  launched: each result is where the chain of passes and host stretches leaves it, every pass's array is the block
  formula over the arrays the pass found, and those are the gathered rows, weight halves and one-row biases the host
  stretches make of the arguments.
-/
import proofs.«162870_j34248069218340_2_alg».proof.Proof.KernChain
import proofs.«162870_j34248069218340_2_alg».proof.Proof.KernHostA
import proofs.«162870_j34248069218340_2_alg».proof.Proof.KernHostB
import proofs.«162870_j34248069218340_2_alg».proof.Proof.KernHostC
import proofs.«162870_j34248069218340_2_alg».proof.Proof.KernBlocks0
import proofs.«162870_j34248069218340_2_alg».proof.Proof.KernBlocks1
import proofs.«162870_j34248069218340_2_alg».proof.Proof.KernFormSpec

set_option maxRecDepth 16384

noncomputable section

open scoped BigOperators

namespace Cert.KernValue

open Cert.KernelIdeal Cert.KernelIdeal.Gen Cert.KernHost
open Idealize.ShloMosaic Idealize.ShloMosaic.TcCoe Idealize.ShloMosaic.ValueIdx

variable (m : (ℓ : Loc nD τ sig) → Buf (Elt Ideal) ℓ) (ρ : Dev nD → PrngReg) (c : Dev nD)

/-- The edge pass's array, as the edge pass leaves it, is the specification's edge prompt. -/
theorem edge_array (e : Fin 640000) (d : Fin 128) :
    ((dat0 (V1 m ρ) c).arrAt 6 cfg0.N : S640000x128.Idx → EReal) (ix2 e d)
      = Cert.Spec.ep (X0 m c) (X4 m c) (X5 m c) (X6 m c) (X9 m c) e d :=
  (Cert.KernBlocks.region0_value (V1 m ρ) c e d).trans
    (Cert.KernForm.epF_spec (X0 m c) (X4 m c) (X5 m c) (X6 m c) (X9 m c) _ _ _ _ _ _
      (V1_v11 m ρ c) (V1_v18 m ρ c) (V1_v20 m ρ c) (V1_v22 m ρ c) (V1_v23 m ρ c) (V1_arg4 m ρ c) e d)

/-- The edge prompts at the end of the run. -/
theorem kern_ep (e : Fin 640000) (d : Fin 128) :
    (W4 m ρ c (Proc.devRef .tc main_v24) : S640000x128.Idx → EReal) (ix2 e d)
      = Cert.Spec.ep (X0 m c) (X4 m c) (X5 m c) (X6 m c) (X9 m c) e d :=
  (congrFun (Cert.KernChain.W4_ep m ρ c) (ix2 e d)).trans (edge_array m ρ c e d)

/-- The prompted node features at the end of the run. -/
theorem kern_npx (n : Fin 50000) (d : Fin 128) :
    (W4 m ρ c (Proc.devRef .tc main_v39_0) : S50000x128.Idx → EReal) (ix2 n d)
      = Cert.Spec.npx (X0 m c) (X1 m c) (X2 m c) (X3 m c) n d :=
  (congrFun (Cert.KernChain.W4_npx m ρ c) (ix2 n d)).trans
    ((Cert.KernBlocks.region1_npx (V3 m ρ) c n d).trans
      (Cert.KernForm.npxF_spec (X0 m c) (X1 m c) (X2 m c) (X3 m c) _ _ _ _
        (V3_arg0 m ρ c) (V3_arg2 m ρ c) (V3_v37 m ρ c) (V3_arg1 m ρ c) n d))

/-- What the scatter-add leaves, as the node pass finds it: the specification's aggregated prompts. -/
theorem agg_array (v : Fin 50000) (d : Fin 128) :
    (V3 m ρ c main_v34 : S50000x128.Idx → EReal) (ix2 v d)
      = Cert.Spec.eagg (X0 m c) (X4 m c) (X5 m c) (X6 m c) (X9 m c) v d :=
  V3_v34_eagg m ρ c (Cert.Spec.ep (X0 m c) (X4 m c) (X5 m c) (X6 m c) (X9 m c))
    (fun e d => (congrFun (W2_arr m ρ c 6) (ix2 e d)).trans (edge_array m ρ c e d)) v d

/-- The aggregated prompts at the end of the run. -/
theorem kern_eagg (v : Fin 50000) (d : Fin 128) :
    (W4 m ρ c (Proc.devRef .tc main_v34) : S50000x128.Idx → EReal) (ix2 v d)
      = Cert.Spec.eagg (X0 m c) (X4 m c) (X5 m c) (X6 m c) (X9 m c) v d :=
  (congrFun (Cert.KernChain.W4_eagg m ρ c) (ix2 v d)).trans (agg_array m ρ c v d)

/-- The layer's output at the end of the run. -/
theorem kern_final (n : Fin 50000) (d : Fin 128) :
    (W4 m ρ c (Proc.devRef .tc main_v39_1) : S50000x128.Idx → EReal) (ix2 n d)
      = Cert.Spec.final (X0 m c) (X1 m c) (X2 m c) (X3 m c) (X4 m c) (X5 m c) (X6 m c) (X7 m c) (X8 m c) (X9 m c) n d :=
  (congrFun (Cert.KernChain.W4_final m ρ c) (ix2 n d)).trans
    ((Cert.KernBlocks.region1_final (V3 m ρ) c n d).trans
      (Cert.KernForm.finalF_spec (X0 m c) (X1 m c) (X2 m c) (X3 m c) (X4 m c) (X5 m c) (X6 m c) (X7 m c) (X8 m c) (X9 m c)
        _ _ _ _ _ _ _ _
        (V3_arg0 m ρ c) (V3_arg2 m ρ c) (V3_v37 m ρ c) (V3_arg1 m ρ c) (agg_array m ρ c)
        (V3_v35 m ρ c) (V3_v36 m ρ c) (V3_v38 m ρ c) n d))

end Cert.KernValue

end
-- ==== Proof.RefRun.lean ====
/-
  The reference program's run: its straight line of host operations, listed in stretches cut where the
  mathematics cuts (the call of the outlined leaky ReLU written out as the operations of its body over the call's own
  buffers), the program shown equal to that line, and the line's run read back: every weakly fair execution terminates
  with each buffer at the fold of the operations over the contents at the launch.
-/
import proofs.«162870_j34248069218340_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The two rows of the edge list as vectors of index words. -/
abbrev opsIdx : List (HloOp τ sig (Elt F)) :=
  [ StableHlo.unary main_arg9 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg9 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000 ]

theorem opsIdx_sub : (opsIdx : List (HloOp τ sig (Elt F))).Forall fun op => op.bufs ⊆ tcRefs τ sig :=
  ⟨unary_bufs_sub .., reshape_bufs_sub .., unary_bufs_sub .., reshape_bufs_sub ..⟩

theorem opsIdx_fresh : ∀ op ∈ (opsIdx : List (HloOp τ sig (Elt F))), op.fresh = ∅ := by
  intro _ h; (repeat (cases h with | head => rfl | tail _ h => ?_)); exact nomatch h

/-- The nodes' attention logits: features against the weights, plus the bias. -/
abbrev opsNodeLogit : List (HloOp τ sig (Elt F)) :=
  [ StableHlo.binary main_arg0 main_arg2 main_v4 ((fun l r => Host.dotGeneral dot_S50000x128_S128x5_S50000x5_1_0_0_1_n_n none l r) : (⟨S50000x128, .f32⟩ : BufTy).Contents (Elt F) → (⟨S128x5, .f32⟩ : BufTy).Contents (Elt F) → (⟨S50000x5, .f32⟩ : BufTy).Contents (Elt F)),
    StableHlo.unary main_arg3 main_v5 (broadcastInDim S1x5 ![1] bcast_S5_S1x5_1 : (⟨S5, .f32⟩ : BufTy).Contents (Elt F) → (⟨S1x5, .f32⟩ : BufTy).Contents (Elt F)),
    StableHlo.unary main_v5 main_v6 (broadcastInDim S50000x5 ![0, 1] bcast_S1x5_S50000x5_0_1 : (⟨S1x5, .f32⟩ : BufTy).Contents (Elt F) → (⟨S50000x5, .f32⟩ : BufTy).Contents (Elt F)),
    StableHlo.binary main_v4 main_v6 main_v7 (addf : (⟨S50000x5, .f32⟩ : BufTy).Contents (Elt F) → (⟨S50000x5, .f32⟩ : BufTy).Contents (Elt F) → (⟨S50000x5, .f32⟩ : BufTy).Contents (Elt F)) ]

theorem opsNodeLogit_sub : (opsNodeLogit : List (HloOp τ sig (Elt F))).Forall fun op => op.bufs ⊆ tcRefs τ sig :=
  ⟨binary_bufs_sub .., unary_bufs_sub .., unary_bufs_sub .., binary_bufs_sub ..⟩

theorem opsNodeLogit_fresh : ∀ op ∈ (opsNodeLogit : List (HloOp τ sig (Elt F))), op.fresh = ∅ := by
  intro _ h; (repeat (cases h with | head => rfl | tail _ h => ?_)); exact nomatch h

/-- The softmax of each node's row of logits. -/
abbrev opsNodeSmax : List (HloOp τ sig (Elt F)) :=
  [ StableHlo.nullary main_cst (constant S_ .f32 0xFF800000#32),
    StableHlo.binary main_v7 main_cst main_v8 ((fun x v => Host.reduce FloatOps.maximumf x v reducesTo_S50000x5_S50000_d1 h_S_) : (⟨S50000x5, .f32⟩ : BufTy).Contents (Elt F) → (⟨S_, .f32⟩ : BufTy).Contents (Elt F) → (⟨S50000, .f32⟩ : BufTy).Contents (Elt F)),
    StableHlo.nullary main_cst_0 (constant S_ .f32 0xFF800000#32),
    StableHlo.unary main_cst_0 main_v9 (broadcastInDim S50000 ![] bcast_S_S50000 : (⟨S_, .f32⟩ : BufTy).Contents (Elt F) → (⟨S50000, .f32⟩ : BufTy).Contents (Elt F)),
    StableHlo.binary main_v9 main_v8 main_v10 (maximumf : (⟨S50000, .f32⟩ : BufTy).Contents (Elt F) → (⟨S50000, .f32⟩ : BufTy).Contents (Elt F) → (⟨S50000, .f32⟩ : BufTy).Contents (Elt F)),
    StableHlo.unary main_v10 main_v11 (broadcastInDim S50000x1 ![0] bcast_S50000_S50000x1_0 : (⟨S50000, .f32⟩ : BufTy).Contents (Elt F) → (⟨S50000x1, .f32⟩ : BufTy).Contents (Elt F)),
    StableHlo.unary main_v11 main_v12 (broadcastInDim S50000x5 ![0, 1] bcast_S50000x1_S50000x5_0_1 : (⟨S50000x1, .f32⟩ : BufTy).Contents (Elt F) → (⟨S50000x5, .f32⟩ : BufTy).Contents (Elt F)),
    StableHlo.binary main_v7 main_v12 main_v13 (subf : (⟨S50000x5, .f32⟩ : BufTy).Contents (Elt F) → (⟨S50000x5, .f32⟩ : BufTy).Contents (Elt F) → (⟨S50000x5, .f32⟩ : BufTy).Contents (Elt F)),
    StableHlo.unary main_v13 main_v14 (Host.exp : (⟨S50000x5, .f32⟩ : BufTy).Contents (Elt F) → (⟨S50000x5, .f32⟩ : BufTy).Contents (Elt F)),
    StableHlo.nullary main_cst_1 (constant S_ .f32 0x00000000#32),
    StableHlo.binary main_v14 main_cst_1 main_v15 ((fun x v => Host.reduceAdd x v reducesTo_S50000x5_S50000_d1 h_S_) : (⟨S50000x5, .f32⟩ : BufTy).Contents (Elt F) → (⟨S_, .f32⟩ : BufTy).Contents (Elt F) → (⟨S50000, .f32⟩ : BufTy).Contents (Elt F)),
    StableHlo.unary main_v15 main_v16 (broadcastInDim S50000x1 ![0] bcast_S50000_S50000x1_0 : (⟨S50000, .f32⟩ : BufTy).Contents (Elt F) → (⟨S50000x1, .f32⟩ : BufTy).Contents (Elt F)),
    StableHlo.unary main_v16 main_v17 (broadcastInDim S50000x5 ![0, 1] bcast_S50000x1_S50000x5_0_1 : (⟨S50000x1, .f32⟩ : BufTy).Contents (Elt F) → (⟨S50000x5, .f32⟩ : BufTy).Contents (Elt F)),
    StableHlo.binary main_v14 main_v17 main_v18 (Host.divf : (⟨S50000x5, .f32⟩ : BufTy).Contents (Elt F) → (⟨S50000x5, .f32⟩ : BufTy).Contents (Elt F) → (⟨S50000x5, .f32⟩ : BufTy).Contents (Elt F)) ]

theorem opsNodeSmax_sub : (opsNodeSmax : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem opsNodeSmax_fresh : ∀ op ∈ (opsNodeSmax : List (HloOp τ sig (Elt F))), op.fresh = ∅ := by
  intro _ h; (repeat (cases h with | head => rfl | tail _ h => ?_)); exact nomatch h

/-- The nodes' prompted features: the softmax weights against the anchors, added to the features. -/
abbrev opsNodePrompt : List (HloOp τ sig (Elt F)) :=
  [ StableHlo.binary main_v18 main_arg1 main_v19 ((fun l r => Host.dotGeneral dot_S50000x5_S5x128_S50000x128_1_0_0_1_n_n none l r) : (⟨S50000x5, .f32⟩ : BufTy).Contents (Elt F) → (⟨S5x128, .f32⟩ : BufTy).Contents (Elt F) → (⟨S50000x128, .f32⟩ : BufTy).Contents (Elt F)),
    StableHlo.binary main_arg0 main_v19 main_v20 (addf : (⟨S50000x128, .f32⟩ : BufTy).Contents (Elt F) → (⟨S50000x128, .f32⟩ : BufTy).Contents (Elt F) → (⟨S50000x128, .f32⟩ : BufTy).Contents (Elt F)) ]

theorem opsNodePrompt_sub : (opsNodePrompt : List (HloOp τ sig (Elt F))).Forall fun op => op.bufs ⊆ tcRefs τ sig :=
  ⟨binary_bufs_sub .., binary_bufs_sub ..⟩

theorem opsNodePrompt_fresh : ∀ op ∈ (opsNodePrompt : List (HloOp τ sig (Elt F))), op.fresh = ∅ := by
  intro _ h; (repeat (cases h with | head => rfl | tail _ h => ?_)); exact nomatch h

/-- The start points' index words normalised, and their rows of features gathered. -/
abbrev opsSrcGather : List (HloOp τ sig (Elt F)) :=
  [ StableHlo.nullary main_c (constantI S_ 32 0#32),
    StableHlo.unary main_c main_v21 (broadcastInDim S640000 ![] bcast_S_S640000 : (⟨S_, .i32⟩ : BufTy).Contents (Elt F) → (⟨S640000, .i32⟩ : BufTy).Contents (Elt F)),
    StableHlo.binary main_v1 main_v21 main_v22 (cmpi .slt : (⟨S640000, .i32⟩ : BufTy).Contents (Elt F) → (⟨S640000, .i32⟩ : BufTy).Contents (Elt F) → (⟨S640000, .i1⟩ : BufTy).Contents (Elt F)),
    StableHlo.nullary main_c_2 (constantI S_ 32 50000#32),
    StableHlo.unary main_c_2 main_v23 (broadcastInDim S640000 ![] bcast_S_S640000 : (⟨S_, .i32⟩ : BufTy).Contents (Elt F) → (⟨S640000, .i32⟩ : BufTy).Contents (Elt F)),
    StableHlo.binary main_v1 main_v23 main_v24 (addi : (⟨S640000, .i32⟩ : BufTy).Contents (Elt F) → (⟨S640000, .i32⟩ : BufTy).Contents (Elt F) → (⟨S640000, .i32⟩ : BufTy).Contents (Elt F)),
    StableHlo.ternary main_v22 main_v24 main_v1 main_v25 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v25 main_v26 (broadcastInDim S640000x1 ![0] bcast_S640000_S640000x1_0 : (⟨S640000, .i32⟩ : BufTy).Contents (Elt F) → (⟨S640000x1, .i32⟩ : BufTy).Contents (Elt F)),
    StableHlo.binary main_arg0 main_v26 main_v27 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)) ]

theorem opsSrcGather_sub : (opsSrcGather : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem opsSrcGather_fresh : ∀ op ∈ (opsSrcGather : List (HloOp τ sig (Elt F))), op.fresh = ∅ := by
  intro _ h; (repeat (cases h with | head => rfl | tail _ h => ?_)); exact nomatch h

/-- The end points' index words normalised, and their rows of features gathered. -/
abbrev opsDstGather : List (HloOp τ sig (Elt F)) :=
  [ StableHlo.nullary main_c_3 (constantI S_ 32 0#32),
    StableHlo.unary main_c_3 main_v28 (broadcastInDim S640000 ![] bcast_S_S640000 : (⟨S_, .i32⟩ : BufTy).Contents (Elt F) → (⟨S640000, .i32⟩ : BufTy).Contents (Elt F)),
    StableHlo.binary main_v3 main_v28 main_v29 (cmpi .slt : (⟨S640000, .i32⟩ : BufTy).Contents (Elt F) → (⟨S640000, .i32⟩ : BufTy).Contents (Elt F) → (⟨S640000, .i1⟩ : BufTy).Contents (Elt F)),
    StableHlo.nullary main_c_4 (constantI S_ 32 50000#32),
    StableHlo.unary main_c_4 main_v30 (broadcastInDim S640000 ![] bcast_S_S640000 : (⟨S_, .i32⟩ : BufTy).Contents (Elt F) → (⟨S640000, .i32⟩ : BufTy).Contents (Elt F)),
    StableHlo.binary main_v3 main_v30 main_v31 (addi : (⟨S640000, .i32⟩ : BufTy).Contents (Elt F) → (⟨S640000, .i32⟩ : BufTy).Contents (Elt F) → (⟨S640000, .i32⟩ : BufTy).Contents (Elt F)),
    StableHlo.ternary main_v29 main_v31 main_v3 main_v32 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v32 main_v33 (broadcastInDim S640000x1 ![0] bcast_S640000_S640000x1_0 : (⟨S640000, .i32⟩ : BufTy).Contents (Elt F) → (⟨S640000x1, .i32⟩ : BufTy).Contents (Elt F)),
    StableHlo.binary main_arg0 main_v33 main_v34 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)) ]

theorem opsDstGather_sub : (opsDstGather : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem opsDstGather_fresh : ∀ op ∈ (opsDstGather : List (HloOp τ sig (Elt F))), op.fresh = ∅ := by
  intro _ h; (repeat (cases h with | head => rfl | tail _ h => ?_)); exact nomatch h

/-- The edges' logits before the leaky ReLU: the two gathered rows side by side against the weights, plus the bias. -/
abbrev opsEdgeLogit : List (HloOp τ sig (Elt F)) :=
  [ StableHlo.binary main_v27 main_v34 main_v35 ((fun a b => concatenate S640000x256 1 [⟨S640000x128, a⟩, ⟨S640000x128, b⟩] concatenates_S640000x128_S640000x128_S640000x256_d1) : (⟨S640000x128, .f32⟩ : BufTy).Contents (Elt F) → (⟨S640000x128, .f32⟩ : BufTy).Contents (Elt F) → (⟨S640000x256, .f32⟩ : BufTy).Contents (Elt F)),
    StableHlo.binary main_v35 main_arg5 main_v36 ((fun l r => Host.dotGeneral dot_S640000x256_S256x5_S640000x5_1_0_0_1_n_n none l r) : (⟨S640000x256, .f32⟩ : BufTy).Contents (Elt F) → (⟨S256x5, .f32⟩ : BufTy).Contents (Elt F) → (⟨S640000x5, .f32⟩ : BufTy).Contents (Elt F)),
    StableHlo.unary main_arg6 main_v37 (broadcastInDim S1x5 ![1] bcast_S5_S1x5_1 : (⟨S5, .f32⟩ : BufTy).Contents (Elt F) → (⟨S1x5, .f32⟩ : BufTy).Contents (Elt F)),
    StableHlo.unary main_v37 main_v38 (broadcastInDim S640000x5 ![0, 1] bcast_S1x5_S640000x5_0_1 : (⟨S1x5, .f32⟩ : BufTy).Contents (Elt F) → (⟨S640000x5, .f32⟩ : BufTy).Contents (Elt F)),
    StableHlo.binary main_v36 main_v38 main_v39 (addf : (⟨S640000x5, .f32⟩ : BufTy).Contents (Elt F) → (⟨S640000x5, .f32⟩ : BufTy).Contents (Elt F) → (⟨S640000x5, .f32⟩ : BufTy).Contents (Elt F)) ]

theorem opsEdgeLogit_sub : (opsEdgeLogit : List (HloOp τ sig (Elt F))).Forall fun op => op.bufs ⊆ tcRefs τ sig :=
  ⟨binary_bufs_sub .., binary_bufs_sub .., unary_bufs_sub .., unary_bufs_sub .., binary_bufs_sub ..⟩

theorem opsEdgeLogit_fresh : ∀ op ∈ (opsEdgeLogit : List (HloOp τ sig (Elt F))), op.fresh = ∅ := by
  intro _ h; (repeat (cases h with | head => rfl | tail _ h => ?_)); exact nomatch h

/-- The leaky ReLU of the edges' logits (the operations of the outlined function, at its call). -/
abbrev opsLrelu : List (HloOp τ sig (Elt F)) :=
  [ TRef.nullary main_call0.cst (constant S_ .f32 0x00000000#32),
    TRef.unary main_call0.cst main_call0.v0 (broadcastInDim S640000x5 ![] bcast_S_S640000x5),
    TRef.binary (.of main_v39 : TRef sig ⟨S640000x5, .f32⟩) main_call0.v0 main_call0.v1 (cmpf .oge),
    TRef.nullary main_call0.cst_0 (constant S_ .f32 0x3C23D70A#32),
    TRef.unary main_call0.cst_0 main_call0.v2 (broadcastInDim S640000x5 ![] bcast_S_S640000x5),
    TRef.binary main_call0.v2 (.of main_v39 : TRef sig ⟨S640000x5, .f32⟩) main_call0.v3 mulf,
    TRef.ternary main_call0.v1 (.of main_v39 : TRef sig ⟨S640000x5, .f32⟩) main_call0.v3 main_call0.call0.v0 select ]

theorem opsLrelu_sub : (opsLrelu : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩

theorem opsLrelu_fresh : ∀ op ∈ (opsLrelu : List (HloOp τ sig (Elt F))), op.fresh = ∅ := by
  intro _ h; (repeat (cases h with | head => rfl | tail _ h => ?_)); exact nomatch h

/-- The softmax of each edge's row of logits, up to the row sums as a column. -/
abbrev opsEdgeSmaxA : List (HloOp τ sig (Elt F)) :=
  [ StableHlo.nullary main_cst_5 (constant S_ .f32 0xFF800000#32),
    StableHlo.binary main_v40 main_cst_5 main_v41 ((fun x v => Host.reduce FloatOps.maximumf x v reducesTo_S640000x5_S640000_d1 h_S_) : (⟨S640000x5, .f32⟩ : BufTy).Contents (Elt F) → (⟨S_, .f32⟩ : BufTy).Contents (Elt F) → (⟨S640000, .f32⟩ : BufTy).Contents (Elt F)),
    StableHlo.nullary main_cst_6 (constant S_ .f32 0xFF800000#32),
    StableHlo.unary main_cst_6 main_v42 (broadcastInDim S640000 ![] bcast_S_S640000 : (⟨S_, .f32⟩ : BufTy).Contents (Elt F) → (⟨S640000, .f32⟩ : BufTy).Contents (Elt F)),
    StableHlo.binary main_v42 main_v41 main_v43 (maximumf : (⟨S640000, .f32⟩ : BufTy).Contents (Elt F) → (⟨S640000, .f32⟩ : BufTy).Contents (Elt F) → (⟨S640000, .f32⟩ : BufTy).Contents (Elt F)),
    StableHlo.unary main_v43 main_v44 (broadcastInDim S640000x1 ![0] bcast_S640000_S640000x1_0 : (⟨S640000, .f32⟩ : BufTy).Contents (Elt F) → (⟨S640000x1, .f32⟩ : BufTy).Contents (Elt F)),
    StableHlo.unary main_v44 main_v45 (broadcastInDim S640000x5 ![0, 1] bcast_S640000x1_S640000x5_0_1 : (⟨S640000x1, .f32⟩ : BufTy).Contents (Elt F) → (⟨S640000x5, .f32⟩ : BufTy).Contents (Elt F)),
    StableHlo.binary main_v40 main_v45 main_v46 (subf : (⟨S640000x5, .f32⟩ : BufTy).Contents (Elt F) → (⟨S640000x5, .f32⟩ : BufTy).Contents (Elt F) → (⟨S640000x5, .f32⟩ : BufTy).Contents (Elt F)),
    StableHlo.unary main_v46 main_v47 (Host.exp : (⟨S640000x5, .f32⟩ : BufTy).Contents (Elt F) → (⟨S640000x5, .f32⟩ : BufTy).Contents (Elt F)),
    StableHlo.nullary main_cst_7 (constant S_ .f32 0x00000000#32),
    StableHlo.binary main_v47 main_cst_7 main_v48 ((fun x v => Host.reduceAdd x v reducesTo_S640000x5_S640000_d1 h_S_) : (⟨S640000x5, .f32⟩ : BufTy).Contents (Elt F) → (⟨S_, .f32⟩ : BufTy).Contents (Elt F) → (⟨S640000, .f32⟩ : BufTy).Contents (Elt F)),
    StableHlo.unary main_v48 main_v49 (broadcastInDim S640000x1 ![0] bcast_S640000_S640000x1_0 : (⟨S640000, .f32⟩ : BufTy).Contents (Elt F) → (⟨S640000x1, .f32⟩ : BufTy).Contents (Elt F)) ]

theorem opsEdgeSmaxA_sub : (opsEdgeSmaxA : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub ..⟩

theorem opsEdgeSmaxA_fresh : ∀ op ∈ (opsEdgeSmaxA : List (HloOp τ sig (Elt F))), op.fresh = ∅ := by
  intro _ h; (repeat (cases h with | head => rfl | tail _ h => ?_)); exact nomatch h

/-- The softmax of each edge's row of logits, the division. -/
abbrev opsEdgeSmaxB : List (HloOp τ sig (Elt F)) :=
  [ StableHlo.unary main_v49 main_v50 (broadcastInDim S640000x5 ![0, 1] bcast_S640000x1_S640000x5_0_1 : (⟨S640000x1, .f32⟩ : BufTy).Contents (Elt F) → (⟨S640000x5, .f32⟩ : BufTy).Contents (Elt F)),
    StableHlo.binary main_v47 main_v50 main_v51 (Host.divf : (⟨S640000x5, .f32⟩ : BufTy).Contents (Elt F) → (⟨S640000x5, .f32⟩ : BufTy).Contents (Elt F) → (⟨S640000x5, .f32⟩ : BufTy).Contents (Elt F)) ]

theorem opsEdgeSmaxB_sub : (opsEdgeSmaxB : List (HloOp τ sig (Elt F))).Forall fun op => op.bufs ⊆ tcRefs τ sig :=
  ⟨unary_bufs_sub .., binary_bufs_sub ..⟩

theorem opsEdgeSmaxB_fresh : ∀ op ∈ (opsEdgeSmaxB : List (HloOp τ sig (Elt F))), op.fresh = ∅ := by
  intro _ h; (repeat (cases h with | head => rfl | tail _ h => ?_)); exact nomatch h

/-- The edges' prompts: the softmax weights against the edge anchors. -/
abbrev opsEdgePrompt : List (HloOp τ sig (Elt F)) :=
  [ StableHlo.binary main_v51 main_arg4 main_v52 ((fun l r => Host.dotGeneral dot_S640000x5_S5x128_S640000x128_1_0_0_1_n_n none l r) : (⟨S640000x5, .f32⟩ : BufTy).Contents (Elt F) → (⟨S5x128, .f32⟩ : BufTy).Contents (Elt F) → (⟨S640000x128, .f32⟩ : BufTy).Contents (Elt F)) ]

theorem opsEdgePrompt_sub : (opsEdgePrompt : List (HloOp τ sig (Elt F))).Forall fun op => op.bufs ⊆ tcRefs τ sig :=
  binary_bufs_sub ..

theorem opsEdgePrompt_fresh : ∀ op ∈ (opsEdgePrompt : List (HloOp τ sig (Elt F))), op.fresh = ∅ := by
  intro _ h; (repeat (cases h with | head => rfl | tail _ h => ?_)); exact nomatch h

/-- From zero, each edge's prompt added into the row of its start point. -/
abbrev opsScatSrc : List (HloOp τ sig (Elt F)) :=
  [ StableHlo.nullary main_cst_8 (constant S_ .f32 0x00000000#32),
    StableHlo.unary main_cst_8 main_v53 (broadcastInDim S50000x128 ![] bcast_S_S50000x128 : (⟨S_, .f32⟩ : BufTy).Contents (Elt F) → (⟨S50000x128, .f32⟩ : BufTy).Contents (Elt F)),
    StableHlo.nullary main_c_9 (constantI S_ 32 0#32),
    StableHlo.unary main_c_9 main_v54 (broadcastInDim S640000 ![] bcast_S_S640000 : (⟨S_, .i32⟩ : BufTy).Contents (Elt F) → (⟨S640000, .i32⟩ : BufTy).Contents (Elt F)),
    StableHlo.binary main_v1 main_v54 main_v55 (cmpi .slt : (⟨S640000, .i32⟩ : BufTy).Contents (Elt F) → (⟨S640000, .i32⟩ : BufTy).Contents (Elt F) → (⟨S640000, .i1⟩ : BufTy).Contents (Elt F)),
    StableHlo.nullary main_c_10 (constantI S_ 32 50000#32),
    StableHlo.unary main_c_10 main_v56 (broadcastInDim S640000 ![] bcast_S_S640000 : (⟨S_, .i32⟩ : BufTy).Contents (Elt F) → (⟨S640000, .i32⟩ : BufTy).Contents (Elt F)),
    StableHlo.binary main_v1 main_v56 main_v57 (addi : (⟨S640000, .i32⟩ : BufTy).Contents (Elt F) → (⟨S640000, .i32⟩ : BufTy).Contents (Elt F) → (⟨S640000, .i32⟩ : BufTy).Contents (Elt F)),
    StableHlo.ternary main_v55 main_v57 main_v1 main_v58 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v58 main_v59 (broadcastInDim S640000x1 ![0] bcast_S640000_S640000x1_0 : (⟨S640000, .i32⟩ : BufTy).Contents (Elt F) → (⟨S640000x1, .i32⟩ : BufTy).Contents (Elt F)),
    StableHlo.ternary main_v53 main_v59 main_v52 main_v60 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]

theorem opsScatSrc_sub : (opsScatSrc : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

theorem opsScatSrc_fresh : ∀ op ∈ (opsScatSrc : List (HloOp τ sig (Elt F))), op.fresh = ∅ := by
  intro _ h; (repeat (cases h with | head => rfl | tail _ h => ?_)); exact nomatch h

/-- Then each edge's prompt added into the row of its end point. -/
abbrev opsScatDst : List (HloOp τ sig (Elt F)) :=
  [ StableHlo.nullary main_c_11 (constantI S_ 32 0#32),
    StableHlo.unary main_c_11 main_v61 (broadcastInDim S640000 ![] bcast_S_S640000 : (⟨S_, .i32⟩ : BufTy).Contents (Elt F) → (⟨S640000, .i32⟩ : BufTy).Contents (Elt F)),
    StableHlo.binary main_v3 main_v61 main_v62 (cmpi .slt : (⟨S640000, .i32⟩ : BufTy).Contents (Elt F) → (⟨S640000, .i32⟩ : BufTy).Contents (Elt F) → (⟨S640000, .i1⟩ : BufTy).Contents (Elt F)),
    StableHlo.nullary main_c_12 (constantI S_ 32 50000#32),
    StableHlo.unary main_c_12 main_v63 (broadcastInDim S640000 ![] bcast_S_S640000 : (⟨S_, .i32⟩ : BufTy).Contents (Elt F) → (⟨S640000, .i32⟩ : BufTy).Contents (Elt F)),
    StableHlo.binary main_v3 main_v63 main_v64 (addi : (⟨S640000, .i32⟩ : BufTy).Contents (Elt F) → (⟨S640000, .i32⟩ : BufTy).Contents (Elt F) → (⟨S640000, .i32⟩ : BufTy).Contents (Elt F)),
    StableHlo.ternary main_v62 main_v64 main_v3 main_v65 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v65 main_v66 (broadcastInDim S640000x1 ![0] bcast_S640000_S640000x1_0 : (⟨S640000, .i32⟩ : BufTy).Contents (Elt F) → (⟨S640000x1, .i32⟩ : BufTy).Contents (Elt F)),
    StableHlo.ternary main_v60 main_v66 main_v52 main_v67 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]

theorem opsScatDst_sub : (opsScatDst : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., ternary_bufs_sub ..⟩

theorem opsScatDst_fresh : ∀ op ∈ (opsScatDst : List (HloOp τ sig (Elt F))), op.fresh = ∅ := by
  intro _ h; (repeat (cases h with | head => rfl | tail _ h => ?_)); exact nomatch h

/-- The nodes' two gate logits: prompted features and aggregated prompts side by side against the gate weights, plus the bias. -/
abbrev opsGateLogit : List (HloOp τ sig (Elt F)) :=
  [ StableHlo.binary main_v20 main_v67 main_v68 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.binary main_v68 main_arg7 main_v69 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg8 main_v70 (broadcastInDim S1x2 ![1] bcast_S2_S1x2_1 : (⟨S2, .f32⟩ : BufTy).Contents (Elt F) → (⟨S1x2, .f32⟩ : BufTy).Contents (Elt F)),
    StableHlo.unary main_v70 main_v71 (broadcastInDim S50000x2 ![0, 1] bcast_S1x2_S50000x2_0_1 : (⟨S1x2, .f32⟩ : BufTy).Contents (Elt F) → (⟨S50000x2, .f32⟩ : BufTy).Contents (Elt F)),
    StableHlo.binary main_v69 main_v71 main_v72 (addf : (⟨S50000x2, .f32⟩ : BufTy).Contents (Elt F) → (⟨S50000x2, .f32⟩ : BufTy).Contents (Elt F) → (⟨S50000x2, .f32⟩ : BufTy).Contents (Elt F)) ]

theorem opsGateLogit_sub : (opsGateLogit : List (HloOp τ sig (Elt F))).Forall fun op => op.bufs ⊆ tcRefs τ sig :=
  ⟨binary_bufs_sub .., binary_bufs_sub .., unary_bufs_sub .., unary_bufs_sub .., binary_bufs_sub ..⟩

theorem opsGateLogit_fresh : ∀ op ∈ (opsGateLogit : List (HloOp τ sig (Elt F))), op.fresh = ∅ := by
  intro _ h; (repeat (cases h with | head => rfl | tail _ h => ?_)); exact nomatch h

/-- The softmax of each node's two gate logits. -/
abbrev opsGateSmax : List (HloOp τ sig (Elt F)) :=
  [ StableHlo.nullary main_cst_13 (constant S_ .f32 0xFF800000#32),
    StableHlo.binary main_v72 main_cst_13 main_v73 ((fun x v => Host.reduce FloatOps.maximumf x v reducesTo_S50000x2_S50000_d1 h_S_) : (⟨S50000x2, .f32⟩ : BufTy).Contents (Elt F) → (⟨S_, .f32⟩ : BufTy).Contents (Elt F) → (⟨S50000, .f32⟩ : BufTy).Contents (Elt F)),
    StableHlo.nullary main_cst_14 (constant S_ .f32 0xFF800000#32),
    StableHlo.unary main_cst_14 main_v74 (broadcastInDim S50000 ![] bcast_S_S50000 : (⟨S_, .f32⟩ : BufTy).Contents (Elt F) → (⟨S50000, .f32⟩ : BufTy).Contents (Elt F)),
    StableHlo.binary main_v74 main_v73 main_v75 (maximumf : (⟨S50000, .f32⟩ : BufTy).Contents (Elt F) → (⟨S50000, .f32⟩ : BufTy).Contents (Elt F) → (⟨S50000, .f32⟩ : BufTy).Contents (Elt F)),
    StableHlo.unary main_v75 main_v76 (broadcastInDim S50000x1 ![0] bcast_S50000_S50000x1_0 : (⟨S50000, .f32⟩ : BufTy).Contents (Elt F) → (⟨S50000x1, .f32⟩ : BufTy).Contents (Elt F)),
    StableHlo.unary main_v76 main_v77 (broadcastInDim S50000x2 ![0, 1] bcast_S50000x1_S50000x2_0_1 : (⟨S50000x1, .f32⟩ : BufTy).Contents (Elt F) → (⟨S50000x2, .f32⟩ : BufTy).Contents (Elt F)),
    StableHlo.binary main_v72 main_v77 main_v78 (subf : (⟨S50000x2, .f32⟩ : BufTy).Contents (Elt F) → (⟨S50000x2, .f32⟩ : BufTy).Contents (Elt F) → (⟨S50000x2, .f32⟩ : BufTy).Contents (Elt F)),
    StableHlo.unary main_v78 main_v79 (Host.exp : (⟨S50000x2, .f32⟩ : BufTy).Contents (Elt F) → (⟨S50000x2, .f32⟩ : BufTy).Contents (Elt F)),
    StableHlo.nullary main_cst_15 (constant S_ .f32 0x00000000#32),
    StableHlo.binary main_v79 main_cst_15 main_v80 ((fun x v => Host.reduceAdd x v reducesTo_S50000x2_S50000_d1 h_S_) : (⟨S50000x2, .f32⟩ : BufTy).Contents (Elt F) → (⟨S_, .f32⟩ : BufTy).Contents (Elt F) → (⟨S50000, .f32⟩ : BufTy).Contents (Elt F)),
    StableHlo.unary main_v80 main_v81 (broadcastInDim S50000x1 ![0] bcast_S50000_S50000x1_0 : (⟨S50000, .f32⟩ : BufTy).Contents (Elt F) → (⟨S50000x1, .f32⟩ : BufTy).Contents (Elt F)),
    StableHlo.unary main_v81 main_v82 (broadcastInDim S50000x2 ![0, 1] bcast_S50000x1_S50000x2_0_1 : (⟨S50000x1, .f32⟩ : BufTy).Contents (Elt F) → (⟨S50000x2, .f32⟩ : BufTy).Contents (Elt F)),
    StableHlo.binary main_v79 main_v82 main_v83 (Host.divf : (⟨S50000x2, .f32⟩ : BufTy).Contents (Elt F) → (⟨S50000x2, .f32⟩ : BufTy).Contents (Elt F) → (⟨S50000x2, .f32⟩ : BufTy).Contents (Elt F)) ]

theorem opsGateSmax_sub : (opsGateSmax : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem opsGateSmax_fresh : ∀ op ∈ (opsGateSmax : List (HloOp τ sig (Elt F))), op.fresh = ∅ := by
  intro _ h; (repeat (cases h with | head => rfl | tail _ h => ?_)); exact nomatch h

/-- The output: the two gates as columns, weighing the prompted features and the aggregated prompts. -/
abbrev opsOut : List (HloOp τ sig (Elt F)) :=
  [ StableHlo.unary main_v83 main_v84 ((extractStridedSlice S50000x1 ![0, 0] · slices_S50000x2_S50000x1_0_0) : (⟨S50000x2, .f32⟩ : BufTy).Contents (Elt F) → (⟨S50000x1, .f32⟩ : BufTy).Contents (Elt F)),
    StableHlo.unary main_v84 main_v85 (broadcastInDim S50000x128 ![0, 1] bcast_S50000x1_S50000x128_0_1 : (⟨S50000x1, .f32⟩ : BufTy).Contents (Elt F) → (⟨S50000x128, .f32⟩ : BufTy).Contents (Elt F)),
    StableHlo.binary main_v85 main_v20 main_v86 (mulf : (⟨S50000x128, .f32⟩ : BufTy).Contents (Elt F) → (⟨S50000x128, .f32⟩ : BufTy).Contents (Elt F) → (⟨S50000x128, .f32⟩ : BufTy).Contents (Elt F)),
    StableHlo.unary main_v83 main_v87 ((extractStridedSlice S50000x1 ![0, 1] · slices_S50000x2_S50000x1_0_1) : (⟨S50000x2, .f32⟩ : BufTy).Contents (Elt F) → (⟨S50000x1, .f32⟩ : BufTy).Contents (Elt F)),
    StableHlo.unary main_v87 main_v88 (broadcastInDim S50000x128 ![0, 1] bcast_S50000x1_S50000x128_0_1 : (⟨S50000x1, .f32⟩ : BufTy).Contents (Elt F) → (⟨S50000x128, .f32⟩ : BufTy).Contents (Elt F)),
    StableHlo.binary main_v88 main_v67 main_v89 (mulf : (⟨S50000x128, .f32⟩ : BufTy).Contents (Elt F) → (⟨S50000x128, .f32⟩ : BufTy).Contents (Elt F) → (⟨S50000x128, .f32⟩ : BufTy).Contents (Elt F)),
    StableHlo.binary main_v86 main_v89 main_v90 (addf : (⟨S50000x128, .f32⟩ : BufTy).Contents (Elt F) → (⟨S50000x128, .f32⟩ : BufTy).Contents (Elt F) → (⟨S50000x128, .f32⟩ : BufTy).Contents (Elt F)) ]

theorem opsOut_sub : (opsOut : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub ..⟩

theorem opsOut_fresh : ∀ op ∈ (opsOut : List (HloOp τ sig (Elt F))), op.fresh = ∅ := by
  intro _ h; (repeat (cases h with | head => rfl | tail _ h => ?_)); exact nomatch h

/-- The operations of the program's first printed part, and of its second. -/
abbrev opsP0 : List (HloOp τ sig (Elt F)) := opsIdx ++ (opsNodeLogit ++ (opsNodeSmax ++ (opsNodePrompt ++ (opsSrcGather ++ (opsDstGather ++ (opsEdgeLogit ++ (opsLrelu ++ (opsEdgeSmaxA))))))))
abbrev opsP1 : List (HloOp τ sig (Elt F)) := opsEdgeSmaxB ++ (opsEdgePrompt ++ (opsScatSrc ++ (opsScatDst ++ (opsGateLogit ++ (opsGateSmax ++ (opsOut))))))

/-- The program's operations, in order. -/
abbrev ops : List (HloOp τ sig (Elt F)) := opsP0 ++ opsP1

set_option maxRecDepth 4096 in
theorem part0_eq (c : Dev nD) : main_part0 (F := F) c = seq opsP0 := by
  simp only [main_part0, fn_leaky_relu.body, fn_where.body, bind_assoc, pure_bind]
  rfl

set_option maxRecDepth 4096 in
theorem part1_eq (c : Dev nD) : main_part1 (F := F) c = seq opsP1 := by
  rfl

/-- The program is that straight line: its two printed parts one after the other. -/
theorem main_eq (c : Dev nD) : main (F := F) c = seq ops := by
  show (main_part0 (F := F) c >>= fun _ => main_part1 (F := F) c) = seq (opsP0 ++ opsP1)
  rw [seq_append, part0_eq, part1_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨List.forall_append.mpr ⟨opsIdx_sub, List.forall_append.mpr ⟨opsNodeLogit_sub, List.forall_append.mpr ⟨opsNodeSmax_sub, List.forall_append.mpr ⟨opsNodePrompt_sub, List.forall_append.mpr ⟨opsSrcGather_sub, List.forall_append.mpr ⟨opsDstGather_sub, List.forall_append.mpr ⟨opsEdgeLogit_sub, List.forall_append.mpr ⟨opsLrelu_sub, opsEdgeSmaxA_sub⟩⟩⟩⟩⟩⟩⟩⟩,
    List.forall_append.mpr ⟨opsEdgeSmaxB_sub, List.forall_append.mpr ⟨opsEdgePrompt_sub, List.forall_append.mpr ⟨opsScatSrc_sub, List.forall_append.mpr ⟨opsScatDst_sub, List.forall_append.mpr ⟨opsGateLogit_sub, List.forall_append.mpr ⟨opsGateSmax_sub, opsOut_sub⟩⟩⟩⟩⟩⟩⟩

theorem ops_fresh : ∀ op ∈ (ops : List (HloOp τ sig (Elt F))), op.fresh = ∅ :=
  List.forall_mem_append.mpr ⟨List.forall_mem_append.mpr ⟨opsIdx_fresh, List.forall_mem_append.mpr ⟨opsNodeLogit_fresh, List.forall_mem_append.mpr ⟨opsNodeSmax_fresh, List.forall_mem_append.mpr ⟨opsNodePrompt_fresh, List.forall_mem_append.mpr ⟨opsSrcGather_fresh, List.forall_mem_append.mpr ⟨opsDstGather_fresh, List.forall_mem_append.mpr ⟨opsEdgeLogit_fresh, List.forall_mem_append.mpr ⟨opsLrelu_fresh, opsEdgeSmaxA_fresh⟩⟩⟩⟩⟩⟩⟩⟩,
    List.forall_mem_append.mpr ⟨opsEdgeSmaxB_fresh, List.forall_mem_append.mpr ⟨opsEdgePrompt_fresh, List.forall_mem_append.mpr ⟨opsScatSrc_fresh, List.forall_mem_append.mpr ⟨opsScatDst_fresh, List.forall_mem_append.mpr ⟨opsGateLogit_fresh, List.forall_mem_append.mpr ⟨opsGateSmax_fresh, opsOut_fresh⟩⟩⟩⟩⟩⟩⟩

/-- For any float values, from any memory with zero counters: every weakly fair execution of the program terminates,
    and every final state has each buffer at the fold of the operations over the contents at the launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.RefRun

end
-- ==== Proof.LibHostFold.lean ====
/-
  Folding a straight line of host operations in two parts, and the transports its inlined calls carry.

  The buffers' contents after a list of host operations is a left fold of the operations' results over the contents at
  the start; so the fold of a concatenation is the fold of its second part over the fold of its first (after_append), and
  a long program can be read in stretches with the contents in between kept as one term.

  The operations of a function inlined at its call site carry each operand through a transport along the equation
  between its buffer's declared type and the value's type: to the buffer's type when written, back when read. A value
  carried there and back is the value (ofBuf_toBuf); and, the two types being one, a single transport of a value is that
  value, stated through heterogeneous equality so that the equation is found by the types' computation at the use site
  (ofBuf_eq, toBuf_eq: give `HEq.rfl`, or `heq_of_eq` of an equation between the two sides read at one type). Removing
  the transports by these lemmas, syntactically, before two composed terms are compared keeps the comparison from
  computing through the transports.
-/
import Idealize.ShloMosaic.Lib.StableHlo.Run

namespace Cert.HostFold

open Idealize.ShloMosaic Idealize.ShloMosaic.StableHlo

variable {τ : Topo} {sig : RefSig} {Val : EltTy → Type}

/-- Folding a concatenation is folding its second part over the fold of its first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to its buffer's type and back is the value. -/
theorem ofBuf_toBuf {T : BufTy} (x : TRef sig T) (v : T.Contents Val) : x.ofBuf (x.toBuf v) = v := by
  obtain ⟨r, hty, h2, h3⟩ := x
  subst hty
  rfl

/-- Contents read at the value's type are the contents, when the two are one term up to the types' equation. -/
theorem ofBuf_eq {T : BufTy} (x : TRef sig T) (v : x.ref.ty.Contents Val) (w : T.Contents Val) (h : HEq v w) :
    x.ofBuf v = w := by
  obtain ⟨r, hty, h2, h3⟩ := x
  subst hty
  exact eq_of_heq h

/-- A value carried to its buffer's type is the value, likewise. -/
theorem toBuf_eq {T : BufTy} (x : TRef sig T) (v : T.Contents Val) (w : x.ref.ty.Contents Val) (h : HEq v w) :
    x.toBuf v = w := by
  obtain ⟨r, hty, h2, h3⟩ := x
  subst hty
  exact eq_of_heq h

end Cert.HostFold
-- ==== Proof.RefPass.lean ====
/-
  Which buffers each stretch of the reference's line writes, and that every other buffer keeps its contents across the
  stretch: a buffer outside the list of a stretch's result buffers reads after the stretch as before it. The same for
  the whole line, whence the arguments are unchanged by the run.
-/
import proofs.«162870_j34248069218340_2_alg».proof.Proof.RefRun
import proofs.«162870_j34248069218340_2_alg».proof.Proof.LibHostFold

noncomputable section

namespace Cert.RefPass

open Cert.ReferenceIdeal Cert.ReferenceIdeal.Gen Cert.RefRun Idealize.ShloMosaic Idealize.ShloMosaic.TcCoe Idealize.SL.Sem Idealize.ShloMosaic.StableHlo

variable {F : FTy → Type} [FloatOps F]

/-- A single result buffer lies in a list of references that holds it. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Two stretches that each keep the buffers outside their lists keep, run one after the other, the buffers outside both. -/
theorem pass_append {l₁ l₂ : List (HloOp τ sig (Elt F))} {W₁ W₂ : List (Ref sig .tc)}
    (h₁ : ∀ (V : Valuation τ sig (Elt F)) (r : Ref sig .tc), r ∉ W₁ → after l₁ V (Proc.devRef .tc r) = V (Proc.devRef .tc r))
    (h₂ : ∀ (V : Valuation τ sig (Elt F)) (r : Ref sig .tc), r ∉ W₂ → after l₂ V (Proc.devRef .tc r) = V (Proc.devRef .tc r))
    (V : Valuation τ sig (Elt F)) (r : Ref sig .tc) (hr : r ∉ W₁ ++ W₂) :
    after (l₁ ++ l₂) V (Proc.devRef .tc r) = V (Proc.devRef .tc r) := by
  rw [Cert.HostFold.after_append, h₂ _ r (fun h => hr (List.mem_append_right _ h)),
    h₁ _ r (fun h => hr (List.mem_append_left _ h))]

/-- The result buffers of opsIdx. -/
abbrev wIdx : List (Ref sig .tc) := [main_v0, main_v1, main_v2, main_v3]

theorem opsIdx_writes : (opsIdx : List (HloOp τ sig (Elt F))).Forall fun op => op.writes ⊆ ((wIdx).map (Proc.devRef (τ := τ) .tc)).toFinset :=
  ⟨single_sub (y := main_v0) (by decide),
    single_sub (y := main_v1) (by decide),
    single_sub (y := main_v2) (by decide),
    single_sub (y := main_v3) (by decide)⟩

theorem opsIdx_pass (V : Valuation τ sig (Elt F)) (r : Ref sig .tc) (hr : r ∉ wIdx) :
    after opsIdx V (Proc.devRef .tc r) = V (Proc.devRef .tc r) :=
  after_of_writes_sub opsIdx V opsIdx_writes hr

/-- The result buffers of opsNodeLogit. -/
abbrev wNodeLogit : List (Ref sig .tc) := [main_v4, main_v5, main_v6, main_v7]

theorem opsNodeLogit_writes : (opsNodeLogit : List (HloOp τ sig (Elt F))).Forall fun op => op.writes ⊆ ((wNodeLogit).map (Proc.devRef (τ := τ) .tc)).toFinset :=
  ⟨single_sub (y := main_v4) (by decide),
    single_sub (y := main_v5) (by decide),
    single_sub (y := main_v6) (by decide),
    single_sub (y := main_v7) (by decide)⟩

theorem opsNodeLogit_pass (V : Valuation τ sig (Elt F)) (r : Ref sig .tc) (hr : r ∉ wNodeLogit) :
    after opsNodeLogit V (Proc.devRef .tc r) = V (Proc.devRef .tc r) :=
  after_of_writes_sub opsNodeLogit V opsNodeLogit_writes hr

/-- The result buffers of opsNodeSmax. -/
abbrev wNodeSmax : List (Ref sig .tc) := [main_cst, main_v8, main_cst_0, main_v9, main_v10, main_v11, main_v12, main_v13, main_v14, main_cst_1, main_v15, main_v16, main_v17, main_v18]

theorem opsNodeSmax_writes : (opsNodeSmax : List (HloOp τ sig (Elt F))).Forall fun op => op.writes ⊆ ((wNodeSmax).map (Proc.devRef (τ := τ) .tc)).toFinset :=
  ⟨single_sub (y := main_cst) (by decide),
    single_sub (y := main_v8) (by decide),
    single_sub (y := main_cst_0) (by decide),
    single_sub (y := main_v9) (by decide),
    single_sub (y := main_v10) (by decide),
    single_sub (y := main_v11) (by decide),
    single_sub (y := main_v12) (by decide),
    single_sub (y := main_v13) (by decide),
    single_sub (y := main_v14) (by decide),
    single_sub (y := main_cst_1) (by decide),
    single_sub (y := main_v15) (by decide),
    single_sub (y := main_v16) (by decide),
    single_sub (y := main_v17) (by decide),
    single_sub (y := main_v18) (by decide)⟩

theorem opsNodeSmax_pass (V : Valuation τ sig (Elt F)) (r : Ref sig .tc) (hr : r ∉ wNodeSmax) :
    after opsNodeSmax V (Proc.devRef .tc r) = V (Proc.devRef .tc r) :=
  after_of_writes_sub opsNodeSmax V opsNodeSmax_writes hr

/-- The result buffers of opsNodePrompt. -/
abbrev wNodePrompt : List (Ref sig .tc) := [main_v19, main_v20]

theorem opsNodePrompt_writes : (opsNodePrompt : List (HloOp τ sig (Elt F))).Forall fun op => op.writes ⊆ ((wNodePrompt).map (Proc.devRef (τ := τ) .tc)).toFinset :=
  ⟨single_sub (y := main_v19) (by decide),
    single_sub (y := main_v20) (by decide)⟩

theorem opsNodePrompt_pass (V : Valuation τ sig (Elt F)) (r : Ref sig .tc) (hr : r ∉ wNodePrompt) :
    after opsNodePrompt V (Proc.devRef .tc r) = V (Proc.devRef .tc r) :=
  after_of_writes_sub opsNodePrompt V opsNodePrompt_writes hr

/-- The result buffers of opsSrcGather. -/
abbrev wSrcGather : List (Ref sig .tc) := [main_c, main_v21, main_v22, main_c_2, main_v23, main_v24, main_v25, main_v26, main_v27]

theorem opsSrcGather_writes : (opsSrcGather : List (HloOp τ sig (Elt F))).Forall fun op => op.writes ⊆ ((wSrcGather).map (Proc.devRef (τ := τ) .tc)).toFinset :=
  ⟨single_sub (y := main_c) (by decide),
    single_sub (y := main_v21) (by decide),
    single_sub (y := main_v22) (by decide),
    single_sub (y := main_c_2) (by decide),
    single_sub (y := main_v23) (by decide),
    single_sub (y := main_v24) (by decide),
    single_sub (y := main_v25) (by decide),
    single_sub (y := main_v26) (by decide),
    single_sub (y := main_v27) (by decide)⟩

theorem opsSrcGather_pass (V : Valuation τ sig (Elt F)) (r : Ref sig .tc) (hr : r ∉ wSrcGather) :
    after opsSrcGather V (Proc.devRef .tc r) = V (Proc.devRef .tc r) :=
  after_of_writes_sub opsSrcGather V opsSrcGather_writes hr

/-- The result buffers of opsDstGather. -/
abbrev wDstGather : List (Ref sig .tc) := [main_c_3, main_v28, main_v29, main_c_4, main_v30, main_v31, main_v32, main_v33, main_v34]

theorem opsDstGather_writes : (opsDstGather : List (HloOp τ sig (Elt F))).Forall fun op => op.writes ⊆ ((wDstGather).map (Proc.devRef (τ := τ) .tc)).toFinset :=
  ⟨single_sub (y := main_c_3) (by decide),
    single_sub (y := main_v28) (by decide),
    single_sub (y := main_v29) (by decide),
    single_sub (y := main_c_4) (by decide),
    single_sub (y := main_v30) (by decide),
    single_sub (y := main_v31) (by decide),
    single_sub (y := main_v32) (by decide),
    single_sub (y := main_v33) (by decide),
    single_sub (y := main_v34) (by decide)⟩

theorem opsDstGather_pass (V : Valuation τ sig (Elt F)) (r : Ref sig .tc) (hr : r ∉ wDstGather) :
    after opsDstGather V (Proc.devRef .tc r) = V (Proc.devRef .tc r) :=
  after_of_writes_sub opsDstGather V opsDstGather_writes hr

/-- The result buffers of opsEdgeLogit. -/
abbrev wEdgeLogit : List (Ref sig .tc) := [main_v35, main_v36, main_v37, main_v38, main_v39]

theorem opsEdgeLogit_writes : (opsEdgeLogit : List (HloOp τ sig (Elt F))).Forall fun op => op.writes ⊆ ((wEdgeLogit).map (Proc.devRef (τ := τ) .tc)).toFinset :=
  ⟨single_sub (y := main_v35) (by decide),
    single_sub (y := main_v36) (by decide),
    single_sub (y := main_v37) (by decide),
    single_sub (y := main_v38) (by decide),
    single_sub (y := main_v39) (by decide)⟩

theorem opsEdgeLogit_pass (V : Valuation τ sig (Elt F)) (r : Ref sig .tc) (hr : r ∉ wEdgeLogit) :
    after opsEdgeLogit V (Proc.devRef .tc r) = V (Proc.devRef .tc r) :=
  after_of_writes_sub opsEdgeLogit V opsEdgeLogit_writes hr

/-- The result buffers of opsLrelu. -/
abbrev wLrelu : List (Ref sig .tc) := [main_call0_cst, main_call0_v0, main_call0_v1, main_call0_cst_0, main_call0_v2, main_call0_v3, main_v40]

theorem opsLrelu_writes : (opsLrelu : List (HloOp τ sig (Elt F))).Forall fun op => op.writes ⊆ ((wLrelu).map (Proc.devRef (τ := τ) .tc)).toFinset :=
  ⟨single_sub (y := main_call0_cst) (by decide),
    single_sub (y := main_call0_v0) (by decide),
    single_sub (y := main_call0_v1) (by decide),
    single_sub (y := main_call0_cst_0) (by decide),
    single_sub (y := main_call0_v2) (by decide),
    single_sub (y := main_call0_v3) (by decide),
    single_sub (y := main_v40) (by decide)⟩

theorem opsLrelu_pass (V : Valuation τ sig (Elt F)) (r : Ref sig .tc) (hr : r ∉ wLrelu) :
    after opsLrelu V (Proc.devRef .tc r) = V (Proc.devRef .tc r) :=
  after_of_writes_sub opsLrelu V opsLrelu_writes hr

/-- The result buffers of opsEdgeSmaxA. -/
abbrev wEdgeSmaxA : List (Ref sig .tc) := [main_cst_5, main_v41, main_cst_6, main_v42, main_v43, main_v44, main_v45, main_v46, main_v47, main_cst_7, main_v48, main_v49]

theorem opsEdgeSmaxA_writes : (opsEdgeSmaxA : List (HloOp τ sig (Elt F))).Forall fun op => op.writes ⊆ ((wEdgeSmaxA).map (Proc.devRef (τ := τ) .tc)).toFinset :=
  ⟨single_sub (y := main_cst_5) (by decide),
    single_sub (y := main_v41) (by decide),
    single_sub (y := main_cst_6) (by decide),
    single_sub (y := main_v42) (by decide),
    single_sub (y := main_v43) (by decide),
    single_sub (y := main_v44) (by decide),
    single_sub (y := main_v45) (by decide),
    single_sub (y := main_v46) (by decide),
    single_sub (y := main_v47) (by decide),
    single_sub (y := main_cst_7) (by decide),
    single_sub (y := main_v48) (by decide),
    single_sub (y := main_v49) (by decide)⟩

theorem opsEdgeSmaxA_pass (V : Valuation τ sig (Elt F)) (r : Ref sig .tc) (hr : r ∉ wEdgeSmaxA) :
    after opsEdgeSmaxA V (Proc.devRef .tc r) = V (Proc.devRef .tc r) :=
  after_of_writes_sub opsEdgeSmaxA V opsEdgeSmaxA_writes hr

/-- The result buffers of opsEdgeSmaxB. -/
abbrev wEdgeSmaxB : List (Ref sig .tc) := [main_v50, main_v51]

theorem opsEdgeSmaxB_writes : (opsEdgeSmaxB : List (HloOp τ sig (Elt F))).Forall fun op => op.writes ⊆ ((wEdgeSmaxB).map (Proc.devRef (τ := τ) .tc)).toFinset :=
  ⟨single_sub (y := main_v50) (by decide),
    single_sub (y := main_v51) (by decide)⟩

theorem opsEdgeSmaxB_pass (V : Valuation τ sig (Elt F)) (r : Ref sig .tc) (hr : r ∉ wEdgeSmaxB) :
    after opsEdgeSmaxB V (Proc.devRef .tc r) = V (Proc.devRef .tc r) :=
  after_of_writes_sub opsEdgeSmaxB V opsEdgeSmaxB_writes hr

/-- The result buffers of opsEdgePrompt. -/
abbrev wEdgePrompt : List (Ref sig .tc) := [main_v52]

theorem opsEdgePrompt_writes : (opsEdgePrompt : List (HloOp τ sig (Elt F))).Forall fun op => op.writes ⊆ ((wEdgePrompt).map (Proc.devRef (τ := τ) .tc)).toFinset :=
  single_sub (y := main_v52) (by decide)

theorem opsEdgePrompt_pass (V : Valuation τ sig (Elt F)) (r : Ref sig .tc) (hr : r ∉ wEdgePrompt) :
    after opsEdgePrompt V (Proc.devRef .tc r) = V (Proc.devRef .tc r) :=
  after_of_writes_sub opsEdgePrompt V opsEdgePrompt_writes hr

/-- The result buffers of opsScatSrc. -/
abbrev wScatSrc : List (Ref sig .tc) := [main_cst_8, main_v53, main_c_9, main_v54, main_v55, main_c_10, main_v56, main_v57, main_v58, main_v59, main_v60]

theorem opsScatSrc_writes : (opsScatSrc : List (HloOp τ sig (Elt F))).Forall fun op => op.writes ⊆ ((wScatSrc).map (Proc.devRef (τ := τ) .tc)).toFinset :=
  ⟨single_sub (y := main_cst_8) (by decide),
    single_sub (y := main_v53) (by decide),
    single_sub (y := main_c_9) (by decide),
    single_sub (y := main_v54) (by decide),
    single_sub (y := main_v55) (by decide),
    single_sub (y := main_c_10) (by decide),
    single_sub (y := main_v56) (by decide),
    single_sub (y := main_v57) (by decide),
    single_sub (y := main_v58) (by decide),
    single_sub (y := main_v59) (by decide),
    single_sub (y := main_v60) (by decide)⟩

theorem opsScatSrc_pass (V : Valuation τ sig (Elt F)) (r : Ref sig .tc) (hr : r ∉ wScatSrc) :
    after opsScatSrc V (Proc.devRef .tc r) = V (Proc.devRef .tc r) :=
  after_of_writes_sub opsScatSrc V opsScatSrc_writes hr

/-- The result buffers of opsScatDst. -/
abbrev wScatDst : List (Ref sig .tc) := [main_c_11, main_v61, main_v62, main_c_12, main_v63, main_v64, main_v65, main_v66, main_v67]

theorem opsScatDst_writes : (opsScatDst : List (HloOp τ sig (Elt F))).Forall fun op => op.writes ⊆ ((wScatDst).map (Proc.devRef (τ := τ) .tc)).toFinset :=
  ⟨single_sub (y := main_c_11) (by decide),
    single_sub (y := main_v61) (by decide),
    single_sub (y := main_v62) (by decide),
    single_sub (y := main_c_12) (by decide),
    single_sub (y := main_v63) (by decide),
    single_sub (y := main_v64) (by decide),
    single_sub (y := main_v65) (by decide),
    single_sub (y := main_v66) (by decide),
    single_sub (y := main_v67) (by decide)⟩

theorem opsScatDst_pass (V : Valuation τ sig (Elt F)) (r : Ref sig .tc) (hr : r ∉ wScatDst) :
    after opsScatDst V (Proc.devRef .tc r) = V (Proc.devRef .tc r) :=
  after_of_writes_sub opsScatDst V opsScatDst_writes hr

/-- The result buffers of opsGateLogit. -/
abbrev wGateLogit : List (Ref sig .tc) := [main_v68, main_v69, main_v70, main_v71, main_v72]

theorem opsGateLogit_writes : (opsGateLogit : List (HloOp τ sig (Elt F))).Forall fun op => op.writes ⊆ ((wGateLogit).map (Proc.devRef (τ := τ) .tc)).toFinset :=
  ⟨single_sub (y := main_v68) (by decide),
    single_sub (y := main_v69) (by decide),
    single_sub (y := main_v70) (by decide),
    single_sub (y := main_v71) (by decide),
    single_sub (y := main_v72) (by decide)⟩

theorem opsGateLogit_pass (V : Valuation τ sig (Elt F)) (r : Ref sig .tc) (hr : r ∉ wGateLogit) :
    after opsGateLogit V (Proc.devRef .tc r) = V (Proc.devRef .tc r) :=
  after_of_writes_sub opsGateLogit V opsGateLogit_writes hr

/-- The result buffers of opsGateSmax. -/
abbrev wGateSmax : List (Ref sig .tc) := [main_cst_13, main_v73, main_cst_14, main_v74, main_v75, main_v76, main_v77, main_v78, main_v79, main_cst_15, main_v80, main_v81, main_v82, main_v83]

theorem opsGateSmax_writes : (opsGateSmax : List (HloOp τ sig (Elt F))).Forall fun op => op.writes ⊆ ((wGateSmax).map (Proc.devRef (τ := τ) .tc)).toFinset :=
  ⟨single_sub (y := main_cst_13) (by decide),
    single_sub (y := main_v73) (by decide),
    single_sub (y := main_cst_14) (by decide),
    single_sub (y := main_v74) (by decide),
    single_sub (y := main_v75) (by decide),
    single_sub (y := main_v76) (by decide),
    single_sub (y := main_v77) (by decide),
    single_sub (y := main_v78) (by decide),
    single_sub (y := main_v79) (by decide),
    single_sub (y := main_cst_15) (by decide),
    single_sub (y := main_v80) (by decide),
    single_sub (y := main_v81) (by decide),
    single_sub (y := main_v82) (by decide),
    single_sub (y := main_v83) (by decide)⟩

theorem opsGateSmax_pass (V : Valuation τ sig (Elt F)) (r : Ref sig .tc) (hr : r ∉ wGateSmax) :
    after opsGateSmax V (Proc.devRef .tc r) = V (Proc.devRef .tc r) :=
  after_of_writes_sub opsGateSmax V opsGateSmax_writes hr

/-- The result buffers of opsOut. -/
abbrev wOut : List (Ref sig .tc) := [main_v84, main_v85, main_v86, main_v87, main_v88, main_v89, main_v90]

theorem opsOut_writes : (opsOut : List (HloOp τ sig (Elt F))).Forall fun op => op.writes ⊆ ((wOut).map (Proc.devRef (τ := τ) .tc)).toFinset :=
  ⟨single_sub (y := main_v84) (by decide),
    single_sub (y := main_v85) (by decide),
    single_sub (y := main_v86) (by decide),
    single_sub (y := main_v87) (by decide),
    single_sub (y := main_v88) (by decide),
    single_sub (y := main_v89) (by decide),
    single_sub (y := main_v90) (by decide)⟩

theorem opsOut_pass (V : Valuation τ sig (Elt F)) (r : Ref sig .tc) (hr : r ∉ wOut) :
    after opsOut V (Proc.devRef .tc r) = V (Proc.devRef .tc r) :=
  after_of_writes_sub opsOut V opsOut_writes hr

/-- The result buffers of the whole line, in the line's own grouping. -/
abbrev wP0 : List (Ref sig .tc) := wIdx ++ (wNodeLogit ++ (wNodeSmax ++ (wNodePrompt ++ (wSrcGather ++ (wDstGather ++ (wEdgeLogit ++ (wLrelu ++ (wEdgeSmaxA))))))))
abbrev wP1 : List (Ref sig .tc) := wEdgeSmaxB ++ (wEdgePrompt ++ (wScatSrc ++ (wScatDst ++ (wGateLogit ++ (wGateSmax ++ (wOut))))))
abbrev wAll : List (Ref sig .tc) := wP0 ++ wP1

/-- A buffer the line never writes keeps its contents across the whole line. -/
theorem ops_pass (V : Valuation τ sig (Elt F)) (r : Ref sig .tc) (hr : r ∉ wAll) :
    after ops V (Proc.devRef .tc r) = V (Proc.devRef .tc r) :=
  pass_append (pass_append opsIdx_pass (pass_append opsNodeLogit_pass (pass_append opsNodeSmax_pass (pass_append opsNodePrompt_pass (pass_append opsSrcGather_pass (pass_append opsDstGather_pass (pass_append opsEdgeLogit_pass (pass_append opsLrelu_pass (opsEdgeSmaxA_pass)))))))))
    (pass_append opsEdgeSmaxB_pass (pass_append opsEdgePrompt_pass (pass_append opsScatSrc_pass (pass_append opsScatDst_pass (pass_append opsGateLogit_pass (pass_append opsGateSmax_pass (opsOut_pass))))))) V r hr

end Cert.RefPass

end
-- ==== Proof.LibConcatCols.lean ====
/-
  Two blocks of columns set side by side, read at an index, for any extents.

  A matrix [R, n] and a matrix [R, n'] joined along the column axis make a matrix [R, n + n']: at (r, q) it is the
  left matrix at (r, q) when q < n, and the right matrix at (r, q - n) otherwise. The index is built from its two
  coordinates, so that the coordinates have literal types at a use site.
-/
import Idealize.ShloMosaic.Lib.ValueIdx
import Idealize.ShloMosaic.Lib.Pipeline.Value

namespace Cert.LibConcatCols

open Idealize.ShloMosaic Idealize.ShloMosaic.ValueIdx

variable {α : Type}

/-- `n` columns and `n'` more columns side by side (`N = n + n'` columns): at `(r, q)` the left block at `(r, q)`
    when `q < n`, the right block at `(r, q - n)` otherwise. -/
theorem concat_cols_apply {R n n' N : ℕ} (hN : N = n + n') (A : (⟨2, ![R, n]⟩ : Shape).Idx → α)
    (B : (⟨2, ![R, n']⟩ : Shape).Idx → α)
    (h : Shape.Concatenates [⟨2, ![R, n]⟩, ⟨2, ![R, n']⟩] ⟨2, ![R, N]⟩ 1) (r : Fin R) (q : Fin N) :
    concatenate ⟨2, ![R, N]⟩ 1 [⟨⟨2, ![R, n]⟩, A⟩, ⟨⟨2, ![R, n']⟩, B⟩] h (ix2 r q)
      = if hq : q.val < n then A (ix2 r ⟨q.val, hq⟩)
        else B (ix2 r ⟨q.val - n, by have := q.isLt; omega⟩) := by
  split
  · next hq =>
    exact concatenate_pair_apply_left 1 A B h (ix2 r q) rfl (ix2 r ⟨q.val, hq⟩)
      (fun b => match b with | ⟨0, _⟩ => rfl | ⟨1, _⟩ => rfl)
  · next hq =>
    refine concatenate_pair_apply_right 1 A B h (ix2 r q) rfl rfl (ix2 r ⟨q.val - n, by have := q.isLt; omega⟩)
      (fun b hb => match b, hb with | ⟨0, _⟩, _ => rfl | ⟨1, _⟩, hb => absurd rfl hb) ?_
    show q.val - n + n = q.val
    omega

end Cert.LibConcatCols
-- ==== Proof.RefStages.lean ====
/-
  The stages of the node-and-edge prompt layer as array functions, each read at an index.

  Every stage is the composition of array operations the layer applies at that point, as a function of the arrays that
  enter it; read at one entry it is the entry-wise formula: a product of matrices is the sum over the contracted axis, a
  bias row is added to every row, a negative index word counts from the end, a gather reads the clamped row, two blocks
  side by side contracted against a weight matrix split the sum in two halves, a scatter-add adds to a row the update
  rows sent there, and two gate columns weigh two feature arrays.
-/
import proofs.«162870_j34248069218340_2_alg».proof.Proof.Gen.ReferenceIdeal
import proofs.«162870_j34248069218340_2_alg».proof.Proof.Spec
import proofs.«162870_j34248069218340_2_alg».proof.Proof.LibPlainDot
import proofs.«162870_j34248069218340_2_alg».proof.Proof.LibGatherRows
import proofs.«162870_j34248069218340_2_alg».proof.Proof.LibScatterRows
import proofs.«162870_j34248069218340_2_alg».proof.Proof.LibConcatCols
import Idealize.ShloMosaic.Lib.ValueLayout

noncomputable section

open scoped BigOperators

namespace Cert.RefStages

open Cert.ReferenceIdeal Cert.ReferenceIdeal.Gen Idealize.ShloMosaic Idealize.ShloMosaic.ValueIdx

/-! ## A bias row added to every row -/

/-- A vector of A entries made a one-row matrix and that row repeated R times reads, at (r, a), the vector at a. -/
theorem bias_apply {R A : ℕ} (b : (⟨1, ![A]⟩ : Shape).Idx → EReal)
    (h1 : (⟨1, ![A]⟩ : Shape).BroadcastsInDim ⟨2, ![1, A]⟩ (![1] : Fin 1 → Fin 2))
    (h2 : (⟨2, ![1, A]⟩ : Shape).BroadcastsInDim ⟨2, ![R, A]⟩ (![0, 1] : Fin 2 → Fin 2)) (r : Fin R) (a : Fin A) :
    broadcastInDim ⟨2, ![R, A]⟩ ![0, 1] h2 (broadcastInDim ⟨2, ![1, A]⟩ ![1] h1 b) (ix2 r a) = b (ix1 a) := by
  refine (broadcastInDim_apply _ h2 _ (ix2 r a) (ix2 (0 : Fin 1) a) fun ax => ?_).trans
    (broadcastInDim_apply _ h1 b (ix2 (0 : Fin 1) a) (ix1 a) fun ax => ?_)
  · match ax with
    | ⟨0, _⟩ => rfl
    | ⟨1, _⟩ =>
      show a.val = if A = 1 then 0 else a.val
      split
      · have := a.isLt; omega
      · rfl
  · match ax with
    | ⟨0, _⟩ =>
      show a.val = if A = 1 then 0 else a.val
      split
      · have := a.isLt; omega
      · rfl

/-! ## The rows of the edge list -/

/-- Row c of the edge list as a vector of index words. -/
def idxRow0 (X9 : IVec S2x640000 32) : IVec S640000 32 :=
  fun i => shapeCast S640000 (extractStridedSlice S1x640000 ![0, 0] X9 slices_S2x640000_S1x640000_0_0) shapeCasts_S1x640000_S640000 i
def idxRow1 (X9 : IVec S2x640000 32) : IVec S640000 32 :=
  fun i => shapeCast S640000 (extractStridedSlice S1x640000 ![1, 0] X9 slices_S2x640000_S1x640000_1_0) shapeCasts_S1x640000_S640000 i

theorem idxRow0_apply (X9 : IVec S2x640000 32) (e : Fin 640000) : idxRow0 X9 (ix1 e) = X9 (ix2 (0 : Fin 2) e) :=
  (shapeCast_1a_a_apply _ _ e).trans (slice2_axis0_apply 0 X9 _ (0 : Fin 1) e (0 : Fin 2) rfl)

theorem idxRow1_apply (X9 : IVec S2x640000 32) (e : Fin 640000) : idxRow1 X9 (ix1 e) = X9 (ix2 (1 : Fin 2) e) :=
  (shapeCast_1a_a_apply _ _ e).trans (slice2_axis0_apply 1 X9 _ (0 : Fin 1) e (1 : Fin 2) rfl)

/-! ## Index words normalised, as a column -/

/-- The index words with the negative ones counted from the end, as a one-column matrix. -/
def normIdx (w : IVec S640000 32) : IVec S640000x1 32 :=
  broadcastInDim S640000x1 ![0] bcast_S640000_S640000x1_0
    (select (cmpi .slt w (broadcastInDim S640000 ![] bcast_S_S640000 (constantI S_ 32 0#32)))
      (addi w (broadcastInDim S640000 ![] bcast_S_S640000 (constantI S_ 32 50000#32))) w)

theorem normIdx_apply (w : IVec S640000 32) (e : Fin 640000) (u : Fin 1) : normIdx w (ix2 e u) = Cert.Spec.nrm (w (ix1 e)) := by
  refine (broadcastInDim_apply _ bcast_S640000_S640000x1_0 _ (ix2 e u) (ix1 e) fun ax => ?_).trans rfl
  match ax with
  | ⟨0, _⟩ => rfl

/-! ## Rows gathered -/

/-- The rows of the features named by a vector of index words. -/
def gatherFn (X0 : FVec Ideal S50000x128 .f32) (w : IVec S640000 32) : FVec Ideal S640000x128 .f32 :=
  Host.gather gather_S50000x128_S640000x1_S640000x128_1_0_n_n_0_1_1128 X0 (normIdx w)

theorem gatherFn_apply (X0 : FVec Ideal S50000x128 .f32) (w : IVec S640000 32) (e : Fin 640000) (k : Fin 128) :
    gatherFn X0 w (ix2 e k) = X0 (ix2 (Cert.Spec.row (Cert.Spec.nrm (w (ix1 e)))) k) := by
  unfold gatherFn
  rw [Cert.GatherRows.host_gather_rows_apply (by decide : 0 < 50000) _ rfl rfl rfl rfl rfl rfl rfl X0 (normIdx w) e k,
    normIdx_apply]

/-! ## Logits: a product plus a bias row -/

/-- The nodes' attention logits. -/
def nodeLogitFn (X0 : FVec Ideal S50000x128 .f32) (X2 : FVec Ideal S128x5 .f32) (X3 : FVec Ideal S5 .f32) : FVec Ideal S50000x5 .f32 :=
  addf (Host.dotGeneral dot_S50000x128_S128x5_S50000x5_1_0_0_1_n_n none X0 X2)
    (broadcastInDim S50000x5 ![0, 1] bcast_S1x5_S50000x5_0_1 (broadcastInDim S1x5 ![1] bcast_S5_S1x5_1 X3))

theorem nodeLogitFn_apply (X0 : FVec Ideal S50000x128 .f32) (X2 : FVec Ideal S128x5 .f32) (X3 : FVec Ideal S5 .f32) (n : Fin 50000) (a : Fin 5) :
    nodeLogitFn X0 X2 X3 (ix2 n a) = Cert.Spec.nodeLogit X0 X2 X3 n a := by
  unfold nodeLogitFn Cert.Spec.nodeLogit
  rw [addf_apply]
  congr 1
  · exact Cert.PlainDot.dotGeneral_apply _ rfl rfl rfl rfl rfl rfl none .single X0 X2 n a
  · exact bias_apply X3 _ _ n a

/-- Softmax weights against five anchor rows, added to an array. -/
def nodePromptFn (X0 : FVec Ideal S50000x128 .f32) (P : FVec Ideal S50000x5 .f32) (X1 : FVec Ideal S5x128 .f32) : FVec Ideal S50000x128 .f32 :=
  addf X0 (Host.dotGeneral dot_S50000x5_S5x128_S50000x128_1_0_0_1_n_n none P X1)

theorem nodePromptFn_apply (X0 : FVec Ideal S50000x128 .f32) (P : FVec Ideal S50000x5 .f32) (X1 : FVec Ideal S5x128 .f32) (n : Fin 50000) (d : Fin 128) :
    nodePromptFn X0 P X1 (ix2 n d) = X0 (ix2 n d) + ∑ a : Fin 5, P (ix2 n a) * X1 (ix2 a d) := by
  unfold nodePromptFn
  rw [addf_apply]
  congr 1
  exact Cert.PlainDot.dotGeneral_apply _ rfl rfl rfl rfl rfl rfl none .single P X1 n d

/-- Softmax weights against the five edge anchor rows. -/
def edgePromptFn (P : FVec Ideal S640000x5 .f32) (X4 : FVec Ideal S5x128 .f32) : FVec Ideal S640000x128 .f32 :=
  Host.dotGeneral dot_S640000x5_S5x128_S640000x128_1_0_0_1_n_n none P X4

theorem edgePromptFn_apply (P : FVec Ideal S640000x5 .f32) (X4 : FVec Ideal S5x128 .f32) (e : Fin 640000) (d : Fin 128) :
    edgePromptFn P X4 (ix2 e d) = ∑ a : Fin 5, P (ix2 e a) * X4 (ix2 a d) :=
  Cert.PlainDot.dotGeneral_apply _ rfl rfl rfl rfl rfl rfl none .single P X4 e d

/-! ## Two blocks side by side against a weight matrix -/

/-- Two blocks of 128 columns side by side, contracted against 256 weight rows: the two half sums. -/
theorem concat_dot_apply {R N : ℕ} (A B : (⟨2, ![R, 128]⟩ : Shape).Idx → EReal) (Wt : (⟨2, ![256, N]⟩ : Shape).Idx → EReal)
    (hc : Shape.Concatenates [⟨2, ![R, 128]⟩, ⟨2, ![R, 128]⟩] ⟨2, ![R, 256]⟩ 1)
    (d : DotDims ⟨2, ![R, 256]⟩ ⟨2, ![256, N]⟩ ⟨2, ![R, N]⟩)
    (h1 : d.lhsContracting = [1]) (h2 : d.rhsContracting = [0]) (h3 : d.lhsNonContracting = [0])
    (h4 : d.rhsNonContracting = [1]) (h5 : d.lhsBatch = []) (h6 : d.rhsBatch = []) (r : Fin R) (q : Fin N) :
    Host.dotGeneral (F := Ideal) (φ₁ := .f32) (φ₂ := .f32) d none
        (concatenate ⟨2, ![R, 256]⟩ 1 [⟨⟨2, ![R, 128]⟩, A⟩, ⟨⟨2, ![R, 128]⟩, B⟩] hc) Wt (ix2 r q)
      = (∑ k : Fin 128, A (ix2 r k) * Wt (ix2 (Cert.Spec.lo k) q)) + ∑ k : Fin 128, B (ix2 r k) * Wt (ix2 (Cert.Spec.hi k) q) := by
  refine (Cert.PlainDot.dotGeneral_apply d h1 h2 h3 h4 h5 h6 none .single _ Wt r q).trans ?_
  rw [Cert.Spec.sum_halves]
  congr 1
  · refine Finset.sum_congr rfl fun k _ => ?_
    rw [Cert.LibConcatCols.concat_cols_apply (rfl : 256 = 128 + 128) A B hc r (Cert.Spec.lo k), dif_pos (show (Cert.Spec.lo k).val < 128 from k.isLt)]
  · refine Finset.sum_congr rfl fun k _ => ?_
    rw [Cert.LibConcatCols.concat_cols_apply (rfl : 256 = 128 + 128) A B hc r (Cert.Spec.hi k),
      dif_neg (show ¬ (Cert.Spec.hi k).val < 128 from by show ¬ 128 + k.val < 128; omega)]
    congr 3
    exact Fin.ext (show 128 + k.val - 128 = k.val by omega)

/-- The edges' logits before the leaky ReLU. -/
def edgeLogitFn (G1 G2 : FVec Ideal S640000x128 .f32) (X5 : FVec Ideal S256x5 .f32) (X6 : FVec Ideal S5 .f32) : FVec Ideal S640000x5 .f32 :=
  addf (Host.dotGeneral dot_S640000x256_S256x5_S640000x5_1_0_0_1_n_n none
      (concatenate S640000x256 1 [⟨S640000x128, G1⟩, ⟨S640000x128, G2⟩] concatenates_S640000x128_S640000x128_S640000x256_d1) X5)
    (broadcastInDim S640000x5 ![0, 1] bcast_S1x5_S640000x5_0_1 (broadcastInDim S1x5 ![1] bcast_S5_S1x5_1 X6))

theorem edgeLogitFn_apply (G1 G2 : FVec Ideal S640000x128 .f32) (X5 : FVec Ideal S256x5 .f32) (X6 : FVec Ideal S5 .f32) (e : Fin 640000) (a : Fin 5) :
    edgeLogitFn G1 G2 X5 X6 (ix2 e a)
      = ((∑ k : Fin 128, G1 (ix2 e k) * X5 (ix2 (Cert.Spec.lo k) a)) + ∑ k : Fin 128, G2 (ix2 e k) * X5 (ix2 (Cert.Spec.hi k) a))
        + X6 (ix1 a) := by
  unfold edgeLogitFn
  rw [addf_apply]
  congr 1
  · exact concat_dot_apply G1 G2 X5 _ _ rfl rfl rfl rfl rfl rfl e a
  · exact bias_apply X6 _ _ e a

/-- The nodes' gate logits. -/
def gateLogitFn (A B : FVec Ideal S50000x128 .f32) (X7 : FVec Ideal S256x2 .f32) (X8 : FVec Ideal S2 .f32) : FVec Ideal S50000x2 .f32 :=
  addf (Host.dotGeneral dot_S50000x256_S256x2_S50000x2_1_0_0_1_n_n none
      (concatenate S50000x256 1 [⟨S50000x128, A⟩, ⟨S50000x128, B⟩] concatenates_S50000x128_S50000x128_S50000x256_d1) X7)
    (broadcastInDim S50000x2 ![0, 1] bcast_S1x2_S50000x2_0_1 (broadcastInDim S1x2 ![1] bcast_S2_S1x2_1 X8))

theorem gateLogitFn_apply (A B : FVec Ideal S50000x128 .f32) (X7 : FVec Ideal S256x2 .f32) (X8 : FVec Ideal S2 .f32) (n : Fin 50000) (g : Fin 2) :
    gateLogitFn A B X7 X8 (ix2 n g)
      = ((∑ k : Fin 128, A (ix2 n k) * X7 (ix2 (Cert.Spec.lo k) g)) + ∑ k : Fin 128, B (ix2 n k) * X7 (ix2 (Cert.Spec.hi k) g))
        + X8 (ix1 g) := by
  unfold gateLogitFn
  rw [addf_apply]
  congr 1
  · exact concat_dot_apply A B X7 _ _ rfl rfl rfl rfl rfl rfl n g
  · exact bias_apply X8 _ _ n g

/-! ## The leaky ReLU -/

/-- The leaky ReLU of an array of logits. -/
def lreluFn (v : FVec Ideal S640000x5 .f32) : FVec Ideal S640000x5 .f32 :=
  select (cmpf .oge v (broadcastInDim S640000x5 ![] bcast_S_S640000x5 (constant (F := Ideal) S_ .f32 0x00000000#32))) v
    (mulf (broadcastInDim S640000x5 ![] bcast_S_S640000x5 (constant (F := Ideal) S_ .f32 0x3C23D70A#32)) v)

theorem lreluFn_apply (v : FVec Ideal S640000x5 .f32) (i : S640000x5.Idx) : lreluFn v i = Cert.Spec.lrelu (v i) := rfl

/-! ## Update rows added into the rows their index words name -/

/-- The all-zero array the aggregation starts from. -/
def zerosFn : FVec Ideal S50000x128 .f32 := broadcastInDim S50000x128 ![] bcast_S_S50000x128 (constant (F := Ideal) S_ .f32 0x00000000#32)

theorem zerosFn_apply (i : S50000x128.Idx) : zerosFn i = Cert.Spec.zero := rfl

/-- Each update row added into the row its normalised index word names. -/
def scatFn (acc : FVec Ideal S50000x128 .f32) (w : IVec S640000 32) (U : FVec Ideal S640000x128 .f32) : FVec Ideal S50000x128 .f32 :=
  Host.scatterAdd scatter_S50000x128_S640000x1_S640000x128_1_0_0_1 acc (normIdx w) U

theorem scatFn_apply (acc : FVec Ideal S50000x128 .f32) (w : IVec S640000 32) (U : FVec Ideal S640000x128 .f32) (v : Fin 50000) (k : Fin 128) :
    scatFn acc w U (ix2 v k)
      = acc (ix2 v k) + ∑ e ∈ Finset.univ.filter (fun e : Fin 640000 => (Cert.Spec.nrm (w (ix1 e))).toInt = (v.val : Int)), U (ix2 e k) := by
  unfold scatFn
  rw [Cert.ScatterRows.host_scatterAdd_rows_apply _ rfl rfl rfl rfl acc (normIdx w) U v k]
  simp only [normIdx_apply]

/-! ## Two gate columns weighing two arrays -/

/-- Column c of a two-column array repeated over 128 columns reads, at (n, d), the array at (n, c). -/
theorem gateCol0_apply (G : FVec Ideal S50000x2 .f32) (n : Fin 50000) (d : Fin 128) :
    broadcastInDim S50000x128 ![0, 1] bcast_S50000x1_S50000x128_0_1
        (extractStridedSlice S50000x1 ![0, 0] G slices_S50000x2_S50000x1_0_0) (ix2 n d) = G (ix2 n (0 : Fin 2)) := by
  refine (broadcastInDim_apply _ bcast_S50000x1_S50000x128_0_1 _ (ix2 n d) (ix2 n (0 : Fin 1)) fun ax => ?_).trans
    (slice2_axis1_apply 0 G _ n (0 : Fin 1) (0 : Fin 2) rfl)
  match ax with
  | ⟨0, _⟩ => rfl
  | ⟨1, _⟩ => rfl

theorem gateCol1_apply (G : FVec Ideal S50000x2 .f32) (n : Fin 50000) (d : Fin 128) :
    broadcastInDim S50000x128 ![0, 1] bcast_S50000x1_S50000x128_0_1
        (extractStridedSlice S50000x1 ![0, 1] G slices_S50000x2_S50000x1_0_1) (ix2 n d) = G (ix2 n (1 : Fin 2)) := by
  refine (broadcastInDim_apply _ bcast_S50000x1_S50000x128_0_1 _ (ix2 n d) (ix2 n (0 : Fin 1)) fun ax => ?_).trans
    (slice2_axis1_apply 1 G _ n (0 : Fin 1) (1 : Fin 2) rfl)
  match ax with
  | ⟨0, _⟩ => rfl
  | ⟨1, _⟩ => rfl

/-- The output: the two gates of a node weighing its two feature rows. -/
def outFn (G : FVec Ideal S50000x2 .f32) (A B : FVec Ideal S50000x128 .f32) : FVec Ideal S50000x128 .f32 :=
  addf (mulf (broadcastInDim S50000x128 ![0, 1] bcast_S50000x1_S50000x128_0_1
        (extractStridedSlice S50000x1 ![0, 0] G slices_S50000x2_S50000x1_0_0)) A)
    (mulf (broadcastInDim S50000x128 ![0, 1] bcast_S50000x1_S50000x128_0_1
        (extractStridedSlice S50000x1 ![0, 1] G slices_S50000x2_S50000x1_0_1)) B)

theorem outFn_apply (G : FVec Ideal S50000x2 .f32) (A B : FVec Ideal S50000x128 .f32) (n : Fin 50000) (d : Fin 128) :
    outFn G A B (ix2 n d) = G (ix2 n (0 : Fin 2)) * A (ix2 n d) + G (ix2 n (1 : Fin 2)) * B (ix2 n d) := by
  unfold outFn
  rw [addf_apply, mulf_apply, mulf_apply, gateCol0_apply, gateCol1_apply]

end Cert.RefStages

end
-- ==== Proof.RefRead.lean ====
/-
  The reference's line read stretch by stretch: after each stretch, the buffer it leaves for the later ones holds the
  stage's array function of the buffers that entered the stretch. Reading the whole line from its end backwards, each
  result is the composition of the stages over the arguments.
-/
import proofs.«162870_j34248069218340_2_alg».proof.Proof.RefRun
import proofs.«162870_j34248069218340_2_alg».proof.Proof.RefPass
import proofs.«162870_j34248069218340_2_alg».proof.Proof.RefStages
import proofs.«162870_j34248069218340_2_alg».proof.Proof.LibSoftmaxRows

noncomputable section

namespace Cert.RefRead

open Cert.ReferenceIdeal Cert.ReferenceIdeal.Gen Cert.RefRun Cert.RefPass Cert.RefStages Cert.SoftmaxRows
open Idealize.ShloMosaic Idealize.ShloMosaic.TcCoe Idealize.SL.Sem Idealize.ShloMosaic.StableHlo

/-- The buffers' contents, at the extended reals. -/
abbrev Val : Type := Valuation τ sig (Elt Ideal)

/-! ## Each stretch's result -/

theorem read_v1 (W : Val) : after (opsIdx (F := Ideal)) W (main_v1 : DevRef τ sig) = idxRow0 (W (main_arg9 : DevRef τ sig)) := by
  after_results_simp <;> rfl

theorem read_v3 (W : Val) : after (opsIdx (F := Ideal)) W (main_v3 : DevRef τ sig) = idxRow1 (W (main_arg9 : DevRef τ sig)) := by
  after_results_simp <;> rfl

theorem read_v7 (W : Val) : after (opsNodeLogit (F := Ideal)) W (main_v7 : DevRef τ sig)
    = nodeLogitFn (W (main_arg0 : DevRef τ sig)) (W (main_arg2 : DevRef τ sig)) (W (main_arg3 : DevRef τ sig)) := by
  after_results_simp <;> rfl

theorem read_v18 (W : Val) : after (opsNodeSmax (F := Ideal)) W (main_v18 : DevRef τ sig)
    = hostSoftmax (W (main_v7 : DevRef τ sig)) reducesTo_S50000x5_S50000_d1 h_S_ bcast_S_S50000 bcast_S50000_S50000x1_0 bcast_S50000x1_S50000x5_0_1 := by
  after_results_simp <;> rfl

theorem read_v20 (W : Val) : after (opsNodePrompt (F := Ideal)) W (main_v20 : DevRef τ sig)
    = nodePromptFn (W (main_arg0 : DevRef τ sig)) (W (main_v18 : DevRef τ sig)) (W (main_arg1 : DevRef τ sig)) := by
  after_results_simp <;> rfl

theorem read_v27 (W : Val) : after (opsSrcGather (F := Ideal)) W (main_v27 : DevRef τ sig)
    = gatherFn (W (main_arg0 : DevRef τ sig)) (W (main_v1 : DevRef τ sig)) := by
  after_results_simp <;> rfl

theorem read_v34 (W : Val) : after (opsDstGather (F := Ideal)) W (main_v34 : DevRef τ sig)
    = gatherFn (W (main_arg0 : DevRef τ sig)) (W (main_v3 : DevRef τ sig)) := by
  after_results_simp <;> rfl

theorem read_v39 (W : Val) : after (opsEdgeLogit (F := Ideal)) W (main_v39 : DevRef τ sig)
    = edgeLogitFn (W (main_v27 : DevRef τ sig)) (W (main_v34 : DevRef τ sig)) (W (main_arg5 : DevRef τ sig)) (W (main_arg6 : DevRef τ sig)) := by
  after_results_simp <;> rfl

theorem read_v40 (W : Val) : after (opsLrelu (F := Ideal)) W (main_v40 : DevRef τ sig) = lreluFn (W (main_v39 : DevRef τ sig)) := by
  after_results_simp <;> rfl

theorem read_v51 (W : Val) : after (opsEdgeSmaxB (F := Ideal)) (after (opsEdgeSmaxA (F := Ideal)) W) (main_v51 : DevRef τ sig)
    = hostSoftmax (W (main_v40 : DevRef τ sig)) reducesTo_S640000x5_S640000_d1 h_S_ bcast_S_S640000 bcast_S640000_S640000x1_0 bcast_S640000x1_S640000x5_0_1 := by
  after_results_simp <;> rfl

theorem read_v52 (W : Val) : after (opsEdgePrompt (F := Ideal)) W (main_v52 : DevRef τ sig)
    = edgePromptFn (W (main_v51 : DevRef τ sig)) (W (main_arg4 : DevRef τ sig)) := by
  after_results_simp <;> rfl

theorem read_v60 (W : Val) : after (opsScatSrc (F := Ideal)) W (main_v60 : DevRef τ sig)
    = scatFn zerosFn (W (main_v1 : DevRef τ sig)) (W (main_v52 : DevRef τ sig)) := by
  after_results_simp <;> rfl

theorem read_v67 (W : Val) : after (opsScatDst (F := Ideal)) W (main_v67 : DevRef τ sig)
    = scatFn (W (main_v60 : DevRef τ sig)) (W (main_v3 : DevRef τ sig)) (W (main_v52 : DevRef τ sig)) := by
  after_results_simp <;> rfl

theorem read_v72 (W : Val) : after (opsGateLogit (F := Ideal)) W (main_v72 : DevRef τ sig)
    = gateLogitFn (W (main_v20 : DevRef τ sig)) (W (main_v67 : DevRef τ sig)) (W (main_arg7 : DevRef τ sig)) (W (main_arg8 : DevRef τ sig)) := by
  after_results_simp <;> rfl

theorem read_v83 (W : Val) : after (opsGateSmax (F := Ideal)) W (main_v83 : DevRef τ sig)
    = hostSoftmax (W (main_v72 : DevRef τ sig)) reducesTo_S50000x2_S50000_d1 h_S_ bcast_S_S50000 bcast_S50000_S50000x1_0 bcast_S50000x1_S50000x2_0_1 := by
  after_results_simp <;> rfl

theorem read_v90 (W : Val) : after (opsOut (F := Ideal)) W (main_v90 : DevRef τ sig)
    = outFn (W (main_v83 : DevRef τ sig)) (W (main_v20 : DevRef τ sig)) (W (main_v67 : DevRef τ sig)) := by
  after_results_simp <;> rfl

end Cert.RefRead

end
-- ==== Proof.RefValue.lean ====
/-
  The reference's results as mathematics. Each result of the reference's line is the composition of the layer's stages
  over the arguments; composed stage by stage and read at an index, it is the specification's formula: the prompted
  node features, the edge prompts, what the edges bring each node, and the gated output. The arguments are unchanged.
-/
import proofs.«162870_j34248069218340_2_alg».proof.Proof.RefRead

noncomputable section

open scoped BigOperators

namespace Cert.RefValue

open Cert.ReferenceIdeal Cert.ReferenceIdeal.Gen Cert.RefRun Cert.RefPass Cert.RefStages Cert.RefRead Cert.SoftmaxRows
open Idealize.ShloMosaic Idealize.ShloMosaic.TcCoe Idealize.ShloMosaic.ValueIdx Idealize.SL.Sem Idealize.ShloMosaic.StableHlo

/-! ## The stages composed over the arguments -/

def aLogit (X0 : FVec Ideal S50000x128 .f32) (X2 : FVec Ideal S128x5 .f32) (X3 : FVec Ideal S5 .f32) : FVec Ideal S50000x5 .f32 := nodeLogitFn X0 X2 X3
def aNodeW (X0 : FVec Ideal S50000x128 .f32) (X2 : FVec Ideal S128x5 .f32) (X3 : FVec Ideal S5 .f32) : FVec Ideal S50000x5 .f32 := hostSoftmax (aLogit X0 X2 X3) reducesTo_S50000x5_S50000_d1 h_S_ bcast_S_S50000 bcast_S50000_S50000x1_0 bcast_S50000x1_S50000x5_0_1
def aNpx (X0 : FVec Ideal S50000x128 .f32) (X1 : FVec Ideal S5x128 .f32) (X2 : FVec Ideal S128x5 .f32) (X3 : FVec Ideal S5 .f32) : FVec Ideal S50000x128 .f32 := nodePromptFn X0 (aNodeW X0 X2 X3) X1
def aSrc (X0 : FVec Ideal S50000x128 .f32) (X9 : IVec S2x640000 32) : FVec Ideal S640000x128 .f32 := gatherFn X0 (idxRow0 X9)
def aDst (X0 : FVec Ideal S50000x128 .f32) (X9 : IVec S2x640000 32) : FVec Ideal S640000x128 .f32 := gatherFn X0 (idxRow1 X9)
def aEdgePre (X0 : FVec Ideal S50000x128 .f32) (X5 : FVec Ideal S256x5 .f32) (X6 : FVec Ideal S5 .f32) (X9 : IVec S2x640000 32) : FVec Ideal S640000x5 .f32 := edgeLogitFn (aSrc X0 X9) (aDst X0 X9) X5 X6
def aEdgeLogit (X0 : FVec Ideal S50000x128 .f32) (X5 : FVec Ideal S256x5 .f32) (X6 : FVec Ideal S5 .f32) (X9 : IVec S2x640000 32) : FVec Ideal S640000x5 .f32 := lreluFn (aEdgePre X0 X5 X6 X9)
def aEdgeW (X0 : FVec Ideal S50000x128 .f32) (X5 : FVec Ideal S256x5 .f32) (X6 : FVec Ideal S5 .f32) (X9 : IVec S2x640000 32) : FVec Ideal S640000x5 .f32 := hostSoftmax (aEdgeLogit X0 X5 X6 X9) reducesTo_S640000x5_S640000_d1 h_S_ bcast_S_S640000 bcast_S640000_S640000x1_0 bcast_S640000x1_S640000x5_0_1
def aEp (X0 : FVec Ideal S50000x128 .f32) (X4 : FVec Ideal S5x128 .f32) (X5 : FVec Ideal S256x5 .f32) (X6 : FVec Ideal S5 .f32) (X9 : IVec S2x640000 32) : FVec Ideal S640000x128 .f32 := edgePromptFn (aEdgeW X0 X5 X6 X9) X4
def aAgg1 (X0 : FVec Ideal S50000x128 .f32) (X4 : FVec Ideal S5x128 .f32) (X5 : FVec Ideal S256x5 .f32) (X6 : FVec Ideal S5 .f32) (X9 : IVec S2x640000 32) : FVec Ideal S50000x128 .f32 := scatFn zerosFn (idxRow0 X9) (aEp X0 X4 X5 X6 X9)
def aEagg (X0 : FVec Ideal S50000x128 .f32) (X4 : FVec Ideal S5x128 .f32) (X5 : FVec Ideal S256x5 .f32) (X6 : FVec Ideal S5 .f32) (X9 : IVec S2x640000 32) : FVec Ideal S50000x128 .f32 := scatFn (aAgg1 X0 X4 X5 X6 X9) (idxRow1 X9) (aEp X0 X4 X5 X6 X9)
def aGateLogit (X0 : FVec Ideal S50000x128 .f32) (X1 : FVec Ideal S5x128 .f32) (X2 : FVec Ideal S128x5 .f32) (X3 : FVec Ideal S5 .f32) (X4 : FVec Ideal S5x128 .f32) (X5 : FVec Ideal S256x5 .f32) (X6 : FVec Ideal S5 .f32) (X7 : FVec Ideal S256x2 .f32) (X8 : FVec Ideal S2 .f32) (X9 : IVec S2x640000 32) : FVec Ideal S50000x2 .f32 := gateLogitFn (aNpx X0 X1 X2 X3) (aEagg X0 X4 X5 X6 X9) X7 X8
def aGateW (X0 : FVec Ideal S50000x128 .f32) (X1 : FVec Ideal S5x128 .f32) (X2 : FVec Ideal S128x5 .f32) (X3 : FVec Ideal S5 .f32) (X4 : FVec Ideal S5x128 .f32) (X5 : FVec Ideal S256x5 .f32) (X6 : FVec Ideal S5 .f32) (X7 : FVec Ideal S256x2 .f32) (X8 : FVec Ideal S2 .f32) (X9 : IVec S2x640000 32) : FVec Ideal S50000x2 .f32 := hostSoftmax (aGateLogit X0 X1 X2 X3 X4 X5 X6 X7 X8 X9) reducesTo_S50000x2_S50000_d1 h_S_ bcast_S_S50000 bcast_S50000_S50000x1_0 bcast_S50000x1_S50000x2_0_1
def aFinal (X0 : FVec Ideal S50000x128 .f32) (X1 : FVec Ideal S5x128 .f32) (X2 : FVec Ideal S128x5 .f32) (X3 : FVec Ideal S5 .f32) (X4 : FVec Ideal S5x128 .f32) (X5 : FVec Ideal S256x5 .f32) (X6 : FVec Ideal S5 .f32) (X7 : FVec Ideal S256x2 .f32) (X8 : FVec Ideal S2 .f32) (X9 : IVec S2x640000 32) : FVec Ideal S50000x128 .f32 := outFn (aGateW X0 X1 X2 X3 X4 X5 X6 X7 X8 X9) (aNpx X0 X1 X2 X3) (aEagg X0 X4 X5 X6 X9)

/-! ## Read at an index -/

/-- Equal second summands give equal sums. -/
theorem add_right_congr {a b c : EReal} (h : b = c) : a + b = a + c := by rw [h]

theorem aLogit_apply (X0 : FVec Ideal S50000x128 .f32) (X2 : FVec Ideal S128x5 .f32) (X3 : FVec Ideal S5 .f32) (n : Fin 50000) (a : Fin 5) :
    aLogit X0 X2 X3 (ix2 n a) = Cert.Spec.nodeLogit X0 X2 X3 n a := nodeLogitFn_apply X0 X2 X3 n a

theorem aNodeW_apply (X0 : FVec Ideal S50000x128 .f32) (X2 : FVec Ideal S128x5 .f32) (X3 : FVec Ideal S5 .f32) (n : Fin 50000) (a : Fin 5) :
    aNodeW X0 X2 X3 (ix2 n a) = Cert.Spec.smax (Cert.Spec.nodeLogit X0 X2 X3 n) a := by
  unfold aNodeW
  rw [hostSoftmax_apply _ _ _ _ _ _ (by decide) n a]
  exact congrArg (fun l => Cert.Spec.smax l a) (funext fun a' => aLogit_apply X0 X2 X3 n a')

theorem aNpx_apply (X0 : FVec Ideal S50000x128 .f32) (X1 : FVec Ideal S5x128 .f32) (X2 : FVec Ideal S128x5 .f32) (X3 : FVec Ideal S5 .f32) (n : Fin 50000) (d : Fin 128) :
    aNpx X0 X1 X2 X3 (ix2 n d) = Cert.Spec.npx X0 X1 X2 X3 n d := by
  unfold aNpx Cert.Spec.npx
  rw [nodePromptFn_apply]
  refine add_right_congr ?_
  exact Finset.sum_congr rfl fun a _ => by rw [aNodeW_apply]

theorem aSrc_apply (X0 : FVec Ideal S50000x128 .f32) (X9 : IVec S2x640000 32) (e : Fin 640000) (k : Fin 128) :
    aSrc X0 X9 (ix2 e k) = X0 (ix2 (Cert.Spec.row (Cert.Spec.srcW X9 e)) k) := by
  unfold aSrc Cert.Spec.srcW
  rw [gatherFn_apply, idxRow0_apply]

theorem aDst_apply (X0 : FVec Ideal S50000x128 .f32) (X9 : IVec S2x640000 32) (e : Fin 640000) (k : Fin 128) :
    aDst X0 X9 (ix2 e k) = X0 (ix2 (Cert.Spec.row (Cert.Spec.dstW X9 e)) k) := by
  unfold aDst Cert.Spec.dstW
  rw [gatherFn_apply, idxRow1_apply]

theorem aEdgeLogit_apply (X0 : FVec Ideal S50000x128 .f32) (X5 : FVec Ideal S256x5 .f32) (X6 : FVec Ideal S5 .f32) (X9 : IVec S2x640000 32) (e : Fin 640000) (a : Fin 5) :
    aEdgeLogit X0 X5 X6 X9 (ix2 e a) = Cert.Spec.edgeLogit X0 X5 X6 X9 e a := by
  unfold aEdgeLogit aEdgePre Cert.Spec.edgeLogit
  rw [lreluFn_apply, edgeLogitFn_apply]
  simp only [aSrc_apply, aDst_apply]

theorem aEdgeW_apply (X0 : FVec Ideal S50000x128 .f32) (X5 : FVec Ideal S256x5 .f32) (X6 : FVec Ideal S5 .f32) (X9 : IVec S2x640000 32) (e : Fin 640000) (a : Fin 5) :
    aEdgeW X0 X5 X6 X9 (ix2 e a) = Cert.Spec.smax (Cert.Spec.edgeLogit X0 X5 X6 X9 e) a := by
  unfold aEdgeW
  rw [hostSoftmax_apply _ _ _ _ _ _ (by decide) e a]
  exact congrArg (fun l => Cert.Spec.smax l a) (funext fun a' => aEdgeLogit_apply X0 X5 X6 X9 e a')

theorem aEp_apply (X0 : FVec Ideal S50000x128 .f32) (X4 : FVec Ideal S5x128 .f32) (X5 : FVec Ideal S256x5 .f32) (X6 : FVec Ideal S5 .f32) (X9 : IVec S2x640000 32) (e : Fin 640000) (d : Fin 128) :
    aEp X0 X4 X5 X6 X9 (ix2 e d) = Cert.Spec.ep X0 X4 X5 X6 X9 e d := by
  unfold aEp Cert.Spec.ep
  rw [edgePromptFn_apply]
  exact Finset.sum_congr rfl fun a _ => by rw [aEdgeW_apply]

theorem aAgg1_apply (X0 : FVec Ideal S50000x128 .f32) (X4 : FVec Ideal S5x128 .f32) (X5 : FVec Ideal S256x5 .f32) (X6 : FVec Ideal S5 .f32) (X9 : IVec S2x640000 32) (v : Fin 50000) (d : Fin 128) :
    aAgg1 X0 X4 X5 X6 X9 (ix2 v d)
      = Cert.Spec.zero + ∑ e ∈ Finset.univ.filter (fun e : Fin 640000 => (Cert.Spec.srcW X9 e).toInt = (v.val : Int)),
          Cert.Spec.ep X0 X4 X5 X6 X9 e d := by
  unfold aAgg1
  rw [scatFn_apply, zerosFn_apply]
  refine add_right_congr ?_
  exact Finset.sum_congr (Finset.filter_congr fun e _ => by rw [idxRow0_apply]; rfl) fun e _ => aEp_apply X0 X4 X5 X6 X9 e d

theorem aEagg_apply (X0 : FVec Ideal S50000x128 .f32) (X4 : FVec Ideal S5x128 .f32) (X5 : FVec Ideal S256x5 .f32) (X6 : FVec Ideal S5 .f32) (X9 : IVec S2x640000 32) (v : Fin 50000) (d : Fin 128) :
    aEagg X0 X4 X5 X6 X9 (ix2 v d) = Cert.Spec.eagg X0 X4 X5 X6 X9 v d := by
  unfold aEagg Cert.Spec.eagg
  rw [scatFn_apply, aAgg1_apply]
  refine add_right_congr ?_
  exact Finset.sum_congr (Finset.filter_congr fun e _ => by rw [idxRow1_apply]; rfl) fun e _ => aEp_apply X0 X4 X5 X6 X9 e d

theorem aGateLogit_apply (X0 : FVec Ideal S50000x128 .f32) (X1 : FVec Ideal S5x128 .f32) (X2 : FVec Ideal S128x5 .f32) (X3 : FVec Ideal S5 .f32) (X4 : FVec Ideal S5x128 .f32) (X5 : FVec Ideal S256x5 .f32) (X6 : FVec Ideal S5 .f32) (X7 : FVec Ideal S256x2 .f32) (X8 : FVec Ideal S2 .f32) (X9 : IVec S2x640000 32) (n : Fin 50000) (g : Fin 2) :
    aGateLogit X0 X1 X2 X3 X4 X5 X6 X7 X8 X9 (ix2 n g) = Cert.Spec.gateLogit X0 X1 X2 X3 X4 X5 X6 X7 X8 X9 n g := by
  unfold aGateLogit Cert.Spec.gateLogit
  rw [gateLogitFn_apply]
  simp only [aNpx_apply, aEagg_apply]

theorem aGateW_apply (X0 : FVec Ideal S50000x128 .f32) (X1 : FVec Ideal S5x128 .f32) (X2 : FVec Ideal S128x5 .f32) (X3 : FVec Ideal S5 .f32) (X4 : FVec Ideal S5x128 .f32) (X5 : FVec Ideal S256x5 .f32) (X6 : FVec Ideal S5 .f32) (X7 : FVec Ideal S256x2 .f32) (X8 : FVec Ideal S2 .f32) (X9 : IVec S2x640000 32) (n : Fin 50000) (g : Fin 2) :
    aGateW X0 X1 X2 X3 X4 X5 X6 X7 X8 X9 (ix2 n g) = Cert.Spec.smax (Cert.Spec.gateLogit X0 X1 X2 X3 X4 X5 X6 X7 X8 X9 n) g := by
  unfold aGateW
  rw [hostSoftmax_apply _ _ _ _ _ _ (by decide) n g]
  exact congrArg (fun l => Cert.Spec.smax l g) (funext fun g' => aGateLogit_apply X0 X1 X2 X3 X4 X5 X6 X7 X8 X9 n g')

theorem aFinal_apply (X0 : FVec Ideal S50000x128 .f32) (X1 : FVec Ideal S5x128 .f32) (X2 : FVec Ideal S128x5 .f32) (X3 : FVec Ideal S5 .f32) (X4 : FVec Ideal S5x128 .f32) (X5 : FVec Ideal S256x5 .f32) (X6 : FVec Ideal S5 .f32) (X7 : FVec Ideal S256x2 .f32) (X8 : FVec Ideal S2 .f32) (X9 : IVec S2x640000 32) (n : Fin 50000) (d : Fin 128) :
    aFinal X0 X1 X2 X3 X4 X5 X6 X7 X8 X9 (ix2 n d) = Cert.Spec.final X0 X1 X2 X3 X4 X5 X6 X7 X8 X9 n d := by
  unfold aFinal Cert.Spec.final
  rw [outFn_apply, aGateW_apply, aGateW_apply, aNpx_apply, aEagg_apply]

/-! ## The line read from its end -/

/-- The whole line's fold is the stretches' folds one over the other. -/
theorem after_ops (V : Val) :
    after (ops (F := Ideal)) V
      = after opsOut (after opsGateSmax (after opsGateLogit (after opsScatDst (after opsScatSrc (after opsEdgePrompt
          (after opsEdgeSmaxB (after opsEdgeSmaxA (after opsLrelu (after opsEdgeLogit (after opsDstGather (after opsSrcGather
            (after opsNodePrompt (after opsNodeSmax (after opsNodeLogit (after opsIdx V))))))))))))))) := by
  simp only [ops, opsP0, opsP1, Cert.HostFold.after_append]

theorem fold_npx (V : Val) : after (ops (F := Ideal)) V (main_v20 : DevRef τ sig) = aNpx (V (main_arg0 : DevRef τ sig)) (V (main_arg1 : DevRef τ sig)) (V (main_arg2 : DevRef τ sig)) (V (main_arg3 : DevRef τ sig)) := by
  simp only [aNpx, aNodeW, aLogit]
  rw [after_ops]
  rw [
    opsOut_pass _ main_v20 (by decide), opsGateSmax_pass _ main_v20 (by decide), opsGateLogit_pass _ main_v20 (by decide),
    opsScatDst_pass _ main_v20 (by decide), opsScatSrc_pass _ main_v20 (by decide), opsEdgePrompt_pass _ main_v20 (by decide),
    opsEdgeSmaxB_pass _ main_v20 (by decide), opsEdgeSmaxA_pass _ main_v20 (by decide), opsLrelu_pass _ main_v20 (by decide),
    opsEdgeLogit_pass _ main_v20 (by decide), opsDstGather_pass _ main_v20 (by decide), opsSrcGather_pass _ main_v20 (by decide),
    read_v20, opsNodeSmax_pass _ main_arg0 (by decide), opsNodeSmax_pass _ main_arg1 (by decide),
    read_v18, opsNodeLogit_pass _ main_arg0 (by decide), opsNodeLogit_pass _ main_arg1 (by decide),
    read_v7, opsIdx_pass _ main_arg0 (by decide), opsIdx_pass _ main_arg1 (by decide),
    opsIdx_pass _ main_arg2 (by decide), opsIdx_pass _ main_arg3 (by decide)]

theorem fold_ep (V : Val) : after (ops (F := Ideal)) V (main_v52 : DevRef τ sig) = aEp (V (main_arg0 : DevRef τ sig)) (V (main_arg4 : DevRef τ sig)) (V (main_arg5 : DevRef τ sig)) (V (main_arg6 : DevRef τ sig)) (V (main_arg9 : DevRef τ sig)) := by
  simp only [aEp, aEdgeW, aEdgeLogit, aEdgePre, aSrc, aDst]
  rw [after_ops]
  rw [
    opsOut_pass _ main_v52 (by decide), opsGateSmax_pass _ main_v52 (by decide), opsGateLogit_pass _ main_v52 (by decide),
    opsScatDst_pass _ main_v52 (by decide), opsScatSrc_pass _ main_v52 (by decide), read_v52,
    opsEdgeSmaxB_pass _ main_arg4 (by decide), read_v51, opsEdgeSmaxA_pass _ main_arg4 (by decide),
    opsLrelu_pass _ main_arg4 (by decide), read_v40, opsEdgeLogit_pass _ main_arg4 (by decide),
    read_v39, opsDstGather_pass _ main_arg4 (by decide), opsDstGather_pass _ main_arg5 (by decide),
    opsDstGather_pass _ main_arg6 (by decide), opsDstGather_pass _ main_v27 (by decide), read_v34,
    opsSrcGather_pass _ main_arg0 (by decide), opsSrcGather_pass _ main_arg4 (by decide), opsSrcGather_pass _ main_arg5 (by decide),
    opsSrcGather_pass _ main_arg6 (by decide), read_v27, opsSrcGather_pass _ main_v3 (by decide),
    opsNodePrompt_pass _ main_arg0 (by decide), opsNodePrompt_pass _ main_arg4 (by decide), opsNodePrompt_pass _ main_arg5 (by decide),
    opsNodePrompt_pass _ main_arg6 (by decide), opsNodePrompt_pass _ main_v1 (by decide), opsNodePrompt_pass _ main_v3 (by decide),
    opsNodeSmax_pass _ main_arg0 (by decide), opsNodeSmax_pass _ main_arg4 (by decide), opsNodeSmax_pass _ main_arg5 (by decide),
    opsNodeSmax_pass _ main_arg6 (by decide), opsNodeSmax_pass _ main_v1 (by decide), opsNodeSmax_pass _ main_v3 (by decide),
    opsNodeLogit_pass _ main_arg0 (by decide), opsNodeLogit_pass _ main_arg4 (by decide), opsNodeLogit_pass _ main_arg5 (by decide),
    opsNodeLogit_pass _ main_arg6 (by decide), opsNodeLogit_pass _ main_v1 (by decide), opsNodeLogit_pass _ main_v3 (by decide),
    opsIdx_pass _ main_arg0 (by decide), opsIdx_pass _ main_arg4 (by decide), opsIdx_pass _ main_arg5 (by decide),
    opsIdx_pass _ main_arg6 (by decide), read_v1, read_v3]

theorem fold_eagg (V : Val) : after (ops (F := Ideal)) V (main_v67 : DevRef τ sig) = aEagg (V (main_arg0 : DevRef τ sig)) (V (main_arg4 : DevRef τ sig)) (V (main_arg5 : DevRef τ sig)) (V (main_arg6 : DevRef τ sig)) (V (main_arg9 : DevRef τ sig)) := by
  simp only [aEagg, aAgg1, aEp, aEdgeW, aEdgeLogit, aEdgePre, aSrc, aDst]
  rw [after_ops]
  rw [
    opsOut_pass _ main_v67 (by decide), opsGateSmax_pass _ main_v67 (by decide), opsGateLogit_pass _ main_v67 (by decide),
    read_v67, opsScatSrc_pass _ main_v3 (by decide), opsScatSrc_pass _ main_v52 (by decide),
    read_v60, opsEdgePrompt_pass _ main_v1 (by decide), opsEdgePrompt_pass _ main_v3 (by decide),
    read_v52, opsEdgeSmaxB_pass _ main_arg4 (by decide), opsEdgeSmaxB_pass _ main_v1 (by decide),
    opsEdgeSmaxB_pass _ main_v3 (by decide), read_v51, opsEdgeSmaxA_pass _ main_arg4 (by decide),
    opsEdgeSmaxA_pass _ main_v1 (by decide), opsEdgeSmaxA_pass _ main_v3 (by decide), opsLrelu_pass _ main_arg4 (by decide),
    opsLrelu_pass _ main_v1 (by decide), opsLrelu_pass _ main_v3 (by decide), read_v40,
    opsEdgeLogit_pass _ main_arg4 (by decide), opsEdgeLogit_pass _ main_v1 (by decide), opsEdgeLogit_pass _ main_v3 (by decide),
    read_v39, opsDstGather_pass _ main_arg4 (by decide), opsDstGather_pass _ main_arg5 (by decide),
    opsDstGather_pass _ main_arg6 (by decide), opsDstGather_pass _ main_v1 (by decide), opsDstGather_pass _ main_v27 (by decide),
    opsDstGather_pass _ main_v3 (by decide), read_v34, opsSrcGather_pass _ main_arg0 (by decide),
    opsSrcGather_pass _ main_arg4 (by decide), opsSrcGather_pass _ main_arg5 (by decide), opsSrcGather_pass _ main_arg6 (by decide),
    opsSrcGather_pass _ main_v1 (by decide), read_v27, opsSrcGather_pass _ main_v3 (by decide),
    opsNodePrompt_pass _ main_arg0 (by decide), opsNodePrompt_pass _ main_arg4 (by decide), opsNodePrompt_pass _ main_arg5 (by decide),
    opsNodePrompt_pass _ main_arg6 (by decide), opsNodePrompt_pass _ main_v1 (by decide), opsNodePrompt_pass _ main_v3 (by decide),
    opsNodeSmax_pass _ main_arg0 (by decide), opsNodeSmax_pass _ main_arg4 (by decide), opsNodeSmax_pass _ main_arg5 (by decide),
    opsNodeSmax_pass _ main_arg6 (by decide), opsNodeSmax_pass _ main_v1 (by decide), opsNodeSmax_pass _ main_v3 (by decide),
    opsNodeLogit_pass _ main_arg0 (by decide), opsNodeLogit_pass _ main_arg4 (by decide), opsNodeLogit_pass _ main_arg5 (by decide),
    opsNodeLogit_pass _ main_arg6 (by decide), opsNodeLogit_pass _ main_v1 (by decide), opsNodeLogit_pass _ main_v3 (by decide),
    opsIdx_pass _ main_arg0 (by decide), opsIdx_pass _ main_arg4 (by decide), opsIdx_pass _ main_arg5 (by decide),
    opsIdx_pass _ main_arg6 (by decide), read_v1, read_v3]

theorem fold_final (V : Val) : after (ops (F := Ideal)) V (main_v90 : DevRef τ sig) = aFinal (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  simp only [aFinal, aGateW, aGateLogit, aNpx, aNodeW, aLogit, aEagg, aAgg1, aEp, aEdgeW, aEdgeLogit, aEdgePre, aSrc, aDst]
  rw [after_ops]
  rw [
    read_v90, opsGateSmax_pass _ main_v20 (by decide), opsGateSmax_pass _ main_v67 (by decide),
    read_v83, opsGateLogit_pass _ main_v20 (by decide), opsGateLogit_pass _ main_v67 (by decide),
    read_v72, opsScatDst_pass _ main_arg7 (by decide), opsScatDst_pass _ main_arg8 (by decide),
    opsScatDst_pass _ main_v20 (by decide), read_v67, opsScatSrc_pass _ main_arg7 (by decide),
    opsScatSrc_pass _ main_arg8 (by decide), opsScatSrc_pass _ main_v20 (by decide), opsScatSrc_pass _ main_v3 (by decide),
    opsScatSrc_pass _ main_v52 (by decide), read_v60, opsEdgePrompt_pass _ main_arg7 (by decide),
    opsEdgePrompt_pass _ main_arg8 (by decide), opsEdgePrompt_pass _ main_v1 (by decide), opsEdgePrompt_pass _ main_v20 (by decide),
    opsEdgePrompt_pass _ main_v3 (by decide), read_v52, opsEdgeSmaxB_pass _ main_arg4 (by decide),
    opsEdgeSmaxB_pass _ main_arg7 (by decide), opsEdgeSmaxB_pass _ main_arg8 (by decide), opsEdgeSmaxB_pass _ main_v1 (by decide),
    opsEdgeSmaxB_pass _ main_v20 (by decide), opsEdgeSmaxB_pass _ main_v3 (by decide), read_v51,
    opsEdgeSmaxA_pass _ main_arg4 (by decide), opsEdgeSmaxA_pass _ main_arg7 (by decide), opsEdgeSmaxA_pass _ main_arg8 (by decide),
    opsEdgeSmaxA_pass _ main_v1 (by decide), opsEdgeSmaxA_pass _ main_v20 (by decide), opsEdgeSmaxA_pass _ main_v3 (by decide),
    opsLrelu_pass _ main_arg4 (by decide), opsLrelu_pass _ main_arg7 (by decide), opsLrelu_pass _ main_arg8 (by decide),
    opsLrelu_pass _ main_v1 (by decide), opsLrelu_pass _ main_v20 (by decide), opsLrelu_pass _ main_v3 (by decide),
    read_v40, opsEdgeLogit_pass _ main_arg4 (by decide), opsEdgeLogit_pass _ main_arg7 (by decide),
    opsEdgeLogit_pass _ main_arg8 (by decide), opsEdgeLogit_pass _ main_v1 (by decide), opsEdgeLogit_pass _ main_v20 (by decide),
    opsEdgeLogit_pass _ main_v3 (by decide), read_v39, opsDstGather_pass _ main_arg4 (by decide),
    opsDstGather_pass _ main_arg5 (by decide), opsDstGather_pass _ main_arg6 (by decide), opsDstGather_pass _ main_arg7 (by decide),
    opsDstGather_pass _ main_arg8 (by decide), opsDstGather_pass _ main_v1 (by decide), opsDstGather_pass _ main_v20 (by decide),
    opsDstGather_pass _ main_v27 (by decide), opsDstGather_pass _ main_v3 (by decide), read_v34,
    opsSrcGather_pass _ main_arg0 (by decide), opsSrcGather_pass _ main_arg4 (by decide), opsSrcGather_pass _ main_arg5 (by decide),
    opsSrcGather_pass _ main_arg6 (by decide), opsSrcGather_pass _ main_arg7 (by decide), opsSrcGather_pass _ main_arg8 (by decide),
    opsSrcGather_pass _ main_v1 (by decide), opsSrcGather_pass _ main_v20 (by decide), read_v27,
    opsSrcGather_pass _ main_v3 (by decide), opsNodePrompt_pass _ main_arg0 (by decide), opsNodePrompt_pass _ main_arg4 (by decide),
    opsNodePrompt_pass _ main_arg5 (by decide), opsNodePrompt_pass _ main_arg6 (by decide), opsNodePrompt_pass _ main_arg7 (by decide),
    opsNodePrompt_pass _ main_arg8 (by decide), opsNodePrompt_pass _ main_v1 (by decide), read_v20,
    opsNodePrompt_pass _ main_v3 (by decide), opsNodeSmax_pass _ main_arg0 (by decide), opsNodeSmax_pass _ main_arg1 (by decide),
    opsNodeSmax_pass _ main_arg4 (by decide), opsNodeSmax_pass _ main_arg5 (by decide), opsNodeSmax_pass _ main_arg6 (by decide),
    opsNodeSmax_pass _ main_arg7 (by decide), opsNodeSmax_pass _ main_arg8 (by decide), opsNodeSmax_pass _ main_v1 (by decide),
    read_v18, opsNodeSmax_pass _ main_v3 (by decide), opsNodeLogit_pass _ main_arg0 (by decide),
    opsNodeLogit_pass _ main_arg1 (by decide), opsNodeLogit_pass _ main_arg4 (by decide), opsNodeLogit_pass _ main_arg5 (by decide),
    opsNodeLogit_pass _ main_arg6 (by decide), opsNodeLogit_pass _ main_arg7 (by decide), opsNodeLogit_pass _ main_arg8 (by decide),
    opsNodeLogit_pass _ main_v1 (by decide), opsNodeLogit_pass _ main_v3 (by decide), read_v7,
    opsIdx_pass _ main_arg0 (by decide), opsIdx_pass _ main_arg1 (by decide), opsIdx_pass _ main_arg2 (by decide),
    opsIdx_pass _ main_arg3 (by decide), opsIdx_pass _ main_arg4 (by decide), opsIdx_pass _ main_arg5 (by decide),
    opsIdx_pass _ main_arg6 (by decide), opsIdx_pass _ main_arg7 (by decide), opsIdx_pass _ main_arg8 (by decide),
    read_v1, read_v3]

/-! ## The results and the arguments -/

theorem ref_npx (V : Val) (n : Fin 50000) (d : Fin 128) :
    after (ops (F := Ideal)) V (main_v20 : DevRef τ sig) (ix2 n d) = Cert.Spec.npx (V (main_arg0 : DevRef τ sig)) (V (main_arg1 : DevRef τ sig)) (V (main_arg2 : DevRef τ sig)) (V (main_arg3 : DevRef τ sig)) n d :=
  (congrFun (fold_npx V) (ix2 n d)).trans (aNpx_apply _ _ _ _ n d)

theorem ref_ep (V : Val) (e : Fin 640000) (d : Fin 128) :
    after (ops (F := Ideal)) V (main_v52 : DevRef τ sig) (ix2 e d) = Cert.Spec.ep (V (main_arg0 : DevRef τ sig)) (V (main_arg4 : DevRef τ sig)) (V (main_arg5 : DevRef τ sig)) (V (main_arg6 : DevRef τ sig)) (V (main_arg9 : DevRef τ sig)) e d :=
  (congrFun (fold_ep V) (ix2 e d)).trans (aEp_apply _ _ _ _ _ e d)

theorem ref_eagg (V : Val) (v : Fin 50000) (d : Fin 128) :
    after (ops (F := Ideal)) V (main_v67 : DevRef τ sig) (ix2 v d) = Cert.Spec.eagg (V (main_arg0 : DevRef τ sig)) (V (main_arg4 : DevRef τ sig)) (V (main_arg5 : DevRef τ sig)) (V (main_arg6 : DevRef τ sig)) (V (main_arg9 : DevRef τ sig)) v d :=
  (congrFun (fold_eagg V) (ix2 v d)).trans (aEagg_apply _ _ _ _ _ v d)

theorem ref_final (V : Val) (n : Fin 50000) (d : Fin 128) :
    after (ops (F := Ideal)) V (main_v90 : DevRef τ sig) (ix2 n d) = Cert.Spec.final (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) n d :=
  (congrFun (fold_final V) (ix2 n d)).trans (aFinal_apply _ _ _ _ _ _ _ _ _ _ n d)

theorem ref_arg0 (V : Val) : after (ops (F := Ideal)) V (main_arg0 : DevRef τ sig) = V (main_arg0 : DevRef τ sig) :=
  ops_pass V main_arg0 (by decide)

theorem ref_arg1 (V : Val) : after (ops (F := Ideal)) V (main_arg1 : DevRef τ sig) = V (main_arg1 : DevRef τ sig) :=
  ops_pass V main_arg1 (by decide)

theorem ref_arg2 (V : Val) : after (ops (F := Ideal)) V (main_arg2 : DevRef τ sig) = V (main_arg2 : DevRef τ sig) :=
  ops_pass V main_arg2 (by decide)

theorem ref_arg3 (V : Val) : after (ops (F := Ideal)) V (main_arg3 : DevRef τ sig) = V (main_arg3 : DevRef τ sig) :=
  ops_pass V main_arg3 (by decide)

theorem ref_arg4 (V : Val) : after (ops (F := Ideal)) V (main_arg4 : DevRef τ sig) = V (main_arg4 : DevRef τ sig) :=
  ops_pass V main_arg4 (by decide)

theorem ref_arg5 (V : Val) : after (ops (F := Ideal)) V (main_arg5 : DevRef τ sig) = V (main_arg5 : DevRef τ sig) :=
  ops_pass V main_arg5 (by decide)

theorem ref_arg6 (V : Val) : after (ops (F := Ideal)) V (main_arg6 : DevRef τ sig) = V (main_arg6 : DevRef τ sig) :=
  ops_pass V main_arg6 (by decide)

theorem ref_arg7 (V : Val) : after (ops (F := Ideal)) V (main_arg7 : DevRef τ sig) = V (main_arg7 : DevRef τ sig) :=
  ops_pass V main_arg7 (by decide)

theorem ref_arg8 (V : Val) : after (ops (F := Ideal)) V (main_arg8 : DevRef τ sig) = V (main_arg8 : DevRef τ sig) :=
  ops_pass V main_arg8 (by decide)

theorem ref_arg9 (V : Val) : after (ops (F := Ideal)) V (main_arg9 : DevRef τ sig) = V (main_arg9 : DevRef τ sig) :=
  ops_pass V main_arg9 (by decide)

end Cert.RefValue

end
-- ==== Proof.lean ====
/-
  A graph layer with node and edge prompts, computed two ways. Both programs take node features x [50000, 128], an
  index array of 640000 edges, and small weights, and return four arrays: the prompted node features
  x + softmax(x·A + a)·N; every edge's prompt softmax(leakyReLU([x[src], x[dst]]·W + w))·E; the edge prompts added
  into the rows of both end points of each edge; and the two softmaxed gates of every node weighing its prompted
  features against its aggregated edge prompts. One program computes this in two tiled passes (the edges in 64 blocks
  of 10000 rows, the nodes in 10 blocks of 5000) with the 256-entry contractions split into two halves of 128 and ONE
  scatter-add over the two index lists set end to end; the other computes it array by array with whole contractions
  over concatenated rows and TWO scatter-adds in a row.

  On the extended reals the two agree entry by entry: each tiled pass's result array is, row by row, the block formula
  of its body over the arrays the pass found (a block's row depends only on the same row of the big operands), those
  arrays are what the host operations make of the arguments (gathered rows, halves of the weights, biases as one-row
  matrices), a contraction over 256 entries is the sum of its two halves, and a sum over 2n filtered positions is the
  sum over the first n plus the sum over the last n — commutativity and associativity of sums, nothing that needs
  the inputs finite. Both programs run to the end from any memory with their arguments unchanged.
-/
import proofs.«162870_j34248069218340_2_alg».proof.Defs
import proofs.«162870_j34248069218340_2_alg».proof.Proof.Gen.Kernel
import proofs.«162870_j34248069218340_2_alg».proof.Proof.Gen.Kernel.Skeleton
import proofs.«162870_j34248069218340_2_alg».proof.Proof.Gen.Kernel.Launch
import proofs.«162870_j34248069218340_2_alg».proof.Proof.Gen.Kernel.Points
import proofs.«162870_j34248069218340_2_alg».proof.Proof.Gen.Kernel.Frame
import proofs.«162870_j34248069218340_2_alg».proof.Proof.Gen.KernelIdeal
import proofs.«162870_j34248069218340_2_alg».proof.Proof.Gen.KernelIdeal.Skeleton
import proofs.«162870_j34248069218340_2_alg».proof.Proof.Gen.KernelIdeal.Launch
import proofs.«162870_j34248069218340_2_alg».proof.Proof.Gen.KernelIdeal.Points
import proofs.«162870_j34248069218340_2_alg».proof.Proof.Gen.KernelIdeal.Frame
import proofs.«162870_j34248069218340_2_alg».proof.Proof.Gen.ReferenceIdeal
import proofs.«162870_j34248069218340_2_alg».proof.Proof.Gen.Pre_finite_inputs
import proofs.«162870_j34248069218340_2_alg».proof.Proof.KernRun
import proofs.«162870_j34248069218340_2_alg».proof.Proof.KernValue
import proofs.«162870_j34248069218340_2_alg».proof.Proof.RefRun
import proofs.«162870_j34248069218340_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Idealize.ShloMosaic.StableHlo
open Cert.Spec

/-! ## The specification at equal arguments -/

theorem npx_congr {x x' : A2 50000 128} {na na' : A2 5 128} {aw aw' : A2 128 5} {ab ab' : A1 5}
    (h0 : x = x') (h1 : na = na') (h2 : aw = aw') (h3 : ab = ab') (n : Fin 50000) (d : Fin 128) :
    npx x na aw ab n d = npx x' na' aw' ab' n d := by rw [h0, h1, h2, h3]

theorem ep_congr {x x' : A2 50000 128} {ea ea' : A2 5 128} {ew ew' : A2 256 5} {eb eb' : A1 5}
    {ei ei' : (⟨2, ![2, 640000]⟩ : Shape).Idx → BitVec 32}
    (h0 : x = x') (h4 : ea = ea') (h5 : ew = ew') (h6 : eb = eb') (h9 : ei = ei') (e : Fin 640000) (d : Fin 128) :
    ep x ea ew eb ei e d = ep x' ea' ew' eb' ei' e d := by rw [h0, h4, h5, h6, h9]

theorem eagg_congr {x x' : A2 50000 128} {ea ea' : A2 5 128} {ew ew' : A2 256 5} {eb eb' : A1 5}
    {ei ei' : (⟨2, ![2, 640000]⟩ : Shape).Idx → BitVec 32}
    (h0 : x = x') (h4 : ea = ea') (h5 : ew = ew') (h6 : eb = eb') (h9 : ei = ei') (v : Fin 50000) (d : Fin 128) :
    eagg x ea ew eb ei v d = eagg x' ea' ew' eb' ei' v d := by rw [h0, h4, h5, h6, h9]

theorem final_congr {x x' : A2 50000 128} {na na' : A2 5 128} {aw aw' : A2 128 5} {ab ab' : A1 5} {ea ea' : A2 5 128}
    {ew ew' : A2 256 5} {eb eb' : A1 5} {gw gw' : A2 256 2} {gb gb' : A1 2}
    {ei ei' : (⟨2, ![2, 640000]⟩ : Shape).Idx → BitVec 32}
    (h0 : x = x') (h1 : na = na') (h2 : aw = aw') (h3 : ab = ab') (h4 : ea = ea') (h5 : ew = ew') (h6 : eb = eb')
    (h7 : gw = gw') (h8 : gb = gb') (h9 : ei = ei') (n : Fin 50000) (d : Fin 128) :
    final x na aw ab ea ew eb gw gb ei n d = final x' na' aw' ab' ea' ew' eb' gw' gb' ei' n d := by
  rw [h0, h1, h2, h3, h4, h5, h6, h7, h8, h9]

/-! ## The claims -/

/-- The tiled program as printed runs to the end with its arguments unchanged. -/
theorem frame_k : Cert.frame_Kernel := fun m ρ _ => Cert.Kernel.Gen.frame m ρ

/-- So does the tiled program read on the extended reals. -/
theorem frame_ki : Cert.frame_KernelIdeal := fun m ρ _ => Cert.KernelIdeal.Gen.frame m ρ

/-- The array-by-array program runs to the end, and none of its operations writes an argument. -/
theorem frame_ri : Cert.frame_ReferenceIdeal := fun m ρ _ =>
  (θ_run Cert.ReferenceIdeal.defs _ _).mono (fun r h c =>
    ⟨(h c _).trans (Cert.RefValue.ref_arg0 _), (h c _).trans (Cert.RefValue.ref_arg1 _),
     (h c _).trans (Cert.RefValue.ref_arg2 _), (h c _).trans (Cert.RefValue.ref_arg3 _),
     (h c _).trans (Cert.RefValue.ref_arg4 _), (h c _).trans (Cert.RefValue.ref_arg5 _),
     (h c _).trans (Cert.RefValue.ref_arg6 _), (h c _).trans (Cert.RefValue.ref_arg7 _),
     (h c _).trans (Cert.RefValue.ref_arg8 _), (h c _).trans (Cert.RefValue.ref_arg9 _)⟩)
    (Cert.RefRun.run_main (F := Ideal) m ρ)

/-- No operation of the tiled program was rewritten for the extended reals. -/
theorem preserves : Cert.preserves_Kernel_KernelIdeal := trivial

/-- From memories that agree on the arguments both programs end with the same four arrays: each is, entry by entry,
    the specification's function of the arguments. -/
theorem algebraic : Cert.algebraic_KernelIdeal_ReferenceIdeal := by
  intro m ρ m' ρ' _ hagree
  refine ⟨fun c => Cert.KernelIdeal.Gen.W4 m ρ c (Proc.devRef .tc Cert.KernelIdeal.main_v39_1),
    fun c => Cert.KernelIdeal.Gen.W4 m ρ c (Proc.devRef .tc Cert.KernelIdeal.main_v24),
    fun c => Cert.KernelIdeal.Gen.W4 m ρ c (Proc.devRef .tc Cert.KernelIdeal.main_v39_0),
    fun c => Cert.KernelIdeal.Gen.W4 m ρ c (Proc.devRef .tc Cert.KernelIdeal.main_v34),
    Cert.KernRun.run_results m ρ, ?_⟩
  refine (θ_run Cert.ReferenceIdeal.defs _ _).mono (fun r h c => ?_) (Cert.RefRun.run_main (F := Ideal) m' ρ')
  obtain ⟨a0, a1, a2, a3, a4, a5, a6, a7, a8, a9⟩ := hagree c
  refine ⟨(h c _).trans ?_, (h c _).trans ?_, (h c _).trans ?_, (h c _).trans ?_,
    (h c _).trans (Cert.RefValue.ref_arg0 _), (h c _).trans (Cert.RefValue.ref_arg1 _),
    (h c _).trans (Cert.RefValue.ref_arg2 _), (h c _).trans (Cert.RefValue.ref_arg3 _),
    (h c _).trans (Cert.RefValue.ref_arg4 _), (h c _).trans (Cert.RefValue.ref_arg5 _),
    (h c _).trans (Cert.RefValue.ref_arg6 _), (h c _).trans (Cert.RefValue.ref_arg7 _),
    (h c _).trans (Cert.RefValue.ref_arg8 _), (h c _).trans (Cert.RefValue.ref_arg9 _)⟩
  · exact Cert.KernForm.ext_ix2 fun n d => (Cert.RefValue.ref_final _ n d).trans
      ((final_congr a0 a1 a2 a3 a4 a5 a6 a7 a8 a9 n d).trans (Cert.KernValue.kern_final m ρ c n d).symm)
  · exact Cert.KernForm.ext_ix2 fun e d => (Cert.RefValue.ref_ep _ e d).trans
      ((ep_congr a0 a4 a5 a6 a9 e d).trans (Cert.KernValue.kern_ep m ρ c e d).symm)
  · exact Cert.KernForm.ext_ix2 fun n d => (Cert.RefValue.ref_npx _ n d).trans
      ((npx_congr a0 a1 a2 a3 n d).trans (Cert.KernValue.kern_npx m ρ c n d).symm)
  · exact Cert.KernForm.ext_ix2 fun v d => (Cert.RefValue.ref_eagg _ v d).trans
      ((eagg_congr a0 a4 a5 a6 a9 v d).trans (Cert.KernValue.kern_eagg m ρ c v d).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
